-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S100000x64 : Shape := ⟨2, ![100000, 64]⟩
abbrev S600000 : Shape := ⟨1, ![600000]⟩
abbrev S64x128 : Shape := ⟨2, ![64, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part8 {F : FTy → Type} [FloatOps F] (main_arg32 : FVec F S16 .f32) (main_v133 : IVec S_ 1) (main_v136 : IVec S128x16 1) : IVec S_ 1 :=
  let main_c_53 : IVec S_ 1 := constantI S_ 1 1#1
  let main_v137 : IVec S_ 1 := (fun x v => Host.reduce IntOp.andi x v reducesTo_S128x16_S_d0_1 h_S_) main_v136 main_c_53
  let main_v138 : IVec S_ 1 := andi main_v133 main_v137
  let main_v139 : FVec F S16 .f32 := Host.absf main_arg32
  let main_cst_54 : FVec F S_ .f32 := constant S_ .f32 0x7F800000#32
  let main_v140 : FVec F S16 .f32 := broadcastInDim S16 ![] bcast_S_S16 main_cst_54
  let main_v141 : IVec S16 1 := cmpf .olt main_v139 main_v140
  let main_c_55 : IVec S_ 1 := constantI S_ 1 1#1
  let main_v142 : IVec S_ 1 := (fun x v => Host.reduce IntOp.andi x v reducesTo_S16_S_d0 h_S_) main_v141 main_c_55
  let main_v143 : IVec S_ 1 := andi main_v138 main_v142
  main_v143

def fn_part7 {F : FTy → Type} [FloatOps F] (main_arg29 : FVec F S128x128 .f32) (main_arg30 : FVec F S128 .f32) (main_arg31 : FVec F S128x16 .f32) (main_arg32 : FVec F S16 .f32) (main_v118 : IVec S_ 1) (main_v119 : FVec F S128x128 .f32) : IVec S_ 1 :=
  let main_cst_46 : FVec F S_ .f32 := constant S_ .f32 0x7F800000#32
  let main_v120 : FVec F S128x128 .f32 := broadcastInDim S128x128 ![] bcast_S_S128x128 main_cst_46
  let main_v121 : IVec S128x128 1 := cmpf .olt main_v119 main_v120
  let main_c_47 : IVec S_ 1 := constantI S_ 1 1#1
  let main_v122 : IVec S_ 1 := (fun x v => Host.reduce IntOp.andi x v reducesTo_S128x128_S_d0_1 h_S_) main_v121 main_c_47
  let main_v123 : IVec S_ 1 := andi main_v118 main_v122
  let main_v124 : FVec F S128x128 .f32 := Host.absf main_arg29
  let main_cst_48 : FVec F S_ .f32 := constant S_ .f32 0x7F800000#32
  let main_v125 : FVec F S128x128 .f32 := broadcastInDim S128x128 ![] bcast_S_S128x128 main_cst_48
  let main_v126 : IVec S128x128 1 := cmpf .olt main_v124 main_v125
  let main_c_49 : IVec S_ 1 := constantI S_ 1 1#1
  let main_v127 : IVec S_ 1 := (fun x v => Host.reduce IntOp.andi x v reducesTo_S128x128_S_d0_1 h_S_) main_v126 main_c_49
  let main_v128 : IVec S_ 1 := andi main_v123 main_v127
  let main_v129 : FVec F S128 .f32 := Host.absf main_arg30
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S128x16 .f32 := Host.absf main_arg31
  let main_cst_52 : FVec F S_ .f32 := constant S_ .f32 0x7F800000#32
  let main_v135 : FVec F S128x16 .f32 := broadcastInDim S128x16 ![] bcast_S_S128x16 main_cst_52
  let main_v136 : IVec S128x16 1 := cmpf .olt main_v134 main_v135
  fn_part8 (F := F) main_arg32 main_v133 main_v136

def fn_part6 {F : FTy → Type} [FloatOps F] (main_arg25 : FVec F S128x128 .f32) (main_arg26 : FVec F S128x128 .f32) (main_arg27 : FVec F S128 .f32) (main_arg28 : FVec F S128x128 .f32) (main_arg29 : FVec F S128x128 .f32) (main_arg30 : FVec F S128 .f32) (main_arg31 : FVec F S128x16 .f32) (main_arg32 : FVec F S16 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x128 .f32 := Host.absf main_arg25
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128x128 .f32 := Host.absf main_arg26
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128 .f32 := Host.absf main_arg27
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x128 .f32 := Host.absf main_arg28
  fn_part7 (F := F) main_arg29 main_arg30 main_arg31 main_arg32 main_v118 main_v119

def fn_part5 {F : FTy → Type} [FloatOps F] (main_arg22 : FVec F S128x128 .f32) (main_arg23 : FVec F S128x128 .f32) (main_arg24 : FVec F S128 .f32) (main_arg25 : FVec F S128x128 .f32) (main_arg26 : FVec F S128x128 .f32) (main_arg27 : FVec F S128 .f32) (main_arg28 : FVec F S128x128 .f32) (main_arg29 : FVec F S128x128 .f32) (main_arg30 : FVec F S128 .f32) (main_arg31 : FVec F S128x16 .f32) (main_arg32 : FVec F S16 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg22
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128x128 .f32 := Host.absf main_arg23
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg24
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg25 main_arg26 main_arg27 main_arg28 main_arg29 main_arg30 main_arg31 main_arg32 main_v98 main_v101 main_c_39

def fn_part4 {F : FTy → Type} [FloatOps F] (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_arg26 : FVec F S128x128 .f32) (main_arg27 : FVec F S128 .f32) (main_arg28 : FVec F S128x128 .f32) (main_arg29 : FVec F S128x128 .f32) (main_arg30 : FVec F S128 .f32) (main_arg31 : FVec F S128x16 .f32) (main_arg32 : FVec F S16 .f32) (main_v63 : IVec S_ 1) (main_v67 : IVec S_ 1) : IVec S_ 1 :=
  let main_v68 : IVec S_ 1 := andi main_v63 main_v67
  let main_v69 : FVec F S128 .f32 := Host.absf main_arg18
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg19
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128x128 .f32 := Host.absf main_arg20
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg21
  let main_cst_32 : FVec F S_ .f32 := constant S_ .f32 0x7F800000#32
  fn_part5 (F := F) main_arg22 main_arg23 main_arg24 main_arg25 main_arg26 main_arg27 main_arg28 main_arg29 main_arg30 main_arg31 main_arg32 main_v83 main_v84 main_cst_32

def fn_part3 {F : FTy → Type} [FloatOps F] (main_arg15 : FVec F S128 .f32) (main_arg16 : FVec F S128x128 .f32) (main_arg17 : FVec F S64x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_arg26 : FVec F S128x128 .f32) (main_arg27 : FVec F S128 .f32) (main_arg28 : FVec F S128x128 .f32) (main_arg29 : FVec F S128x128 .f32) (main_arg30 : FVec F S128 .f32) (main_arg31 : FVec F S128x16 .f32) (main_arg32 : FVec F S16 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg16
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S64x128 .f32 := Host.absf main_arg17
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg18 main_arg19 main_arg20 main_arg21 main_arg22 main_arg23 main_arg24 main_arg25 main_arg26 main_arg27 main_arg28 main_arg29 main_arg30 main_arg31 main_arg32 main_v63 main_v67

def fn_part2 {F : FTy → Type} [FloatOps F] (main_arg11 : FVec F S128x128 .f32) (main_arg12 : FVec F S128 .f32) (main_arg13 : FVec F S128x128 .f32) (main_arg14 : FVec F S64x128 .f32) (main_arg15 : FVec F S128 .f32) (main_arg16 : FVec F S128x128 .f32) (main_arg17 : FVec F S64x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_arg26 : FVec F S128x128 .f32) (main_arg27 : FVec F S128 .f32) (main_arg28 : FVec F S128x128 .f32) (main_arg29 : FVec F S128x128 .f32) (main_arg30 : FVec F S128 .f32) (main_arg31 : FVec F S128x16 .f32) (main_arg32 : FVec F S16 .f32) (main_v33 : IVec S_ 1) : IVec S_ 1 :=
  let main_v34 : FVec F S128x128 .f32 := Host.absf main_arg11
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg13
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S64x128 .f32 := Host.absf main_arg14
  let main_cst_18 : FVec F S_ .f32 := constant S_ .f32 0x7F800000#32
  let main_v50 : FVec F S64x128 .f32 := broadcastInDim S64x128 ![] bcast_S_S64x128 main_cst_18
  fn_part3 (F := F) main_arg15 main_arg16 main_arg17 main_arg18 main_arg19 main_arg20 main_arg21 main_arg22 main_arg23 main_arg24 main_arg25 main_arg26 main_arg27 main_arg28 main_arg29 main_arg30 main_arg31 main_arg32 main_v48 main_v49 main_v50

def fn_part1 {F : FTy → Type} [FloatOps F] (main_arg8 : FVec F S128x128 .f32) (main_arg9 : FVec F S128 .f32) (main_arg10 : FVec F S64x128 .f32) (main_arg11 : FVec F S128x128 .f32) (main_arg12 : FVec F S128 .f32) (main_arg13 : FVec F S128x128 .f32) (main_arg14 : FVec F S64x128 .f32) (main_arg15 : FVec F S128 .f32) (main_arg16 : FVec F S128x128 .f32) (main_arg17 : FVec F S64x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_arg26 : FVec F S128x128 .f32) (main_arg27 : FVec F S128 .f32) (main_arg28 : FVec F S128x128 .f32) (main_arg29 : FVec F S128x128 .f32) (main_arg30 : FVec F S128 .f32) (main_arg31 : FVec F S128x16 .f32) (main_arg32 : FVec F S16 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg10
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v33

def fn {F : FTy → Type} [FloatOps F] (main_arg0 : FVec F S200000x128 .f32) (main_arg1 : FVec F S100000x64 .f32) (main_arg2 : FVec F S100000x64 .f32) (main_arg3 : IVec S600000 32) (main_arg4 : IVec S600000 32) (main_arg5 : IVec S600000 32) (main_arg6 : IVec S600000 32) (main_arg7 : FVec F S64x128 .f32) (main_arg8 : FVec F S128x128 .f32) (main_arg9 : FVec F S128 .f32) (main_arg10 : FVec F S64x128 .f32) (main_arg11 : FVec F S128x128 .f32) (main_arg12 : FVec F S128 .f32) (main_arg13 : FVec F S128x128 .f32) (main_arg14 : FVec F S64x128 .f32) (main_arg15 : FVec F S128 .f32) (main_arg16 : FVec F S128x128 .f32) (main_arg17 : FVec F S64x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_arg26 : FVec F S128x128 .f32) (main_arg27 : FVec F S128 .f32) (main_arg28 : FVec F S128x128 .f32) (main_arg29 : FVec F S128x128 .f32) (main_arg30 : FVec F S128 .f32) (main_arg31 : FVec F S128x16 .f32) (main_arg32 : FVec F S16 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S64x128 .f32 := Host.absf main_arg7
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v13 main_v16
-- ==== Kernel.lean ====
abbrev S200000x128 : Shape := ⟨2, ![200000, 128]⟩
abbrev S100000x64 : Shape := ⟨2, ![100000, 64]⟩
abbrev S600000 : Shape := ⟨1, ![600000]⟩
abbrev S64x128 : Shape := ⟨2, ![64, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S200000 : Shape := ⟨1, ![200000]⟩
abbrev S600000x1 : Shape := ⟨2, ![600000, 1]⟩
abbrev S100000 : Shape := ⟨1, ![100000]⟩
abbrev S600000x64 : Shape := ⟨2, ![600000, 64]⟩
abbrev S200000x64 : Shape := ⟨2, ![200000, 64]⟩
abbrev S600000x128 : Shape := ⟨2, ![600000, 128]⟩
abbrev S100000x128 : Shape := ⟨2, ![100000, 128]⟩
abbrev S200000x1 : Shape := ⟨2, ![200000, 1]⟩
abbrev S1x128 : Shape := ⟨2, ![1, 128]⟩
abbrev S4000x64 : Shape := ⟨2, ![4000, 64]⟩
abbrev S4000x1 : Shape := ⟨2, ![4000, 1]⟩
abbrev S4000x128 : Shape := ⟨2, ![4000, 128]⟩
abbrev S100000x1 : Shape := ⟨2, ![100000, 1]⟩
abbrev S1x16 : Shape := ⟨2, ![1, 16]⟩
abbrev S200000x16 : Shape := ⟨2, ![200000, 16]⟩
abbrev S4000x16 : Shape := ⟨2, ![4000, 16]⟩

abbrev nBuf : Space → Nat
  | .hbm => 146
  | .vmem => 60
  | .smem => 0
  | _ => 0

abbrev hbmTy0_0 (i : Nat) : BufTy := match i % 128 with
  | 0 => ⟨S200000x128, .f32⟩
  | 1 => ⟨S100000x64, .f32⟩
  | 2 => ⟨S100000x64, .f32⟩
  | 3 => ⟨S600000, .i32⟩
  | 4 => ⟨S600000, .i32⟩
  | 5 => ⟨S600000, .i32⟩
  | 6 => ⟨S600000, .i32⟩
  | 7 => ⟨S64x128, .f32⟩
  | 8 => ⟨S128x128, .f32⟩
  | 9 => ⟨S128, .f32⟩
  | 10 => ⟨S64x128, .f32⟩
  | 11 => ⟨S128x128, .f32⟩
  | 12 => ⟨S128, .f32⟩
  | 13 => ⟨S128x128, .f32⟩
  | 14 => ⟨S64x128, .f32⟩
  | 15 => ⟨S128, .f32⟩
  | 16 => ⟨S128x128, .f32⟩
  | 17 => ⟨S64x128, .f32⟩
  | 18 => ⟨S128, .f32⟩
  | 19 => ⟨S128x128, .f32⟩
  | 20 => ⟨S128x128, .f32⟩
  | 21 => ⟨S128, .f32⟩
  | 22 => ⟨S128x128, .f32⟩
  | 23 => ⟨S128x128, .f32⟩
  | 24 => ⟨S128, .f32⟩
  | 25 => ⟨S128x128, .f32⟩
  | 26 => ⟨S128x128, .f32⟩
  | 27 => ⟨S128, .f32⟩
  | 28 => ⟨S128x128, .f32⟩
  | 29 => ⟨S128x128, .f32⟩
  | 30 => ⟨S128, .f32⟩
  | 31 => ⟨S128x16, .f32⟩
  | 32 => ⟨S16, .f32⟩
  | 33 => ⟨S_, .f32⟩
  | 34 => ⟨S600000, .f32⟩
  | 35 => ⟨S_, .f32⟩
  | 36 => ⟨S200000, .f32⟩
  | 37 => ⟨S600000x1, .i32⟩
  | 38 => ⟨S200000, .f32⟩
  | 39 => ⟨S_, .f32⟩
  | 40 => ⟨S200000, .f32⟩
  | 41 => ⟨S600000x1, .i32⟩
  | 42 => ⟨S200000, .f32⟩
  | 43 => ⟨S_, .f32⟩
  | 44 => ⟨S100000, .f32⟩
  | 45 => ⟨S600000x1, .i32⟩
  | 46 => ⟨S100000, .f32⟩
  | 47 => ⟨S_, .f32⟩
  | 48 => ⟨S100000, .f32⟩
  | 49 => ⟨S600000x1, .i32⟩
  | 50 => ⟨S100000, .f32⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S600000x64, .f32⟩
  | 60 => ⟨S_, .f32⟩
  | 61 => ⟨S200000x64, .f32⟩
  | 62 => ⟨S600000x1, .i32⟩
  | 63 => ⟨S200000x64, .f32⟩
  | 64 => ⟨S_, .i32⟩
  | 65 => ⟨S600000, .i32⟩
  | 66 => ⟨S600000, .i1⟩
  | 67 => ⟨S_, .i32⟩
  | 68 => ⟨S600000, .i32⟩
  | 69 => ⟨S600000, .i32⟩
  | 70 => ⟨S600000, .i32⟩
  | 71 => ⟨S600000x1, .i32⟩
  | 72 => ⟨S600000x64, .f32⟩
  | 73 => ⟨S_, .f32⟩
  | 74 => ⟨S200000x64, .f32⟩
  | 75 => ⟨S600000x1, .i32⟩
  | 76 => ⟨S200000x64, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S600000x128, .f32⟩
  | 86 => ⟨S_, .f32⟩
  | 87 => ⟨S100000x128, .f32⟩
  | 88 => ⟨S600000x1, .i32⟩
  | 89 => ⟨S100000x128, .f32⟩
  | 90 => ⟨S_, .i32⟩
  | 91 => ⟨S600000, .i32⟩
  | 92 => ⟨S600000, .i1⟩
  | 93 => ⟨S_, .i32⟩
  | 94 => ⟨S600000, .i32⟩
  | 95 => ⟨S600000, .i32⟩
  | 96 => ⟨S600000, .i32⟩
  | 97 => ⟨S600000x1, .i32⟩
  | 98 => ⟨S600000x128, .f32⟩
  | 99 => ⟨S_, .f32⟩
  | 100 => ⟨S100000x128, .f32⟩
  | 101 => ⟨S600000x1, .i32⟩
  | 102 => ⟨S100000x128, .f32⟩
  | 103 => ⟨S200000x1, .f32⟩
  | 104 => ⟨S200000x1, .f32⟩
  | 105 => ⟨S1x128, .f32⟩
  | 106 => ⟨S1x128, .f32⟩
  | 107 => ⟨S200000x128, .f32⟩
  | 108 => ⟨S100000x1, .f32⟩
  | 109 => ⟨S1x128, .f32⟩
  | 110 => ⟨S100000x128, .f32⟩
  | 111 => ⟨S100000x1, .f32⟩
  | 112 => ⟨S1x128, .f32⟩
  | 113 => ⟨S100000x128, .f32⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S600000x128, .f32⟩
  | 123 => ⟨S_, .f32⟩
  | 124 => ⟨S200000x128, .f32⟩
  | 125 => ⟨S600000x1, .i32⟩
  | 126 => ⟨S200000x128, .f32⟩
  | 127 => ⟨S_, .i32⟩
  | _ => ⟨S200000x128, .f32⟩

abbrev hbmTy0_1 (i : Nat) : BufTy := match i % 128 with
  | 0 => ⟨S600000, .i32⟩
  | 1 => ⟨S600000, .i1⟩
  | 2 => ⟨S_, .i32⟩
  | 3 => ⟨S600000, .i32⟩
  | 4 => ⟨S600000, .i32⟩
  | 5 => ⟨S600000, .i32⟩
  | 6 => ⟨S600000x1, .i32⟩
  | 7 => ⟨S600000x128, .f32⟩
  | 8 => ⟨S_, .f32⟩
  | 9 => ⟨S200000x128, .f32⟩
  | 10 => ⟨S600000x1, .i32⟩
  | 11 => ⟨S200000x128, .f32⟩
  | 12 => ⟨S200000x1, .f32⟩
  | 13 => ⟨S200000x1, .f32⟩
  | 14 => ⟨S1x128, .f32⟩
  | 15 => ⟨S1x128, .f32⟩
  | 16 => ⟨S1x16, .f32⟩
  | 17 => ⟨S200000x16, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x1, .f32⟩
  | .local _ .vmem, ⟨3, _⟩ => ⟨S4000x1, .f32⟩
  | .local _ .vmem, ⟨4, _⟩ => ⟨S4000x64, .f32⟩
  | .local _ .vmem, ⟨5, _⟩ => ⟨S4000x64, .f32⟩
  | .local _ .vmem, ⟨6, _⟩ => ⟨S4000x1, .f32⟩
  | .local _ .vmem, ⟨7, _⟩ => ⟨S4000x1, .f32⟩
  | .local _ .vmem, ⟨8, _⟩ => ⟨S4000x128, .f32⟩
  | .local _ .vmem, ⟨9, _⟩ => ⟨S4000x128, .f32⟩
  | .local _ .vmem, ⟨10, _⟩ => ⟨S64x128, .f32⟩
  | .local _ .vmem, ⟨11, _⟩ => ⟨S128x128, .f32⟩
  | .local _ .vmem, ⟨12, _⟩ => ⟨S1x128, .f32⟩
  | .local _ .vmem, ⟨13, _⟩ => ⟨S64x128, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x1, .f32⟩
  | .local _ .vmem, ⟨21, _⟩ => ⟨S4000x1, .f32⟩
  | .local _ .vmem, ⟨22, _⟩ => ⟨S4000x64, .f32⟩
  | .local _ .vmem, ⟨23, _⟩ => ⟨S4000x64, .f32⟩
  | .local _ .vmem, ⟨24, _⟩ => ⟨S128x128, .f32⟩
  | .local _ .vmem, ⟨25, _⟩ => ⟨S64x128, .f32⟩
  | .local _ .vmem, ⟨26, _⟩ => ⟨S1x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x1, .f32⟩
  | .local _ .vmem, ⟨32, _⟩ => ⟨S4000x1, .f32⟩
  | .local _ .vmem, ⟨33, _⟩ => ⟨S4000x64, .f32⟩
  | .local _ .vmem, ⟨34, _⟩ => ⟨S4000x64, .f32⟩
  | .local _ .vmem, ⟨35, _⟩ => ⟨S128x128, .f32⟩
  | .local _ .vmem, ⟨36, _⟩ => ⟨S64x128, .f32⟩
  | .local _ .vmem, ⟨37, _⟩ => ⟨S1x128, .f32⟩
  | .local _ .vmem, ⟨38, _⟩ => ⟨S4000x128, .f32⟩
  | .local _ .vmem, ⟨39, _⟩ => ⟨S4000x128, .f32⟩
  | .local _ .vmem, ⟨40, _⟩ => ⟨S4000x128, .f32⟩
  | .local _ .vmem, ⟨41, _⟩ => ⟨S4000x128, .f32⟩
  | .local _ .vmem, ⟨42, _⟩ => ⟨S4000x1, .f32⟩
  | .local _ .vmem, ⟨43, _⟩ => ⟨S4000x1, .f32⟩
  | .local _ .vmem, ⟨44, _⟩ => ⟨S4000x128, .f32⟩
  | .local _ .vmem, ⟨45, _⟩ => ⟨S4000x128, .f32⟩
  | .local _ .vmem, ⟨46, _⟩ => ⟨S4000x1, .f32⟩
  | .local _ .vmem, ⟨47, _⟩ => ⟨S4000x1, .f32⟩
  | .local _ .vmem, ⟨48, _⟩ => ⟨S4000x128, .f32⟩
  | .local _ .vmem, ⟨49, _⟩ => ⟨S4000x128, .f32⟩
  | .local _ .vmem, ⟨50, _⟩ => ⟨S128x128, .f32⟩
  | .local _ .vmem, ⟨51, _⟩ => ⟨S128x128, .f32⟩
  | .local _ .vmem, ⟨52, _⟩ => ⟨S1x128, .f32⟩
  | .local _ .vmem, ⟨53, _⟩ => ⟨S128x128, .f32⟩
  | .local _ .vmem, ⟨54, _⟩ => ⟨S128x128, .f32⟩
  | .local _ .vmem, ⟨55, _⟩ => ⟨S1x128, .f32⟩
  | .local _ .vmem, ⟨56, _⟩ => ⟨S128x16, .f32⟩
  | .local _ .vmem, ⟨57, _⟩ => ⟨S1x16, .f32⟩
  | .local _ .vmem, ⟨58, _⟩ => ⟨S4000x16, .f32⟩
  | .local _ .vmem, ⟨59, _⟩ => ⟨S4000x16, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_cst : Ref sig .tc := ⟨.hbm, 33, rfl⟩
abbrev main_v0 : Ref sig .tc := ⟨.hbm, 34, rfl⟩
abbrev main_cst_0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_cst_1 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_cst_2 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_cst_3 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_c : Ref sig .tc := ⟨.hbm, 51, rfl⟩
abbrev main_v13 : Ref sig .tc := ⟨.hbm, 52, rfl⟩
abbrev main_v14 : Ref sig .tc := ⟨.hbm, 53, rfl⟩
abbrev main_c_4 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_5 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_c_6 : Ref sig .tc := ⟨.hbm, 64, rfl⟩
abbrev main_v23 : Ref sig .tc := ⟨.hbm, 65, rfl⟩
abbrev main_v24 : Ref sig .tc := ⟨.hbm, 66, rfl⟩
abbrev main_c_7 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_cst_8 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_c_9 : Ref sig .tc := ⟨.hbm, 77, rfl⟩
abbrev main_v33 : Ref sig .tc := ⟨.hbm, 78, rfl⟩
abbrev main_v34 : Ref sig .tc := ⟨.hbm, 79, rfl⟩
abbrev main_c_10 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_cst_11 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_c_12 : Ref sig .tc := ⟨.hbm, 90, rfl⟩
abbrev main_v43 : Ref sig .tc := ⟨.hbm, 91, rfl⟩
abbrev main_v44 : Ref sig .tc := ⟨.hbm, 92, rfl⟩
abbrev main_c_13 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_cst_14 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_c_15 : Ref sig .tc := ⟨.hbm, 114, rfl⟩
abbrev main_v64 : Ref sig .tc := ⟨.hbm, 115, rfl⟩
abbrev main_v65 : Ref sig .tc := ⟨.hbm, 116, rfl⟩
abbrev main_c_16 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_cst_17 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_c_18 : Ref sig .tc := ⟨.hbm, 127, rfl⟩
abbrev main_v74 : Ref sig .tc := ⟨.hbm, 128, rfl⟩
abbrev main_v75 : Ref sig .tc := ⟨.hbm, 129, rfl⟩
abbrev main_c_19 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_cst_20 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg6_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg6_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg2_1 : Ref sig .tc := ⟨.vmem, 45, rfl⟩
abbrev cc3_stg3_0 : Ref sig .tc := ⟨.vmem, 46, rfl⟩
abbrev cc3_stg3_1 : Ref sig .tc := ⟨.vmem, 47, rfl⟩
abbrev cc3_stg4_0 : Ref sig .tc := ⟨.vmem, 48, rfl⟩
abbrev cc3_stg4_1 : Ref sig .tc := ⟨.vmem, 49, rfl⟩
abbrev cc3_stg5_0 : Ref sig .tc := ⟨.vmem, 50, rfl⟩
abbrev cc3_stg6_0 : Ref sig .tc := ⟨.vmem, 51, rfl⟩
abbrev cc3_stg7_0 : Ref sig .tc := ⟨.vmem, 52, rfl⟩
abbrev cc3_stg8_0 : Ref sig .tc := ⟨.vmem, 53, rfl⟩
abbrev cc3_stg9_0 : Ref sig .tc := ⟨.vmem, 54, rfl⟩
abbrev cc3_stg10_0 : Ref sig .tc := ⟨.vmem, 55, rfl⟩
abbrev cc3_stg11_0 : Ref sig .tc := ⟨.vmem, 56, rfl⟩
abbrev cc3_stg12_0 : Ref sig .tc := ⟨.vmem, 57, rfl⟩
abbrev cc3_stg13_0 : Ref sig .tc := ⟨.vmem, 58, rfl⟩
abbrev cc3_stg13_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem6_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem2_1 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem6_1 : DmaSem sig := 39
abbrev cc3_sem0_0 : DmaSem sig := 40
abbrev cc3_sem0_1 : DmaSem sig := 41
abbrev cc3_sem1_0 : DmaSem sig := 42
abbrev cc3_sem1_1 : DmaSem sig := 43
abbrev cc3_sem2_0 : DmaSem sig := 44
abbrev cc3_sem2_1 : DmaSem sig := 45
abbrev cc3_sem3_0 : DmaSem sig := 46
abbrev cc3_sem3_1 : DmaSem sig := 47
abbrev cc3_sem4_0 : DmaSem sig := 48
abbrev cc3_sem4_1 : DmaSem sig := 49
abbrev cc3_sem5_0 : DmaSem sig := 50
abbrev cc3_sem6_0 : DmaSem sig := 51
abbrev cc3_sem7_0 : DmaSem sig := 52
abbrev cc3_sem8_0 : DmaSem sig := 53
abbrev cc3_sem9_0 : DmaSem sig := 54
abbrev cc3_sem10_0 : DmaSem sig := 55
abbrev cc3_sem11_0 : DmaSem sig := 56
abbrev cc3_sem12_0 : DmaSem sig := 57
abbrev cc3_sem13_0 : DmaSem sig := 58
abbrev cc3_sem13_1 : DmaSem sig := 59

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S128x16 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x16 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S4000x16 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

class Facts₀ : Prop where
  bcast_S_S600000 : S_.BroadcastsInDim S600000 (![] : Fin 0 → Fin S600000.rank)
  bcast_S_S200000 : S_.BroadcastsInDim S200000 (![] : Fin 0 → Fin S200000.rank)
  bcast_S600000_S600000x1_0 : S600000.BroadcastsInDim S600000x1 (![0] : Fin 1 → Fin S600000x1.rank)
  bcast_S_S100000 : S_.BroadcastsInDim S100000 (![] : Fin 0 → Fin S100000.rank)
  bcast_S_S200000x64 : S_.BroadcastsInDim S200000x64 (![] : Fin 0 → Fin S200000x64.rank)
  bcast_S_S100000x128 : S_.BroadcastsInDim S100000x128 (![] : Fin 0 → Fin S100000x128.rank)
  shapeCasts_S200000_S200000x1 : S200000.ShapeCasts S200000x1
  shapeCasts_S128_S1x128 : S128.ShapeCasts S1x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S4000x1_S4000x64 : S4000x1.Broadcasts S4000x64
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  shapeCasts_S100000_S100000x1 : S100000.ShapeCasts S100000x1
  shapeCasts_S4000x128_S4000x128 : S4000x128.ShapeCasts S4000x128
  broadcasts_S4000x1_S4000x128 : S4000x1.Broadcasts S4000x128
  bcast_S_S200000x128 : S_.BroadcastsInDim S200000x128 (![] : Fin 0 → Fin S200000x128.rank)
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S4000x16_S4000x16_0_0 : ∀ a, (![0, 0] : Fin 2 → Nat) a + S4000x16.size a ≤ S4000x16.size a
  h_S4000x16 : 0 < S4000x16.numel
  scatter_S200000_S600000x1_S600000_n_0_0_1_wf : ScatterDims.WF S200000 S600000x1 S600000 [] [0] [0] 1
  scatter_S100000_S600000x1_S600000_n_0_0_1_wf : ScatterDims.WF S100000 S600000x1 S600000 [] [0] [0] 1
  gather_S100000x64_S600000x1_S600000x64_1_0_n_n_0_1_164_wf : GatherDims.WF S100000x64 S600000x1 S600000x64 [1] [0] [] [0] [] 1 ![1, 64]
  scatter_S200000x64_S600000x1_S600000x64_1_0_0_1_wf : ScatterDims.WF S200000x64 S600000x1 S600000x64 [1] [0] [0] 1
  gather_S200000x128_S600000x1_S600000x128_1_0_n_n_0_1_1128_wf : GatherDims.WF S200000x128 S600000x1 S600000x128 [1] [0] [] [0] [] 1 ![1, 128]
  scatter_S100000x128_S600000x1_S600000x128_1_0_0_1_wf : ScatterDims.WF S100000x128 S600000x1 S600000x128 [1] [0] [0] 1
  dot_S4000x64_S64x128_S4000x128_1_0_0_1_n_n_wf : DotDims.WF S4000x64 S64x128 S4000x128 [1] [0] [0] [1] [] []
  dot_S4000x128_S128x128_S4000x128_1_0_0_1_n_n_wf : DotDims.WF S4000x128 S128x128 S4000x128 [1] [0] [0] [1] [] []
  gather_S100000x128_S600000x1_S600000x128_1_0_n_n_0_1_1128_wf : GatherDims.WF S100000x128 S600000x1 S600000x128 [1] [0] [] [0] [] 1 ![1, 128]
  scatter_S200000x128_S600000x1_S600000x128_1_0_0_1_wf : ScatterDims.WF S200000x128 S600000x1 S600000x128 [1] [0] [0] 1
  dot_S4000x128_S128x16_S4000x16_1_0_0_1_n_n_wf : DotDims.WF S4000x128 S128x16 S4000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S200000x64.size a
  hwx0_0 : ∀ i : grid0.Coords, EltTy.bits .f32 = 32 ∨ (Rect.block (s := S200000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S200000x1.size a
  hwx0_1 : ∀ i : grid0.Coords, EltTy.bits .f32 = 32 ∨ (Rect.block (s := S200000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S200000x64.size a
  hwx0_2 : ∀ i : grid0.Coords, EltTy.bits .f32 = 32 ∨ (Rect.block (s := S200000x64) S4000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S200000x1.size a
  hwx0_3 : ∀ i : grid0.Coords, EltTy.bits .f32 = 32 ∨ (Rect.block (s := S200000x1) S4000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S200000x128.size a
  hwx0_4 : ∀ i : grid0.Coords, EltTy.bits .f32 = 32 ∨ (Rect.block (s := S200000x128) S4000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S64x128.size a
  hwx0_8 : ∀ i : grid0.Coords, EltTy.bits .f32 = 32 ∨ (Rect.block (s := S64x128) S64x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S200000x128.size a
  hwx0_11 : ∀ i : grid0.Coords, EltTy.bits .f32 = 32 ∨ (Rect.block (s := S200000x128) S4000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S200000x128.size a
  hwx3_0 : ∀ i : grid3.Coords, EltTy.bits .f32 = 32 ∨ (Rect.block (s := S200000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S200000x1.size a
  hwx3_1 : ∀ i : grid3.Coords, EltTy.bits .f32 = 32 ∨ (Rect.block (s := S200000x1) S4000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S200000x128.size a
  hwx3_2 : ∀ i : grid3.Coords, EltTy.bits .f32 = 32 ∨ (Rect.block (s := S200000x128) S4000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x1.size a ≤ S200000x1.size a
  hwx3_3 : ∀ i : grid3.Coords, EltTy.bits .f32 = 32 ∨ (Rect.block (s := S200000x1) S4000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S200000x128.size a
  hwx3_4 : ∀ i : grid3.Coords, EltTy.bits .f32 = 32 ∨ (Rect.block (s := S200000x128) S4000x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128x128.size a ≤ S128x128.size a
  hwx3_9 : ∀ i : grid3.Coords, EltTy.bits .f32 = 32 ∨ (Rect.block (s := S128x128) S128x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x128.size a ≤ S1x128.size a
  hwx3_10 : ∀ i : grid3.Coords, EltTy.bits .f32 = 32 ∨ (Rect.block (s := S1x128) S1x128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S128x16.size a ≤ S128x16.size a
  hwx3_11 : ∀ i : grid3.Coords, EltTy.bits .f32 = 32 ∨ (Rect.block (s := S128x16) S128x16.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x16.size a ≤ S1x16.size a
  hwx3_12 : ∀ i : grid3.Coords, EltTy.bits .f32 = 32 ∨ (Rect.block (s := S1x16) S1x16.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S4000x16.size a ≤ S200000x16.size a
  hwx3_13 : ∀ i : grid3.Coords, EltTy.bits .f32 = 32 ∨ (Rect.block (s := S200000x16) S4000x16.size (cc3_transform_13 i) (hinb3_13 i)).WholeWords (EltTy.packing .f32)

variable [Facts₀]

def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S200000x64_S600000x1_S600000x64_1_0_0_1 : ScatterDims S200000x64 S600000x1 S600000x64 where
  updateWindowDims := [1]
  insertedWindowDims := [0]
  scatterDimsToOperandDims := [0]
  indexVectorDim := 1
  wf := scatter_S200000x64_S600000x1_S600000x64_1_0_0_1_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S4000x128_S128x16_S4000x16_1_0_0_1_n_n : DotDims S4000x128 S128x16 S4000x16 where
  lhsContracting := [1]
  rhsContracting := [0]
  lhsNonContracting := [0]
  rhsNonContracting := [1]
  lhsBatch := []
  rhsBatch := []
  wf := dot_S4000x128_S128x16_S4000x16_1_0_0_1_n_n_wf

abbrev win0_0 : Pipeline.Window sig grid0 :=
  Pipeline.Window.ofSpec (Memref.whole main_v22) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v54) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S4000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v55) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S64x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v56) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v57) S4000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v42) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v60) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v52) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg16) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg17) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v73) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v83) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v85) S4000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v57) S4000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_arg19) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg20) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v86) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg22) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg23) S128x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v87) S1x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_arg31) S128x16.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v88) S1x16.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v89) S4000x16.size cc3_transform_13 reads3_13 true false 2 stage3_13 sem3_13
    hrank3 hreads3_13 hinb3_13 nbuf3_13 (Memref.isWhole_whole _) hwx3_13 hstage3_13

abbrev win3 : Fin 14 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | ⟨_ + 14, h⟩ => absurd h (Nat.not_lt.2 (Nat.le_add_left _ _))
abbrev spec3 : Fin 14 → Pipeline.WinSpec sig grid3.rank := fun w => (win3 w).toWinSpec

class Facts : Prop extends Facts₀ where

variable [Facts]
-- ==== ReferenceIdeal.lean ====
abbrev S200000x128 : Shape := ⟨2, ![200000, 128]⟩
abbrev S100000x64 : Shape := ⟨2, ![100000, 64]⟩
abbrev S600000 : Shape := ⟨1, ![600000]⟩
abbrev S64x128 : Shape := ⟨2, ![64, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S600000x1 : Shape := ⟨2, ![600000, 1]⟩
abbrev S600000x64 : Shape := ⟨2, ![600000, 64]⟩
abbrev S200000x64 : Shape := ⟨2, ![200000, 64]⟩
abbrev S200000 : Shape := ⟨1, ![200000]⟩
abbrev S200000x1 : Shape := ⟨2, ![200000, 1]⟩
abbrev S1x128 : Shape := ⟨2, ![1, 128]⟩
abbrev S600000x128 : Shape := ⟨2, ![600000, 128]⟩
abbrev S100000x128 : Shape := ⟨2, ![100000, 128]⟩
abbrev S100000 : Shape := ⟨1, ![100000]⟩
abbrev S100000x1 : Shape := ⟨2, ![100000, 1]⟩
abbrev S200000x16 : Shape := ⟨2, ![200000, 16]⟩
abbrev S1x16 : Shape := ⟨2, ![1, 16]⟩

abbrev nBuf : Space → Nat
  | .hbm => 311
  | .vmem => 0
  | .smem => 0
  | _ => 0

abbrev hbmTy0_0 (i : Nat) : BufTy := match i % 128 with
  | 0 => ⟨S200000x128, .f32⟩
  | 1 => ⟨S100000x64, .f32⟩
  | 2 => ⟨S100000x64, .f32⟩
  | 3 => ⟨S600000, .i32⟩
  | 4 => ⟨S600000, .i32⟩
  | 5 => ⟨S600000, .i32⟩
  | 6 => ⟨S600000, .i32⟩
  | 7 => ⟨S64x128, .f32⟩
  | 8 => ⟨S128x128, .f32⟩
  | 9 => ⟨S128, .f32⟩
  | 10 => ⟨S64x128, .f32⟩
  | 11 => ⟨S128x128, .f32⟩
  | 12 => ⟨S128, .f32⟩
  | 13 => ⟨S128x128, .f32⟩
  | 14 => ⟨S64x128, .f32⟩
  | 15 => ⟨S128, .f32⟩
  | 16 => ⟨S128x128, .f32⟩
  | 17 => ⟨S64x128, .f32⟩
  | 18 => ⟨S128, .f32⟩
  | 19 => ⟨S128x128, .f32⟩
  | 20 => ⟨S128x128, .f32⟩
  | 21 => ⟨S128, .f32⟩
  | 22 => ⟨S128x128, .f32⟩
  | 23 => ⟨S128x128, .f32⟩
  | 24 => ⟨S128, .f32⟩
  | 25 => ⟨S128x128, .f32⟩
  | 26 => ⟨S128x128, .f32⟩
  | 27 => ⟨S128, .f32⟩
  | 28 => ⟨S128x128, .f32⟩
  | 29 => ⟨S128x128, .f32⟩
  | 30 => ⟨S128, .f32⟩
  | 31 => ⟨S128x16, .f32⟩
  | 32 => ⟨S16, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000x64, .f32⟩
  | 42 => ⟨S_, .f32⟩
  | 43 => ⟨S200000x64, .f32⟩
  | 44 => ⟨S600000x1, .i32⟩
  | 45 => ⟨S200000x64, .f32⟩
  | 46 => ⟨S_, .f32⟩
  | 47 => ⟨S600000, .f32⟩
  | 48 => ⟨S_, .f32⟩
  | 49 => ⟨S200000, .f32⟩
  | 50 => ⟨S600000x1, .i32⟩
  | 51 => ⟨S200000, .f32⟩
  | 52 => ⟨S_, .f32⟩
  | 53 => ⟨S200000, .f32⟩
  | 54 => ⟨S200000, .f32⟩
  | 55 => ⟨S200000x1, .f32⟩
  | 56 => ⟨S200000x64, .f32⟩
  | 57 => ⟨S200000x64, .f32⟩
  | 58 => ⟨S200000x128, .f32⟩
  | 59 => ⟨S1x128, .f32⟩
  | 60 => ⟨S200000x128, .f32⟩
  | 61 => ⟨S200000x128, .f32⟩
  | 62 => ⟨S200000x128, .f32⟩
  | 63 => ⟨S200000x128, .f32⟩
  | 64 => ⟨S_, .i32⟩
  | 65 => ⟨S600000, .i32⟩
  | 66 => ⟨S600000, .i1⟩
  | 67 => ⟨S_, .i32⟩
  | 68 => ⟨S600000, .i32⟩
  | 69 => ⟨S600000, .i32⟩
  | 70 => ⟨S600000, .i32⟩
  | 71 => ⟨S600000x1, .i32⟩
  | 72 => ⟨S600000x64, .f32⟩
  | 73 => ⟨S_, .f32⟩
  | 74 => ⟨S200000x64, .f32⟩
  | 75 => ⟨S600000x1, .i32⟩
  | 76 => ⟨S200000x64, .f32⟩
  | 77 => ⟨S_, .f32⟩
  | 78 => ⟨S600000, .f32⟩
  | 79 => ⟨S_, .f32⟩
  | 80 => ⟨S200000, .f32⟩
  | 81 => ⟨S600000x1, .i32⟩
  | 82 => ⟨S200000, .f32⟩
  | 83 => ⟨S_, .f32⟩
  | 84 => ⟨S200000, .f32⟩
  | 85 => ⟨S200000, .f32⟩
  | 86 => ⟨S200000x1, .f32⟩
  | 87 => ⟨S200000x64, .f32⟩
  | 88 => ⟨S200000x64, .f32⟩
  | 89 => ⟨S200000x128, .f32⟩
  | 90 => ⟨S1x128, .f32⟩
  | 91 => ⟨S200000x128, .f32⟩
  | 92 => ⟨S200000x128, .f32⟩
  | 93 => ⟨S200000x128, .f32⟩
  | 94 => ⟨S200000x128, .f32⟩
  | 95 => ⟨S200000x128, .f32⟩
  | 96 => ⟨S_, .f32⟩
  | 97 => ⟨S200000x128, .f32⟩
  | 98 => ⟨S200000x128, .f32⟩
  | 99 => ⟨S_, .i32⟩
  | 100 => ⟨S600000, .i32⟩
  | 101 => ⟨S600000, .i1⟩
  | 102 => ⟨S_, .i32⟩
  | 103 => ⟨S600000, .i32⟩
  | 104 => ⟨S600000, .i32⟩
  | 105 => ⟨S600000, .i32⟩
  | 106 => ⟨S600000x1, .i32⟩
  | 107 => ⟨S600000x128, .f32⟩
  | 108 => ⟨S_, .f32⟩
  | 109 => ⟨S100000x128, .f32⟩
  | 110 => ⟨S600000x1, .i32⟩
  | 111 => ⟨S100000x128, .f32⟩
  | 112 => ⟨S_, .f32⟩
  | 113 => ⟨S600000, .f32⟩
  | 114 => ⟨S_, .f32⟩
  | 115 => ⟨S100000, .f32⟩
  | 116 => ⟨S600000x1, .i32⟩
  | 117 => ⟨S100000, .f32⟩
  | 118 => ⟨S_, .f32⟩
  | 119 => ⟨S100000, .f32⟩
  | 120 => ⟨S100000, .f32⟩
  | 121 => ⟨S100000x1, .f32⟩
  | 122 => ⟨S100000x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S200000x128, .f32⟩

abbrev hbmTy0_1 (i : Nat) : BufTy := match i % 128 with
  | 0 => ⟨S100000x128, .f32⟩
  | 1 => ⟨S100000x128, .f32⟩
  | 2 => ⟨S_, .i32⟩
  | 3 => ⟨S600000, .i32⟩
  | 4 => ⟨S600000, .i1⟩
  | 5 => ⟨S_, .i32⟩
  | 6 => ⟨S600000, .i32⟩
  | 7 => ⟨S600000, .i32⟩
  | 8 => ⟨S600000, .i32⟩
  | 9 => ⟨S600000x1, .i32⟩
  | 10 => ⟨S600000x128, .f32⟩
  | 11 => ⟨S_, .f32⟩
  | 12 => ⟨S100000x128, .f32⟩
  | 13 => ⟨S600000x1, .i32⟩
  | 14 => ⟨S100000x128, .f32⟩
  | 15 => ⟨S_, .f32⟩
  | 16 => ⟨S600000, .f32⟩
  | 17 => ⟨S_, .f32⟩
  | 18 => ⟨S100000, .f32⟩
  | 19 => ⟨S600000x1, .i32⟩
  | 20 => ⟨S100000, .f32⟩
  | 21 => ⟨S_, .f32⟩
  | 22 => ⟨S100000, .f32⟩
  | 23 => ⟨S100000, .f32⟩
  | 24 => ⟨S100000x1, .f32⟩
  | 25 => ⟨S100000x128, .f32⟩
  | 26 => ⟨S100000x128, .f32⟩
  | 27 => ⟨S100000x128, .f32⟩
  | 28 => ⟨S1x128, .f32⟩
  | 29 => ⟨S100000x128, .f32⟩
  | 30 => ⟨S100000x128, .f32⟩
  | 31 => ⟨S100000x128, .f32⟩
  | 32 => ⟨S100000x128, .f32⟩
  | 33 => ⟨S_, .f32⟩
  | 34 => ⟨S200000x128, .f32⟩
  | 35 => ⟨S200000x128, .f32⟩
  | 36 => ⟨S_, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000x128, .f32⟩
  | 51 => ⟨S_, .f32⟩
  | 52 => ⟨S200000x128, .f32⟩
  | 53 => ⟨S600000x1, .i32⟩
  | 54 => ⟨S200000x128, .f32⟩
  | 55 => ⟨S_, .f32⟩
  | 56 => ⟨S600000, .f32⟩
  | 57 => ⟨S_, .f32⟩
  | 58 => ⟨S200000, .f32⟩
  | 59 => ⟨S600000x1, .i32⟩
  | 60 => ⟨S200000, .f32⟩
  | 61 => ⟨S_, .f32⟩
  | 62 => ⟨S200000, .f32⟩
  | 63 => ⟨S200000, .f32⟩
  | 64 => ⟨S200000x1, .f32⟩
  | 65 => ⟨S200000x128, .f32⟩
  | 66 => ⟨S200000x128, .f32⟩
  | 67 => ⟨S200000x128, .f32⟩
  | 68 => ⟨S1x128, .f32⟩
  | 69 => ⟨S200000x128, .f32⟩
  | 70 => ⟨S200000x128, .f32⟩
  | 71 => ⟨S200000x128, .f32⟩
  | 72 => ⟨S200000x128, .f32⟩
  | 73 => ⟨S_, .i32⟩
  | 74 => ⟨S600000, .i32⟩
  | 75 => ⟨S600000, .i1⟩
  | 76 => ⟨S_, .i32⟩
  | 77 => ⟨S600000, .i32⟩
  | 78 => ⟨S600000, .i32⟩
  | 79 => ⟨S600000, .i32⟩
  | 80 => ⟨S600000x1, .i32⟩
  | 81 => ⟨S600000x128, .f32⟩
  | 82 => ⟨S_, .f32⟩
  | 83 => ⟨S200000x128, .f32⟩
  | 84 => ⟨S600000x1, .i32⟩
  | 85 => ⟨S200000x128, .f32⟩
  | 86 => ⟨S_, .f32⟩
  | 87 => ⟨S600000, .f32⟩
  | 88 => ⟨S_, .f32⟩
  | 89 => ⟨S200000, .f32⟩
  | 90 => ⟨S600000x1, .i32⟩
  | 91 => ⟨S200000, .f32⟩
  | 92 => ⟨S_, .f32⟩
  | 93 => ⟨S200000, .f32⟩
  | 94 => ⟨S200000, .f32⟩
  | 95 => ⟨S200000x1, .f32⟩
  | 96 => ⟨S200000x128, .f32⟩
  | 97 => ⟨S200000x128, .f32⟩
  | 98 => ⟨S200000x128, .f32⟩
  | 99 => ⟨S1x128, .f32⟩
  | 100 => ⟨S200000x128, .f32⟩
  | 101 => ⟨S200000x128, .f32⟩
  | 102 => ⟨S200000x128, .f32⟩
  | 103 => ⟨S200000x128, .f32⟩
  | 104 => ⟨S200000x128, .f32⟩
  | 105 => ⟨S_, .f32⟩
  | 106 => ⟨S200000x128, .f32⟩
  | 107 => ⟨S200000x128, .f32⟩
  | 108 => ⟨S_, .i32⟩
  | 109 => ⟨S600000, .i32⟩
  | 110 => ⟨S600000, .i1⟩
  | 111 => ⟨S_, .i32⟩
  | 112 => ⟨S600000, .i32⟩
  | 113 => ⟨S600000, .i32⟩
  | 114 => ⟨S600000, .i32⟩
  | 115 => ⟨S600000x1, .i32⟩
  | 116 => ⟨S600000x128, .f32⟩
  | 117 => ⟨S_, .f32⟩
  | 118 => ⟨S100000x128, .f32⟩
  | 119 => ⟨S600000x1, .i32⟩
  | 120 => ⟨S100000x128, .f32⟩
  | 121 => ⟨S_, .f32⟩
  | 122 => ⟨S600000, .f32⟩
  | 123 => ⟨S_, .f32⟩
  | 124 => ⟨S100000, .f32⟩
  | 125 => ⟨S600000x1, .i32⟩
  | 126 => ⟨S100000, .f32⟩
  | 127 => ⟨S_, .f32⟩
  | _ => ⟨S200000x128, .f32⟩

abbrev hbmTy0_2 (i : Nat) : BufTy := match i % 128 with
  | 0 => ⟨S100000, .f32⟩
  | 1 => ⟨S100000, .f32⟩
  | 2 => ⟨S100000x1, .f32⟩
  | 3 => ⟨S100000x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S100000x128, .f32⟩
  | 10 => ⟨S100000x128, .f32⟩
  | 11 => ⟨S_, .i32⟩
  | 12 => ⟨S600000, .i32⟩
  | 13 => ⟨S600000, .i1⟩
  | 14 => ⟨S_, .i32⟩
  | 15 => ⟨S600000, .i32⟩
  | 16 => ⟨S600000, .i32⟩
  | 17 => ⟨S600000, .i32⟩
  | 18 => ⟨S600000x1, .i32⟩
  | 19 => ⟨S600000x128, .f32⟩
  | 20 => ⟨S_, .f32⟩
  | 21 => ⟨S100000x128, .f32⟩
  | 22 => ⟨S600000x1, .i32⟩
  | 23 => ⟨S100000x128, .f32⟩
  | 24 => ⟨S_, .f32⟩
  | 25 => ⟨S600000, .f32⟩
  | 26 => ⟨S_, .f32⟩
  | 27 => ⟨S100000, .f32⟩
  | 28 => ⟨S600000x1, .i32⟩
  | 29 => ⟨S100000, .f32⟩
  | 30 => ⟨S_, .f32⟩
  | 31 => ⟨S100000, .f32⟩
  | 32 => ⟨S100000, .f32⟩
  | 33 => ⟨S100000x1, .f32⟩
  | 34 => ⟨S100000x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S100000x128, .f32⟩
  | 41 => ⟨S100000x128, .f32⟩
  | 42 => ⟨S_, .f32⟩
  | 43 => ⟨S200000x128, .f32⟩
  | 44 => ⟨S200000x128, .f32⟩
  | 45 => ⟨S_, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S200000x16, .f32⟩
  | 52 => ⟨S1x16, .f32⟩
  | 53 => ⟨S200000x16, .f32⟩
  | 54 => ⟨S200000x16, .f32⟩
  | _ => ⟨S200000x128, .f32⟩

abbrev hbmTy (i : Nat) : BufTy := match i / 128 with
  | 0 => hbmTy0_0 i
  | 1 => hbmTy0_1 i
  | 2 => hbmTy0_2 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_c : Ref sig .tc := ⟨.hbm, 33, rfl⟩
abbrev main_v0 : Ref sig .tc := ⟨.hbm, 34, rfl⟩
abbrev main_v1 : Ref sig .tc := ⟨.hbm, 35, rfl⟩
abbrev main_c_0 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_cst : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_cst_1 : Ref sig .tc := ⟨.hbm, 46, rfl⟩
abbrev main_v10 : Ref sig .tc := ⟨.hbm, 47, rfl⟩
abbrev main_cst_2 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_cst_3 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_c_4 : Ref sig .tc := ⟨.hbm, 64, rfl⟩
abbrev main_v25 : Ref sig .tc := ⟨.hbm, 65, rfl⟩
abbrev main_v26 : Ref sig .tc := ⟨.hbm, 66, rfl⟩
abbrev main_c_5 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_cst_6 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_cst_7 : Ref sig .tc := ⟨.hbm, 77, rfl⟩
abbrev main_v35 : Ref sig .tc := ⟨.hbm, 78, rfl⟩
abbrev main_cst_8 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_9 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_cst_10 : Ref sig .tc := ⟨.hbm, 96, rfl⟩
abbrev main_v51 : Ref sig .tc := ⟨.hbm, 97, rfl⟩
abbrev main_v52 : Ref sig .tc := ⟨.hbm, 98, rfl⟩
abbrev main_c_11 : Ref sig .tc := ⟨.hbm, 99, rfl⟩
abbrev main_v53 : Ref sig .tc := ⟨.hbm, 100, rfl⟩
abbrev main_v54 : Ref sig .tc := ⟨.hbm, 101, rfl⟩
abbrev main_c_12 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_cst_13 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_14 : Ref sig .tc := ⟨.hbm, 112, rfl⟩
abbrev main_v63 : Ref sig .tc := ⟨.hbm, 113, rfl⟩
abbrev main_cst_15 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_cst_16 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_c_17 : Ref sig .tc := ⟨.hbm, 130, rfl⟩
abbrev main_v78 : Ref sig .tc := ⟨.hbm, 131, rfl⟩
abbrev main_v79 : Ref sig .tc := ⟨.hbm, 132, rfl⟩
abbrev main_c_18 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_cst_19 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_cst_20 : Ref sig .tc := ⟨.hbm, 143, rfl⟩
abbrev main_v88 : Ref sig .tc := ⟨.hbm, 144, rfl⟩
abbrev main_cst_21 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_cst_22 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_call0_cst : Ref sig .tc := ⟨.hbm, 161, rfl⟩
abbrev main_call0_v0 : Ref sig .tc := ⟨.hbm, 162, rfl⟩
abbrev main_v103 : Ref sig .tc := ⟨.hbm, 163, rfl⟩
abbrev main_call1_cst : Ref sig .tc := ⟨.hbm, 164, rfl⟩
abbrev main_call1_v0 : Ref sig .tc := ⟨.hbm, 165, rfl⟩
abbrev main_v104 : Ref sig .tc := ⟨.hbm, 166, rfl⟩
abbrev main_call2_cst : Ref sig .tc := ⟨.hbm, 167, rfl⟩
abbrev main_call2_v0 : Ref sig .tc := ⟨.hbm, 168, rfl⟩
abbrev main_v105 : Ref sig .tc := ⟨.hbm, 169, rfl⟩
abbrev main_c_23 : Ref sig .tc := ⟨.hbm, 170, rfl⟩
abbrev main_v106 : Ref sig .tc := ⟨.hbm, 171, rfl⟩
abbrev main_v107 : Ref sig .tc := ⟨.hbm, 172, rfl⟩
abbrev main_c_24 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_cst_25 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_cst_26 : Ref sig .tc := ⟨.hbm, 183, rfl⟩
abbrev main_v116 : Ref sig .tc := ⟨.hbm, 184, rfl⟩
abbrev main_cst_27 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_cst_28 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_c_29 : Ref sig .tc := ⟨.hbm, 201, rfl⟩
abbrev main_v131 : Ref sig .tc := ⟨.hbm, 202, rfl⟩
abbrev main_v132 : Ref sig .tc := ⟨.hbm, 203, rfl⟩
abbrev main_c_30 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_cst_31 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_cst_32 : Ref sig .tc := ⟨.hbm, 214, rfl⟩
abbrev main_v141 : Ref sig .tc := ⟨.hbm, 215, rfl⟩
abbrev main_cst_33 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_cst_34 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_cst_35 : Ref sig .tc := ⟨.hbm, 233, rfl⟩
abbrev main_v157 : Ref sig .tc := ⟨.hbm, 234, rfl⟩
abbrev main_v158 : Ref sig .tc := ⟨.hbm, 235, rfl⟩
abbrev main_c_36 : Ref sig .tc := ⟨.hbm, 236, rfl⟩
abbrev main_v159 : Ref sig .tc := ⟨.hbm, 237, rfl⟩
abbrev main_v160 : Ref sig .tc := ⟨.hbm, 238, rfl⟩
abbrev main_c_37 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_cst_38 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_cst_39 : Ref sig .tc := ⟨.hbm, 249, rfl⟩
abbrev main_v169 : Ref sig .tc := ⟨.hbm, 250, rfl⟩
abbrev main_cst_40 : Ref sig .tc := ⟨.hbm, 251, rfl⟩
abbrev main_v170 : Ref sig .tc := ⟨.hbm, 252, rfl⟩
abbrev main_v171 : Ref sig .tc := ⟨.hbm, 253, rfl⟩
abbrev main_v172 : Ref sig .tc := ⟨.hbm, 254, rfl⟩
abbrev main_cst_41 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_c_42 : Ref sig .tc := ⟨.hbm, 267, rfl⟩
abbrev main_v184 : Ref sig .tc := ⟨.hbm, 268, rfl⟩
abbrev main_v185 : Ref sig .tc := ⟨.hbm, 269, rfl⟩
abbrev main_c_43 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_cst_44 : Ref sig .tc := ⟨.hbm, 276, rfl⟩
abbrev main_v191 : Ref sig .tc := ⟨.hbm, 277, rfl⟩
abbrev main_v192 : Ref sig .tc := ⟨.hbm, 278, rfl⟩
abbrev main_v193 : Ref sig .tc := ⟨.hbm, 279, rfl⟩
abbrev main_cst_45 : Ref sig .tc := ⟨.hbm, 280, rfl⟩
abbrev main_v194 : Ref sig .tc := ⟨.hbm, 281, rfl⟩
abbrev main_cst_46 : Ref sig .tc := ⟨.hbm, 282, rfl⟩
abbrev main_v195 : Ref sig .tc := ⟨.hbm, 283, rfl⟩
abbrev main_v196 : Ref sig .tc := ⟨.hbm, 284, rfl⟩
abbrev main_v197 : Ref sig .tc := ⟨.hbm, 285, rfl⟩
abbrev main_cst_47 : Ref sig .tc := ⟨.hbm, 286, rfl⟩
abbrev main_v198 : Ref sig .tc := ⟨.hbm, 287, rfl⟩
abbrev main_v199 : Ref sig .tc := ⟨.hbm, 288, rfl⟩
abbrev main_v200 : Ref sig .tc := ⟨.hbm, 289, rfl⟩
abbrev main_v201 : Ref sig .tc := ⟨.hbm, 290, rfl⟩
abbrev main_v202 : Ref sig .tc := ⟨.hbm, 291, rfl⟩
abbrev main_v203 : Ref sig .tc := ⟨.hbm, 292, rfl⟩
abbrev main_v204 : Ref sig .tc := ⟨.hbm, 293, rfl⟩
abbrev main_v205 : Ref sig .tc := ⟨.hbm, 294, rfl⟩
abbrev main_v206 : Ref sig .tc := ⟨.hbm, 295, rfl⟩
abbrev main_v207 : Ref sig .tc := ⟨.hbm, 296, rfl⟩
abbrev main_v208 : Ref sig .tc := ⟨.hbm, 297, rfl⟩
abbrev main_call3_cst : Ref sig .tc := ⟨.hbm, 298, rfl⟩
abbrev main_call3_v0 : Ref sig .tc := ⟨.hbm, 299, rfl⟩
abbrev main_v209 : Ref sig .tc := ⟨.hbm, 300, rfl⟩
abbrev main_call4_cst : Ref sig .tc := ⟨.hbm, 301, rfl⟩
abbrev main_call4_v0 : Ref sig .tc := ⟨.hbm, 302, rfl⟩
abbrev main_v210 : Ref sig .tc := ⟨.hbm, 303, rfl⟩
abbrev main_call5_cst : Ref sig .tc := ⟨.hbm, 304, rfl⟩
abbrev main_call5_v0 : Ref sig .tc := ⟨.hbm, 305, rfl⟩
abbrev main_v211 : Ref sig .tc := ⟨.hbm, 306, rfl⟩
abbrev main_v212 : Ref sig .tc := ⟨.hbm, 307, rfl⟩
abbrev main_v213 : Ref sig .tc := ⟨.hbm, 308, rfl⟩
abbrev main_v214 : Ref sig .tc := ⟨.hbm, 309, rfl⟩
abbrev main_v215 : Ref sig .tc := ⟨.hbm, 310, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  bcast_S200000x1_S200000x128_0_1 : S200000x1.BroadcastsInDim S200000x128 (![0, 1] : Fin 2 → Fin S200000x128.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  gather_S100000x64_S600000x1_S600000x64_1_0_n_n_0_1_164_wf : GatherDims.WF S100000x64 S600000x1 S600000x64 [1] [0] [] [0] [] 1 ![1, 64]
  scatter_S200000x64_S600000x1_S600000x64_1_0_0_1_wf : ScatterDims.WF S200000x64 S600000x1 S600000x64 [1] [0] [0] 1
  scatter_S200000_S600000x1_S600000_n_0_0_1_wf : ScatterDims.WF S200000 S600000x1 S600000 [] [0] [0] 1
  dot_S200000x64_S64x128_S200000x128_1_0_0_1_n_n_wf : DotDims.WF S200000x64 S64x128 S200000x128 [1] [0] [0] [1] [] []
  dot_S200000x128_S128x128_S200000x128_1_0_0_1_n_n_wf : DotDims.WF S200000x128 S128x128 S200000x128 [1] [0] [0] [1] [] []
  gather_S200000x128_S600000x1_S600000x128_1_0_n_n_0_1_1128_wf : GatherDims.WF S200000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  dot_S100000x64_S64x128_S100000x128_1_0_0_1_n_n_wf : DotDims.WF S100000x64 S64x128 S100000x128 [1] [0] [0] [1] [] []
  gather_S100000x128_S600000x1_S600000x128_1_0_n_n_0_1_1128_wf : GatherDims.WF S100000x128 S600000x1 S600000x128 [1] [0] [] [0] [] 1 ![1, 128]
  scatter_S200000x128_S600000x1_S600000x128_1_0_0_1_wf : ScatterDims.WF S200000x128 S600000x1 S600000x128 [1] [0] [0] 1
  dot_S200000x128_S128x16_S200000x16_1_0_0_1_n_n_wf : DotDims.WF S200000x128 S128x16 S200000x16 [1] [0] [0] [1] [] []

variable [Facts₀]

def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S200000x64_S600000x1_S600000x64_1_0_0_1 : ScatterDims S200000x64 S600000x1 S600000x64 where
  updateWindowDims := [1]
  insertedWindowDims := [0]
  scatterDimsToOperandDims := [0]
  indexVectorDim := 1
  wf := scatter_S200000x64_S600000x1_S600000x64_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S200000x128_S128x16_S200000x16_1_0_0_1_n_n : DotDims S200000x128 S128x16 S200000x16 where
  lhsContracting := [1]
  rhsContracting := [0]
  lhsNonContracting := [0]
  rhsNonContracting := [1]
  lhsBatch := []
  rhsBatch := []
  wf := dot_S200000x128_S128x16_S200000x16_1_0_0_1_n_n_wf

class Facts : Prop extends Facts₀ where

variable [Facts]
-- ==== Proof.LibExitUpdate.lean ====
/-
  A kernel region changes one array. The buffer contents a region leaves are stated as "the region's arrays at what its
  write-backs give, every other buffer as entered"; when every array but ONE is left as entered (the inputs), that is
  the entry contents updated at the one output array. General: any topology, signature and value type.
-/
import Idealize.ShloMosaic.Lib.Pipeline.FrameSuffix

noncomputable section

namespace Cert.Lib

open Idealize.ShloMosaic Idealize.ShloMosaic.TcCoe

variable {nD : Nat} {τ : Topo} {sig : RefSig} {Val : EltTy → Type}

/-- The contents with the region's arrays at `A`, where `A` leaves every array but `wo` as `V` has it, are `V` updated at
    array `wo`. -/
theorem withArrays_eq_update {gr W : Nat} (win : Fin W → Pipeline.WinSpec sig gr) (hinj : Function.Injective (Pipeline.arrRef win))
    (c : Dev nD) (V : Valuation τ sig Val) (A : (w : Fin W) → Buf Val ((win w).arr.view.loc (c.tc : Thread nD τ))) (wo : Fin W)
    (hin : ∀ w, w ≠ wo → A w = V (Proc.devRef .tc (Pipeline.arrRef win w))) :
    Pipeline.withArrays win c V A = Function.update V (Proc.devRef .tc (Pipeline.arrRef win wo)) (A wo) := by
  funext b
  by_cases hb : b = Proc.devRef .tc (Pipeline.arrRef win wo)
  · subst hb
    rw [Pipeline.withArrays_arr win hinj, Function.update_self]
  · rw [Function.update_of_ne hb]
    by_cases h : ∃ w, Proc.devRef .tc (Pipeline.arrRef win w) = b
    · obtain ⟨w, rfl⟩ := h
      have hw : w ≠ wo := fun e => hb (e ▸ rfl)
      rw [Pipeline.withArrays_arr win hinj, hin w hw]
    · unfold Pipeline.withArrays
      rw [dif_neg h]

end Cert.Lib

end
-- ==== Proof.LibUnwritten.lean ====
/-
  A buffer that no operation of a line of host operations writes keeps its contents through the line.

  The tactic `unwritten ops` closes a goal `after ops V (Proc.devRef .tc r) = V (Proc.devRef .tc r)` for a literal list
  `ops` (named by the identifier, which it unfolds) of the builders' operations over literal references and a literal
  reference `r`: it reduces the goal to "r is none of the written references" per operation, each decided.
  General: any program's host stretches.
-/
import Idealize.ShloMosaic.Lib.StableHlo.Run

namespace Cert.Lib.Unwritten

open Idealize.ShloMosaic

/-- No operation of the named list writes the buffer in the goal. -/
macro "unwritten" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

end Cert.Lib.Unwritten
-- ==== Proof.Boundary.lean ====
/-
  The contents the kernel's program holds at the boundaries between its host stretches and its kernel regions,
  at the buffers the regions read.

  A region changes ONE array (its output) and leaves every other buffer as it found it; a host stretch changes the
  buffers its operations write and no other. So a buffer is carried unchanged across every segment that does not
  write it, and a buffer a host operation writes holds that operation's function of its operands' contents.
  Followed back to the launch, every array a region reads is a composition of host operations — the same gathers,
  segment sums, clamps and casts the reference applies — of the argument arrays and of earlier regions' outputs.
-/
import proofs.«129889_j55602646614065_1_alg».proof.Proof.Gen.KernelIdeal.Frame
import proofs.«129889_j55602646614065_1_alg».proof.Proof.Gen.ReferenceIdeal.Read
import proofs.«129889_j55602646614065_1_alg».proof.Proof.LibExitUpdate
import proofs.«129889_j55602646614065_1_alg».proof.Proof.LibUnwritten

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen Cert.Lib.Unwritten

variable (m : (ℓ : Loc nD τ sig) → Buf (Elt Ideal) ℓ) (ρ : Dev nD → PrngReg) (c : Dev nD)

/-! ## A region leaves every buffer but its output array as it found it -/

theorem exit0_keep (b : Ref sig .tc) (hb : b ≠ main_v57 := by decide) :
    W2 m ρ c (Proc.devRef .tc b) = W1 m ρ c (Proc.devRef .tc b) := by
  have h := Cert.Lib.withArrays_eq_update spec0 launch0.win.arr_inj c (W1 m ρ c) (fun w => (dat0 (V1 m ρ) c).arrAt w cfg0.N) 11
    (fun w hw => ((dat0 (V1 m ρ) c).arrAt_in w (by revert hw; revert w; decide) _).trans (A_eq0 (V1 m ρ) c w))
  unfold W2
  rw [h]
  exact Function.update_of_ne (StableHlo.devRef_ne_of_ne hb) _ _

theorem exit1_keep (b : Ref sig .tc) (hb : b ≠ main_v60 := by decide) :
    W4 m ρ c (Proc.devRef .tc b) = W3 m ρ c (Proc.devRef .tc b) := by
  have h := Cert.Lib.withArrays_eq_update spec1 launch1.win.arr_inj c (W3 m ρ c) (fun w => (dat1 (V3 m ρ) c).arrAt w cfg1.N) 6
    (fun w hw => ((dat1 (V3 m ρ) c).arrAt_in w (by revert hw; revert w; decide) _).trans (A_eq1 (V3 m ρ) c w))
  unfold W4
  rw [h]
  exact Function.update_of_ne (StableHlo.devRef_ne_of_ne hb) _ _

theorem exit2_keep (b : Ref sig .tc) (hb : b ≠ main_v63 := by decide) :
    W6 m ρ c (Proc.devRef .tc b) = W5 m ρ c (Proc.devRef .tc b) := by
  have h := Cert.Lib.withArrays_eq_update spec2 launch2.win.arr_inj c (W5 m ρ c) (fun w => (dat2 (V5 m ρ) c).arrAt w cfg2.N) 6
    (fun w hw => ((dat2 (V5 m ρ) c).arrAt_in w (by revert hw; revert w; decide) _).trans (A_eq2 (V5 m ρ) c w))
  unfold W6
  rw [h]
  exact Function.update_of_ne (StableHlo.devRef_ne_of_ne hb) _ _

/-! ## The two short host stretches (two casts each) leave every other buffer -/

theorem host1_keep (b : Ref sig .tc) (h58 : b ≠ main_v58 := by decide) (h59 : b ≠ main_v59 := by decide) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h58, StableHlo.devRef_ne_of_ne h59⟩))

theorem host2_keep (b : Ref sig .tc) (h61 : b ≠ main_v61 := by decide) (h62 : b ≠ main_v62 := by decide) :
    W5 m ρ c (Proc.devRef .tc b) = W4 m ρ c (Proc.devRef .tc b) :=
  StableHlo.after_of_forall_not_mem (b := Proc.devRef .tc b) _ _ (List.forall_iff_forall_mem.mp (by
    simp only [hostOps2, List.Forall, StableHlo.reshape_writes, Finset.mem_singleton]
    exact ⟨StableHlo.devRef_ne_of_ne h61, StableHlo.devRef_ne_of_ne h62⟩))

/-- From the third region's entry back to the first region's entry. -/
theorem back3 (b : Ref sig .tc) (h57 : b ≠ main_v57 := by decide) (h58 : b ≠ main_v58 := by decide) (h59 : b ≠ main_v59 := by decide) :
    W3 m ρ c (Proc.devRef .tc b) = W1 m ρ c (Proc.devRef .tc b) :=
  (host1_keep m ρ c b h58 h59).trans (exit0_keep m ρ c b h57)

theorem back5 (b : Ref sig .tc) (h57 : b ≠ main_v57 := by decide) (h58 : b ≠ main_v58 := by decide) (h59 : b ≠ main_v59 := by decide)
    (h60 : b ≠ main_v60 := by decide) (h61 : b ≠ main_v61 := by decide) (h62 : b ≠ main_v62 := by decide) :
    W5 m ρ c (Proc.devRef .tc b) = W1 m ρ c (Proc.devRef .tc b) :=
  (host2_keep m ρ c b h61 h62).trans ((exit1_keep m ρ c b h60).trans (back3 m ρ c b h57 h58 h59))

theorem back6 (b : Ref sig .tc) (h57 : b ≠ main_v57 := by decide) (h58 : b ≠ main_v58 := by decide) (h59 : b ≠ main_v59 := by decide)
    (h60 : b ≠ main_v60 := by decide) (h61 : b ≠ main_v61 := by decide) (h62 : b ≠ main_v62 := by decide)
    (h63 : b ≠ main_v63 := by decide) :
    W6 m ρ c (Proc.devRef .tc b) = W1 m ρ c (Proc.devRef .tc b) :=
  (exit2_keep m ρ c b h63).trans (back5 m ρ c b h57 h58 h59 h60 h61 h62)

/-! ## The first host stretch, from the launch

Its operations write none of the arguments; the buffers it writes hold the composed operations of the arguments —
named here by the stages of the same operations in the reference's program, which are the same functions. -/

theorem w1_arg0 : W1 m ρ c (Proc.devRef .tc main_arg0) = m ((c : Thread nD τ).loc main_arg0) := by
  unwritten hostOps0
theorem w1_arg1 : W1 m ρ c (Proc.devRef .tc main_arg1) = m ((c : Thread nD τ).loc main_arg1) := by
  unwritten hostOps0
theorem w1_arg2 : W1 m ρ c (Proc.devRef .tc main_arg2) = m ((c : Thread nD τ).loc main_arg2) := by
  unwritten hostOps0
theorem w1_arg3 : W1 m ρ c (Proc.devRef .tc main_arg3) = m ((c : Thread nD τ).loc main_arg3) := by
  unwritten hostOps0
theorem w1_arg4 : W1 m ρ c (Proc.devRef .tc main_arg4) = m ((c : Thread nD τ).loc main_arg4) := by
  unwritten hostOps0
theorem w1_arg5 : W1 m ρ c (Proc.devRef .tc main_arg5) = m ((c : Thread nD τ).loc main_arg5) := by
  unwritten hostOps0
theorem w1_arg6 : W1 m ρ c (Proc.devRef .tc main_arg6) = m ((c : Thread nD τ).loc main_arg6) := by
  unwritten hostOps0
theorem w1_arg7 : W1 m ρ c (Proc.devRef .tc main_arg7) = m ((c : Thread nD τ).loc main_arg7) := by
  unwritten hostOps0
theorem w1_arg8 : W1 m ρ c (Proc.devRef .tc main_arg8) = m ((c : Thread nD τ).loc main_arg8) := by
  unwritten hostOps0
theorem w1_arg10 : W1 m ρ c (Proc.devRef .tc main_arg10) = m ((c : Thread nD τ).loc main_arg10) := by
  unwritten hostOps0
theorem w1_arg11 : W1 m ρ c (Proc.devRef .tc main_arg11) = m ((c : Thread nD τ).loc main_arg11) := by
  unwritten hostOps0
theorem w1_arg13 : W1 m ρ c (Proc.devRef .tc main_arg13) = m ((c : Thread nD τ).loc main_arg13) := by
  unwritten hostOps0
theorem w1_arg14 : W1 m ρ c (Proc.devRef .tc main_arg14) = m ((c : Thread nD τ).loc main_arg14) := by
  unwritten hostOps0
theorem w1_arg15 : W1 m ρ c (Proc.devRef .tc main_arg15) = m ((c : Thread nD τ).loc main_arg15) := by
  unwritten hostOps0
theorem w1_arg16 : W1 m ρ c (Proc.devRef .tc main_arg16) = m ((c : Thread nD τ).loc main_arg16) := by
  unwritten hostOps0
theorem w1_arg17 : W1 m ρ c (Proc.devRef .tc main_arg17) = m ((c : Thread nD τ).loc main_arg17) := by
  unwritten hostOps0
theorem w1_arg18 : W1 m ρ c (Proc.devRef .tc main_arg18) = m ((c : Thread nD τ).loc main_arg18) := by
  unwritten hostOps0
theorem w1_arg19 : W1 m ρ c (Proc.devRef .tc main_arg19) = m ((c : Thread nD τ).loc main_arg19) := by
  unwritten hostOps0
theorem w1_arg20 : W1 m ρ c (Proc.devRef .tc main_arg20) = m ((c : Thread nD τ).loc main_arg20) := by
  unwritten hostOps0
theorem w1_arg21 : W1 m ρ c (Proc.devRef .tc main_arg21) = m ((c : Thread nD τ).loc main_arg21) := by
  unwritten hostOps0
theorem w1_arg22 : W1 m ρ c (Proc.devRef .tc main_arg22) = m ((c : Thread nD τ).loc main_arg22) := by
  unwritten hostOps0
theorem w1_arg23 : W1 m ρ c (Proc.devRef .tc main_arg23) = m ((c : Thread nD τ).loc main_arg23) := by
  unwritten hostOps0
theorem w1_arg24 : W1 m ρ c (Proc.devRef .tc main_arg24) = m ((c : Thread nD τ).loc main_arg24) := by
  unwritten hostOps0
theorem w1_arg31 : W1 m ρ c (Proc.devRef .tc main_arg31) = m ((c : Thread nD τ).loc main_arg31) := by
  unwritten hostOps0
theorem w1_arg32 : W1 m ρ c (Proc.devRef .tc main_arg32) = m ((c : Thread nD τ).loc main_arg32) := by
  unwritten hostOps0

set_option maxHeartbeats 4000000 in
/-- The movies' in-degrees over the crew relation. -/
theorem w1_v3 : W1 m ρ c (Proc.devRef .tc main_v3)
    = Cert.ReferenceIdeal.Read.val_main_v13 (F := Ideal) (m ((c : Thread nD τ).loc main_arg4)) := by
  show StableHlo.after hostOps0 (W0 m ρ c) (Proc.devRef .tc main_v3) = _
  after_results_simp
  rfl

set_option maxHeartbeats 4000000 in
/-- The movies' in-degrees over the cast relation. -/
theorem w1_v6 : W1 m ρ c (Proc.devRef .tc main_v6)
    = Cert.ReferenceIdeal.Read.val_main_v38 (F := Ideal) (m ((c : Thread nD τ).loc main_arg6)) := by
  show StableHlo.after hostOps0 (W0 m ρ c) (Proc.devRef .tc main_v6) = _
  after_results_simp
  rfl

set_option maxHeartbeats 4000000 in
/-- The crew's in-degrees over the reversed crew relation. -/
theorem w1_v9 : W1 m ρ c (Proc.devRef .tc main_v9)
    = Cert.ReferenceIdeal.Read.val_main_v66 (F := Ideal) (m ((c : Thread nD τ).loc main_arg3)) := by
  show StableHlo.after hostOps0 (W0 m ρ c) (Proc.devRef .tc main_v9) = _
  after_results_simp
  rfl

set_option maxHeartbeats 4000000 in
/-- The cast's in-degrees over the reversed cast relation. -/
theorem w1_v12 : W1 m ρ c (Proc.devRef .tc main_v12)
    = Cert.ReferenceIdeal.Read.val_main_v91 (F := Ideal) (m ((c : Thread nD τ).loc main_arg5)) := by
  show StableHlo.after hostOps0 (W0 m ρ c) (Proc.devRef .tc main_v12) = _
  after_results_simp
  rfl

set_option maxHeartbeats 4000000 in
/-- The crew features summed into the movies. -/
theorem w1_v22 : W1 m ρ c (Proc.devRef .tc main_v22)
    = Cert.ReferenceIdeal.Read.val_main_v9 (F := Ideal) (m ((c : Thread nD τ).loc main_arg1)) (m ((c : Thread nD τ).loc main_arg3)) (m ((c : Thread nD τ).loc main_arg4)) := by
  show StableHlo.after hostOps0 (W0 m ρ c) (Proc.devRef .tc main_v22) = _
  after_results_simp
  rfl

set_option maxHeartbeats 4000000 in
/-- The cast features summed into the movies. -/
theorem w1_v32 : W1 m ρ c (Proc.devRef .tc main_v32)
    = Cert.ReferenceIdeal.Read.val_main_v34 (F := Ideal) (m ((c : Thread nD τ).loc main_arg2)) (m ((c : Thread nD τ).loc main_arg5)) (m ((c : Thread nD τ).loc main_arg6)) := by
  show StableHlo.after hostOps0 (W0 m ρ c) (Proc.devRef .tc main_v32) = _
  after_results_simp
  rfl

set_option maxHeartbeats 4000000 in
/-- The movie features summed into the crew. -/
theorem w1_v42 : W1 m ρ c (Proc.devRef .tc main_v42)
    = Cert.ReferenceIdeal.Read.val_main_v62 (F := Ideal) (m ((c : Thread nD τ).loc main_arg0)) (m ((c : Thread nD τ).loc main_arg3)) (m ((c : Thread nD τ).loc main_arg4)) := by
  show StableHlo.after hostOps0 (W0 m ρ c) (Proc.devRef .tc main_v42) = _
  after_results_simp
  rfl

set_option maxHeartbeats 4000000 in
/-- The movie features summed into the cast. -/
theorem w1_v52 : W1 m ρ c (Proc.devRef .tc main_v52)
    = Cert.ReferenceIdeal.Read.val_main_v87 (F := Ideal) (m ((c : Thread nD τ).loc main_arg0)) (m ((c : Thread nD τ).loc main_arg5)) (m ((c : Thread nD τ).loc main_arg6)) := by
  show StableHlo.after hostOps0 (W0 m ρ c) (Proc.devRef .tc main_v52) = _
  after_results_simp
  rfl

set_option maxHeartbeats 4000000 in
/-- The two in-degree vectors as columns, and the two first-layer movie biases as rows. -/
theorem w1_v53 : W1 m ρ c (Proc.devRef .tc main_v53)
    = shapeCast S200000x1 (Cert.ReferenceIdeal.Read.val_main_v13 (F := Ideal) (m ((c : Thread nD τ).loc main_arg4))) shapeCasts_S200000_S200000x1 := by
  show StableHlo.after hostOps0 (W0 m ρ c) (Proc.devRef .tc main_v53) = _
  after_results_simp
  rfl

set_option maxHeartbeats 4000000 in
theorem w1_v54 : W1 m ρ c (Proc.devRef .tc main_v54)
    = shapeCast S200000x1 (Cert.ReferenceIdeal.Read.val_main_v38 (F := Ideal) (m ((c : Thread nD τ).loc main_arg6))) shapeCasts_S200000_S200000x1 := by
  show StableHlo.after hostOps0 (W0 m ρ c) (Proc.devRef .tc main_v54) = _
  after_results_simp
  rfl

set_option maxHeartbeats 4000000 in
theorem w1_v55 : W1 m ρ c (Proc.devRef .tc main_v55)
    = shapeCast S1x128 (m ((c : Thread nD τ).loc main_arg9)) shapeCasts_S128_S1x128 := by
  show StableHlo.after hostOps0 (W0 m ρ c) (Proc.devRef .tc main_v55) = _
  after_results_simp
  rfl

set_option maxHeartbeats 4000000 in
theorem w1_v56 : W1 m ρ c (Proc.devRef .tc main_v56)
    = shapeCast S1x128 (m ((c : Thread nD τ).loc main_arg12)) shapeCasts_S128_S1x128 := by
  show StableHlo.after hostOps0 (W0 m ρ c) (Proc.devRef .tc main_v56) = _
  after_results_simp
  rfl

/-! ## What the second region (crew) finds -/

theorem v3_v42 : V3 m ρ c main_v42 = Cert.ReferenceIdeal.Read.val_main_v62 (F := Ideal) (m ((c : Thread nD τ).loc main_arg0)) (m ((c : Thread nD τ).loc main_arg3)) (m ((c : Thread nD τ).loc main_arg4)) :=
  (back3 m ρ c main_v42).trans (w1_v42 m ρ c)
theorem v3_arg1 : V3 m ρ c main_arg1 = m ((c : Thread nD τ).loc main_arg1) := (back3 m ρ c main_arg1).trans (w1_arg1 m ρ c)
theorem v3_arg13 : V3 m ρ c main_arg13 = m ((c : Thread nD τ).loc main_arg13) := (back3 m ρ c main_arg13).trans (w1_arg13 m ρ c)
theorem v3_arg14 : V3 m ρ c main_arg14 = m ((c : Thread nD τ).loc main_arg14) := (back3 m ρ c main_arg14).trans (w1_arg14 m ρ c)
theorem v3_v58 : V3 m ρ c main_v58
    = shapeCast S100000x1 (Cert.ReferenceIdeal.Read.val_main_v66 (F := Ideal) (m ((c : Thread nD τ).loc main_arg3))) shapeCasts_S100000_S100000x1 := by
  show StableHlo.after hostOps1 (W2 m ρ c) (Proc.devRef .tc main_v58) = _
  after_results
  rw [exit0_keep m ρ c main_v9, w1_v9]
  rfl
theorem v3_v59 : V3 m ρ c main_v59 = shapeCast S1x128 (m ((c : Thread nD τ).loc main_arg15)) shapeCasts_S128_S1x128 := by
  show StableHlo.after hostOps1 (W2 m ρ c) (Proc.devRef .tc main_v59) = _
  after_results
  rw [exit0_keep m ρ c main_arg15, w1_arg15]
  rfl

/-! ## What the third region (cast) finds -/

theorem v5_v52 : V5 m ρ c main_v52 = Cert.ReferenceIdeal.Read.val_main_v87 (F := Ideal) (m ((c : Thread nD τ).loc main_arg0)) (m ((c : Thread nD τ).loc main_arg5)) (m ((c : Thread nD τ).loc main_arg6)) :=
  (back5 m ρ c main_v52).trans (w1_v52 m ρ c)
theorem v5_arg2 : V5 m ρ c main_arg2 = m ((c : Thread nD τ).loc main_arg2) := (back5 m ρ c main_arg2).trans (w1_arg2 m ρ c)
theorem v5_arg16 : V5 m ρ c main_arg16 = m ((c : Thread nD τ).loc main_arg16) := (back5 m ρ c main_arg16).trans (w1_arg16 m ρ c)
theorem v5_arg17 : V5 m ρ c main_arg17 = m ((c : Thread nD τ).loc main_arg17) := (back5 m ρ c main_arg17).trans (w1_arg17 m ρ c)
theorem v5_v61 : V5 m ρ c main_v61
    = shapeCast S100000x1 (Cert.ReferenceIdeal.Read.val_main_v91 (F := Ideal) (m ((c : Thread nD τ).loc main_arg5))) shapeCasts_S100000_S100000x1 := by
  show StableHlo.after hostOps2 (W4 m ρ c) (Proc.devRef .tc main_v61) = _
  after_results
  rw [exit1_keep m ρ c main_v12, back3 m ρ c main_v12, w1_v12]
  rfl
theorem v5_v62 : V5 m ρ c main_v62 = shapeCast S1x128 (m ((c : Thread nD τ).loc main_arg18)) shapeCasts_S128_S1x128 := by
  show StableHlo.after hostOps2 (W4 m ρ c) (Proc.devRef .tc main_v62) = _
  after_results
  rw [exit1_keep m ρ c main_arg18, back3 m ρ c main_arg18, w1_arg18]
  rfl

/-! ## The buffers the last host stretch reads or leaves, as the last region's entry has them -/

theorem v7_arg19 : V7 m ρ c main_arg19 = m ((c : Thread nD τ).loc main_arg19) :=
  (by unwritten hostOps3 : W7 m ρ c (Proc.devRef .tc main_arg19) = W6 m ρ c (Proc.devRef .tc main_arg19)).trans
    ((back6 m ρ c main_arg19).trans (w1_arg19 m ρ c))
theorem v7_arg20 : V7 m ρ c main_arg20 = m ((c : Thread nD τ).loc main_arg20) :=
  (by unwritten hostOps3 : W7 m ρ c (Proc.devRef .tc main_arg20) = W6 m ρ c (Proc.devRef .tc main_arg20)).trans
    ((back6 m ρ c main_arg20).trans (w1_arg20 m ρ c))
theorem v7_arg22 : V7 m ρ c main_arg22 = m ((c : Thread nD τ).loc main_arg22) :=
  (by unwritten hostOps3 : W7 m ρ c (Proc.devRef .tc main_arg22) = W6 m ρ c (Proc.devRef .tc main_arg22)).trans
    ((back6 m ρ c main_arg22).trans (w1_arg22 m ρ c))
theorem v7_arg23 : V7 m ρ c main_arg23 = m ((c : Thread nD τ).loc main_arg23) :=
  (by unwritten hostOps3 : W7 m ρ c (Proc.devRef .tc main_arg23) = W6 m ρ c (Proc.devRef .tc main_arg23)).trans
    ((back6 m ρ c main_arg23).trans (w1_arg23 m ρ c))
theorem v7_arg31 : V7 m ρ c main_arg31 = m ((c : Thread nD τ).loc main_arg31) :=
  (by unwritten hostOps3 : W7 m ρ c (Proc.devRef .tc main_arg31) = W6 m ρ c (Proc.devRef .tc main_arg31)).trans
    ((back6 m ρ c main_arg31).trans (w1_arg31 m ρ c))
theorem w6_arg3 : W6 m ρ c (Proc.devRef .tc main_arg3) = m ((c : Thread nD τ).loc main_arg3) :=
  (back6 m ρ c main_arg3).trans (w1_arg3 m ρ c)
theorem w6_arg4 : W6 m ρ c (Proc.devRef .tc main_arg4) = m ((c : Thread nD τ).loc main_arg4) :=
  (back6 m ρ c main_arg4).trans (w1_arg4 m ρ c)
theorem w6_arg5 : W6 m ρ c (Proc.devRef .tc main_arg5) = m ((c : Thread nD τ).loc main_arg5) :=
  (back6 m ρ c main_arg5).trans (w1_arg5 m ρ c)
theorem w6_arg6 : W6 m ρ c (Proc.devRef .tc main_arg6) = m ((c : Thread nD τ).loc main_arg6) :=
  (back6 m ρ c main_arg6).trans (w1_arg6 m ρ c)
theorem w6_arg21 : W6 m ρ c (Proc.devRef .tc main_arg21) = m ((c : Thread nD τ).loc main_arg21) :=
  (back6 m ρ c main_arg21).trans (w1_arg21 m ρ c)
theorem w6_arg24 : W6 m ρ c (Proc.devRef .tc main_arg24) = m ((c : Thread nD τ).loc main_arg24) :=
  (back6 m ρ c main_arg24).trans (w1_arg24 m ρ c)
theorem w6_arg32 : W6 m ρ c (Proc.devRef .tc main_arg32) = m ((c : Thread nD τ).loc main_arg32) :=
  (back6 m ρ c main_arg32).trans (w1_arg32 m ρ c)
theorem w6_v3 : W6 m ρ c (Proc.devRef .tc main_v3) = Cert.ReferenceIdeal.Read.val_main_v13 (F := Ideal) (m ((c : Thread nD τ).loc main_arg4)) :=
  (back6 m ρ c main_v3).trans (w1_v3 m ρ c)
theorem w6_v6 : W6 m ρ c (Proc.devRef .tc main_v6) = Cert.ReferenceIdeal.Read.val_main_v38 (F := Ideal) (m ((c : Thread nD τ).loc main_arg6)) :=
  (back6 m ρ c main_v6).trans (w1_v6 m ρ c)
/-- The first region's output reaches the last region unchanged. -/
theorem v7_v57 : V7 m ρ c main_v57 = (dat0 (V1 m ρ) c).arrAt 11 cfg0.N :=
  (by unwritten hostOps3 : W7 m ρ c (Proc.devRef .tc main_v57) = W6 m ρ c (Proc.devRef .tc main_v57)).trans
    ((exit2_keep m ρ c main_v57).trans ((host2_keep m ρ c main_v57).trans ((exit1_keep m ρ c main_v57).trans
      ((host1_keep m ρ c main_v57).trans (W2_arr m ρ c 11)))))
/-- The second and third regions' outputs reach the last host stretch unchanged. -/
theorem w6_v60 : W6 m ρ c (Proc.devRef .tc main_v60) = (dat1 (V3 m ρ) c).arrAt 6 cfg1.N :=
  (exit2_keep m ρ c main_v60).trans ((host2_keep m ρ c main_v60).trans (W4_arr m ρ c 6))
theorem w6_v63 : W6 m ρ c (Proc.devRef .tc main_v63) = (dat2 (V5 m ρ) c).arrAt 6 cfg2.N :=
  W6_arr m ρ c 6

end Cert.KernelIdeal.Whole

end
-- ==== Proof.KernelRun.lean ====
/-
  The kernel's program run from the launch to the return, with the final contents of every unscoped buffer named.

  The program is eight segments: four stretches of host operations, each followed by one kernel region. The
  buffer contents at the eight boundaries are the generated fold `W0 … W8`: a host stretch applies its
  operations, a region leaves its arrays at what its write-backs give and every other buffer as entered. Every
  weakly fair execution terminates, without a fault, and at the end every unscoped buffer b of core c holds
  `W8 m ρ c b`. The statement leaves the postcondition general: whatever follows from "every unscoped buffer ends
  at W8" holds of every final state. Read at the result it names the result; read at an argument, with the
  generated `W8_main_argK`, it says the argument is unchanged.
-/
import proofs.«129889_j55602646614065_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, in a state whose unscoped buffers hold
    the last boundary's contents; so any `Q` that follows from that holds at the end. -/
theorem run_post {Q : PUnit × MemSt nD τ sig (Elt F) → Prop}
    (hQ : ∀ s : MemSt nD τ sig (Elt F),
      (∀ c : Dev nD, ∀ b ∈ Pipeline.ucRefs τ sig, s.mem (((c : Thread nD τ)).1, b) = W8 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := hQ)

end Cert.KernelIdeal.Whole

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.LibKeepdims.lean ====
/-
  A column kept as a unit axis: the two layout operations a row-wise reduction with its axis kept goes through.

  * A length-a vector cast to an a×1 array reads, at (i, u), the vector at i (the unit coordinate u is 0).
  * An a×1 array broadcast to a×b reads, at (p, c), the column's entry at (p, 0), whatever the column c.
-/
import Idealize.ShloMosaic.Lib.Pipeline.Value
import Idealize.ShloMosaic.Lib.ValueIdx
import Idealize.ShloMosaic.Lib.ValueLayout

noncomputable section

namespace Idealize.ShloMosaic.Keepdims

open Idealize.ShloMosaic Idealize.ShloMosaic.ValueIdx

variable {α : Type}

/-- A vector of length a cast to a×1 reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column broadcast to a×b reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.LibHostRow.lean ====
/-
  A bias row on the host: a length-n vector placed as the one row of a 1×n matrix (`broadcast_in_dim` with dims = [1]) and
  that row repeated down m rows (`broadcast_in_dim` with dims = [0, 1]) reads, at (r, c), the vector at c — the entry does
  not depend on the row r. General: any element type, any extents.
-/
import Idealize.ShloMosaic.Lib.Pipeline.Value
import Idealize.ShloMosaic.Lib.ValueIdx
import Idealize.ShloMosaic.Lib.KernelVsHost

namespace Cert.Lib.HostRow

open Idealize.ShloMosaic Idealize.ShloMosaic.ValueIdx

variable {α : Type}

/-- A length-n vector broadcast to 1×n along its own axis reads, at (u, c), the vector at c. -/
theorem vector_as_row_apply {n : ℕ} (h : (⟨1, ![n]⟩ : Shape).BroadcastsInDim ⟨2, ![1, n]⟩ ![1])
    (v : (⟨1, ![n]⟩ : Shape).Idx → α) (u : Fin 1) (c : Fin n) :
    broadcastInDim ⟨2, ![1, n]⟩ ![1] h v (ix2 u c) = v (ix1 c) := by
  refine broadcastInDim_apply ![1] h v (ix2 u c) (ix1 c) fun a => ?_
  match a with
  | ⟨0, _⟩ =>
    show c.val = if n = 1 then 0 else c.val
    split
    · have := c.isLt; omega
    · rfl

/-- A length-n vector broadcast to 1×n and then down m rows reads, at (r, c), the vector at c. -/
theorem row_down_rows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1])
    (v : (⟨1, ![n]⟩ : Shape).Idx → α) (r : Fin m) (c : Fin n) :
    broadcastInDim ⟨2, ![m, n]⟩ ![0, 1] h2 (broadcastInDim ⟨2, ![1, n]⟩ ![1] h1 v) (ix2 r c) = v (ix1 c) :=
  (broadcastInDim_oneRow_apply h2 _ r c).trans (vector_as_row_apply h1 v 0 c)

end Cert.Lib.HostRow
-- ==== Proof.Layer.lean ====
/-
  One SAGE relation at one node and one output channel, and the two ways the programs spell it.

  For a destination node r and an output channel c a relation contributes
      ( Σ_q (msg r q / max(cnt r, 1)) · W_l q c  +  b c )  +  Σ_q x r q · W_r q c :
  the summed messages of the node's in-neighbours divided by their number (at least one), through W_l, plus
  the bias, plus the node's own features through W_r. The value depends on row r of the messages and of the
  features, on the one count of r, on column c of the two weight matrices and on entry c of the bias, and on
  nothing else: `rel` takes exactly those. The sums are finite sums of extended reals; only commutative-monoid
  structure is used, so nothing here asks the entries to be finite.

  The host spells it with whole arrays (the count clamped, placed as a column and repeated along the row; a
  divide; two dot_generals; the bias placed as a row and repeated down the rows), the vector unit with blocks
  of rows (the same steps on a block of rows, the operands of each product narrowed to bf16, which at the
  ideal values is the identity). Both read at (r, c) give `rel` of row r.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.KernelVsHost
import proofs.«129889_j55602646614065_1_alg».proof.Proof.LibPlainDot
import proofs.«129889_j55602646614065_1_alg».proof.Proof.LibKeepdims
import proofs.«129889_j55602646614065_1_alg».proof.Proof.LibHostRow

noncomputable section

open scoped BigOperators

namespace Cert.Sage

open Idealize.ShloMosaic Idealize.ShloMosaic.ValueIdx

/-- The f32 words of 1, 0 and 1/2 at the ideal values (never evaluated: the same word stands on both sides). -/
abbrev one : EReal := Ideal.ofBits .f32 0x3F800000#32
abbrev zero : EReal := Ideal.ofBits .f32 0x00000000#32
abbrev half : EReal := Ideal.ofBits .f32 0x3F000000#32

/-- One relation at one node and one channel: `msg` the node's row of summed messages, `cnt` its in-degree,
    `xd` its own feature row, `wl` / `wr` the channel's columns of the two weight matrices, `b` the bias entry. -/
def rel {k d : Nat} (msg : Fin k → EReal) (cnt : EReal) (xd : Fin d → EReal) (wl : Fin k → EReal) (wr : Fin d → EReal)
    (b : EReal) : EReal :=
  ((∑ q : Fin k, Ideal.div (msg q) (max cnt one) * wl q) + b) + ∑ q : Fin d, xd q * wr q

/-- A node type fed by one relation: the relation, rectified. -/
def one_rel {k d : Nat} (msg : Fin k → EReal) (cnt : EReal) (xd : Fin d → EReal) (wl : Fin k → EReal) (wr : Fin d → EReal)
    (b : EReal) : EReal :=
  max (rel msg cnt xd wl wr b) zero

/-- A node type fed by two relations: their mean, rectified. -/
def two_rel {k1 k2 d : Nat} (msg1 : Fin k1 → EReal) (cnt1 : EReal) (msg2 : Fin k2 → EReal) (cnt2 : EReal) (xd : Fin d → EReal)
    (wl1 : Fin k1 → EReal) (wr1 : Fin d → EReal) (b1 : EReal) (wl2 : Fin k2 → EReal) (wr2 : Fin d → EReal) (b2 : EReal) : EReal :=
  max (half * (rel msg1 cnt1 xd wl1 wr1 b1 + rel msg2 cnt2 xd wl2 wr2 b2)) zero

/-- The output projection of a feature row. -/
def proj {h : Nat} (x : Fin h → EReal) (w : Fin h → EReal) (b : EReal) : EReal := (∑ q : Fin h, x q * w q) + b

theorem add3 {a a' b b' c c' : EReal} (ha : a = a') (hb : b = b') (hc : c = c') : (a + b) + c = (a' + b') + c' := by
  rw [ha, hb, hc]

/-! ## The host's spelling -/

/-- The host's product of two matrices at (r, c). -/
theorem hostDot_apply {M K N : Nat} (prec : Option ContractPrecision) (x : FVec Ideal ⟨2, ![M, K]⟩ .f32)
    (w : FVec Ideal ⟨2, ![K, N]⟩ .f32) (r : Fin M) (c : Fin N) :
    Host.dotGeneral (DotDims.plain M K N) prec x w (ix2 r c) = ∑ q : Fin K, x (ix2 r q) * w (ix2 q c) := by
  simp only [Host.dotGeneral]
  exact PlainDot.dotGeneral_apply prec _ x w r c

/-- The in-degrees clamped below by one, placed as a column and repeated along a row of length k: at (r, q) the
    clamped in-degree of r. -/
theorem hostCnt_apply {a k : Nat} (cnt : FVec Ideal ⟨1, ![a]⟩ .f32)
    (h0 : (⟨0, ![]⟩ : Shape).BroadcastsInDim ⟨1, ![a]⟩ ![]) (h1 : (⟨1, ![a]⟩ : Shape).BroadcastsInDim ⟨2, ![a, 1]⟩ ![0])
    (h2 : (⟨2, ![a, 1]⟩ : Shape).BroadcastsInDim ⟨2, ![a, k]⟩ ![0, 1]) (r : Fin a) (q : Fin k) :
    broadcastInDim ⟨2, ![a, k]⟩ ![0, 1] h2 (broadcastInDim ⟨2, ![a, 1]⟩ ![0] h1
      (maximumf cnt (broadcastInDim ⟨1, ![a]⟩ ![] h0 (constant (F := Ideal) ⟨0, ![]⟩ .f32 0x3F800000#32)))) (ix2 r q)
      = max (cnt (ix1 r)) one := by
  refine (broadcastInDim_apply ![0, 1] h2 _ (ix2 r q) (ix2 r (0 : Fin 1)) fun ax => ?_).trans
    ((broadcastInDim_apply ![0] h1 _ (ix2 r (0 : Fin 1)) (ix1 r) fun ax => ?_).trans rfl)
  · match ax with
    | ⟨0, _⟩ =>
      show r.val = if a = 1 then 0 else r.val
      split
      · have := r.isLt; omega
      · rfl
    | ⟨1, _⟩ => rfl
  · match ax with
    | ⟨0, _⟩ =>
      show r.val = if a = 1 then 0 else r.val
      split
      · have := r.isLt; omega
      · rfl

/-- The host's relation, read at (r, c). -/
theorem hostRel_apply {a k d h : Nat} (msg : FVec Ideal ⟨2, ![a, k]⟩ .f32) (cnt : FVec Ideal ⟨1, ![a]⟩ .f32)
    (xd : FVec Ideal ⟨2, ![a, d]⟩ .f32) (Wl : FVec Ideal ⟨2, ![k, h]⟩ .f32) (Wr : FVec Ideal ⟨2, ![d, h]⟩ .f32)
    (b : FVec Ideal ⟨1, ![h]⟩ .f32)
    (h0 : (⟨0, ![]⟩ : Shape).BroadcastsInDim ⟨1, ![a]⟩ ![]) (h1 : (⟨1, ![a]⟩ : Shape).BroadcastsInDim ⟨2, ![a, 1]⟩ ![0])
    (h2 : (⟨2, ![a, 1]⟩ : Shape).BroadcastsInDim ⟨2, ![a, k]⟩ ![0, 1])
    (h3 : (⟨1, ![h]⟩ : Shape).BroadcastsInDim ⟨2, ![1, h]⟩ ![1]) (h4 : (⟨2, ![1, h]⟩ : Shape).BroadcastsInDim ⟨2, ![a, h]⟩ ![0, 1])
    (p1 p2 : Option ContractPrecision) (r : Fin a) (c : Fin h) :
    addf (addf (Host.dotGeneral (DotDims.plain a k h) p1
        (Host.divf msg (broadcastInDim ⟨2, ![a, k]⟩ ![0, 1] h2 (broadcastInDim ⟨2, ![a, 1]⟩ ![0] h1
          (maximumf cnt (broadcastInDim ⟨1, ![a]⟩ ![] h0 (constant (F := Ideal) ⟨0, ![]⟩ .f32 0x3F800000#32)))))) Wl)
        (broadcastInDim ⟨2, ![a, h]⟩ ![0, 1] h4 (broadcastInDim ⟨2, ![1, h]⟩ ![1] h3 b)))
      (Host.dotGeneral (DotDims.plain a d h) p2 xd Wr) (ix2 r c)
      = rel (fun q => msg (ix2 r q)) (cnt (ix1 r)) (fun q => xd (ix2 r q)) (fun q => Wl (ix2 q c)) (fun q => Wr (ix2 q c))
          (b (ix1 c)) := by
  unfold rel
  show (_ + _) + _ = (_ + _) + _
  refine add3 ?_ (Cert.Lib.HostRow.row_down_rows_apply h3 h4 b r c) (hostDot_apply p2 xd Wr r c)
  refine (hostDot_apply p1 _ Wl r c).trans (Finset.sum_congr rfl fun q _ => ?_)
  exact congrArg (fun z => Ideal.div (msg (ix2 r q)) z * Wl (ix2 q c)) (hostCnt_apply cnt h0 h1 h2 r q)

/-! ## The vector unit's spelling, on a block of m rows -/

/-- The block's messages divided by the clamped in-degrees (a column of the block, repeated along the row),
    narrowed, times the narrowed W_l, from the zero accumulator: at (p, c) the mean messages of row p through
    column c of W_l. -/
theorem vecAgg_apply {m k h : Nat} (msg : FVec Ideal ⟨2, ![m, k]⟩ .f32) (cnt : FVec Ideal ⟨2, ![m, 1]⟩ .f32)
    (Wl : FVec Ideal ⟨2, ![k, h]⟩ .f32)
    (c1 : (⟨2, ![m, 1]⟩ : Shape).ShapeCasts ⟨2, ![m, 1]⟩) (c2 : (⟨2, ![m, k]⟩ : Shape).ShapeCasts ⟨2, ![m, k]⟩)
    (hb : (⟨2, ![m, 1]⟩ : Shape).Broadcasts ⟨2, ![m, k]⟩) (t1 t2 : FTy.bf16.bits < FTy.f32.bits)
    (prec : Option ContractPrecision) (p : Fin m) (c : Fin h) :
    matmul (DotDims.plain m k h) prec
      (truncf .bf16 (divf (shapeCast ⟨2, ![m, k]⟩ msg c2) (broadcastTo ⟨2, ![m, k]⟩
        (maximumf (shapeCast ⟨2, ![m, 1]⟩ cnt c1) (broadcast ⟨2, ![m, 1]⟩ (Scalar.ofBits (F := Ideal) .f32 0x3F800000#32))) hb)) t1)
      (truncf .bf16 Wl t2) (constant (⟨2, ![m, h]⟩ : Shape) .f32 0x00000000#32) (ix2 p c)
      = ∑ q : Fin k, Ideal.div (msg (ix2 p q)) (max (cnt (ix2 p (0 : Fin 1))) one) * Wl (ix2 q c) := by
  refine (PlainDot.matmul_zero_apply prec _ _ p c).trans (Finset.sum_congr rfl fun q _ => ?_)
  show Ideal.div (shapeCast ⟨2, ![m, k]⟩ msg c2 (ix2 p q)) (broadcastTo ⟨2, ![m, k]⟩ _ hb (ix2 p q)) * Wl (ix2 q c) = _
  rw [shapeCast_self, Keepdims.broadcastTo_a1_ab_apply _ hb p q]
  show Ideal.div (msg (ix2 p q)) (max (shapeCast ⟨2, ![m, 1]⟩ cnt c1 (ix2 p (0 : Fin 1))) one) * Wl (ix2 q c) = _
  rw [shapeCast_self]

/-- The bias row of a block, cast to itself and repeated down the block's rows: at (p, c) its entry c. -/
theorem vecBias_apply {m h : Nat} (b : FVec Ideal ⟨2, ![1, h]⟩ .f32) (cs : (⟨2, ![1, h]⟩ : Shape).ShapeCasts ⟨2, ![1, h]⟩)
    (hb : (⟨2, ![1, h]⟩ : Shape).Broadcasts ⟨2, ![m, h]⟩) (p : Fin m) (c : Fin h) :
    broadcastTo ⟨2, ![m, h]⟩ (shapeCast ⟨2, ![1, h]⟩ b cs) hb (ix2 p c) = b (ix2 (0 : Fin 1) c) := by
  rw [shapeCast_self]
  exact broadcastTo_1b_ab_apply b hb p c

/-- A block of rows narrowed, times a narrowed matrix, from the zero accumulator, at (p, c). -/
theorem vecDot_apply {m d h : Nat} (x : FVec Ideal ⟨2, ![m, d]⟩ .f32) (W : FVec Ideal ⟨2, ![d, h]⟩ .f32)
    (t1 t2 : FTy.bf16.bits < FTy.f32.bits) (prec : Option ContractPrecision) (p : Fin m) (c : Fin h) :
    matmul (DotDims.plain m d h) prec (truncf .bf16 x t1) (truncf .bf16 W t2) (constant (⟨2, ![m, h]⟩ : Shape) .f32 0x00000000#32)
      (ix2 p c) = ∑ q : Fin d, x (ix2 p q) * W (ix2 q c) :=
  PlainDot.matmul_zero_apply prec (truncf .bf16 x t1) (truncf .bf16 W t2) p c

/-- The same with the block of rows first cast to its own shape. -/
theorem vecDotCast_apply {m d h : Nat} (x : FVec Ideal ⟨2, ![m, d]⟩ .f32) (W : FVec Ideal ⟨2, ![d, h]⟩ .f32)
    (cs : (⟨2, ![m, d]⟩ : Shape).ShapeCasts ⟨2, ![m, d]⟩) (t1 t2 : FTy.bf16.bits < FTy.f32.bits)
    (prec : Option ContractPrecision) (p : Fin m) (c : Fin h) :
    matmul (DotDims.plain m d h) prec (truncf .bf16 (shapeCast ⟨2, ![m, d]⟩ x cs) t1) (truncf .bf16 W t2)
      (constant (⟨2, ![m, h]⟩ : Shape) .f32 0x00000000#32) (ix2 p c) = ∑ q : Fin d, x (ix2 p q) * W (ix2 q c) := by
  rw [shapeCast_self]
  exact vecDot_apply x W t1 t2 prec p c

end Cert.Sage

end
-- ==== Proof.Crew.lean ====
/-
  Region 1 of the kernel's program: the crew nodes' first-layer update, one relation (movies to crew), rectified.

  The region's output array is tiled by blocks of 4000 rows; point t of the grid computes block t from rows
  4000·t … 4000·t + 3999 of the summed messages, of the in-degree column and of the nodes' own features, and
  from the whole weight matrices and bias row. An entry (r, c) of a block depends on row r of the block's inputs
  only, so block t is the restriction to its rows of one function of the whole arrays: `G`. The blocks cover
  the array, so the array ends holding `G`.
-/
import proofs.«129889_j55602646614065_1_alg».proof.Proof.Gen.KernelIdeal.Frame
import proofs.«129889_j55602646614065_1_alg».proof.Proof.Layer

set_option maxRecDepth 16384

noncomputable section

namespace Cert.KernelIdeal.Crew

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block the body stores, at an index: the relation of the block's row, rectified. -/
theorem pay_apply (v0 : Vec Ideal S4000x1 .f32) (v4 : Vec Ideal S4000x128 .f32) (v9 : Vec Ideal S4000x64 .f32)
    (v11 : Vec Ideal S128x128 .f32) (v13 : Vec Ideal S64x128 .f32) (v16 : Vec Ideal S1x128 .f32) (y : S4000x128.Idx) :
    k1_pay1 v0 v4 v9 v11 v13 v16 y
      = Sage.one_rel (fun q : Fin 128 => v4 (ix2 (n0 := 4000) (n1 := 128) (y 0) q)) (v0 (ix2 (n0 := 4000) (n1 := 1) (y 0) (0 : Fin 1)))
          (fun q : Fin 64 => v9 (ix2 (n0 := 4000) (n1 := 64) (y 0) q))
          (fun q : Fin 128 => v11 (ix2 (n0 := 128) (n1 := 128) q (y 1))) (fun q : Fin 64 => v13 (ix2 (n0 := 64) (n1 := 128) q (y 1)))
          (v16 (ix2 (n0 := 1) (n1 := 128) (0 : Fin 1) (y 1))) := by
  obtain ⟨p, c, rfl⟩ : ∃ (p : Fin 4000) (c : Fin 128), y = ix2 p c := ⟨y 0, y 1, eq_ix2 y⟩
  unfold k1_pay1 Sage.one_rel Sage.rel
  exact congrArg (fun z => max z Sage.zero)
    (Sage.add3 (Sage.vecAgg_apply v4 v0 v11 _ _ _ _ _ _ p c) (Sage.vecBias_apply v16 _ _ p c) (Sage.vecDot_apply v9 v13 _ _ _ p c))

/-- What the region leaves in its output array, from the arrays it finds. -/
def G (c : Dev nD) : S100000x128.Idx → EReal := fun i =>
  Sage.one_rel (fun q : Fin 128 => (V c main_v42 : S100000x128.Idx → EReal) (ix2 (n0 := 100000) (n1 := 128) (i 0) q))
    ((V c main_v58 : S100000x1.Idx → EReal) (ix2 (n0 := 100000) (n1 := 1) (i 0) (0 : Fin 1)))
    (fun q : Fin 64 => (V c main_arg1 : S100000x64.Idx → EReal) (ix2 (n0 := 100000) (n1 := 64) (i 0) q))
    (fun q : Fin 128 => (V c main_arg13 : S128x128.Idx → EReal) (ix2 (n0 := 128) (n1 := 128) q (i 1)))
    (fun q : Fin 64 => (V c main_arg14 : S64x128.Idx → EReal) (ix2 (n0 := 64) (n1 := 128) q (i 1)))
    ((V c main_v59 : S1x128.Idx → EReal) (ix2 (n0 := 1) (n1 := 128) (0 : Fin 1) (i 1)))

/-- The index maps over the grid: the three row-tiled inputs move with the output's block, the weights and the bias
    stay, and the output's block at point t is block t. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) = t.val :=
  (by decide +kernel : ∀ t : Fin grid1.N, _)

/-- What point t writes back is block t of `G`. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S4000x1) hz, View.ld_unit_zero (S := S4000x128) hz, View.ld_unit_zero (S := S4000x64) hz,
    View.ld_unit_zero (S := S128x128) hz, View.ld_unit_zero (S := S64x128) hz, View.ld_unit_zero (S := S1x128) hz]
  obtain ⟨e00, e01, e10, e11, e20, e21, e30, e31, e40, e41, e50, e51, e61, e60⟩ := idx_facts t
  funext y
  refine (pay_apply _ _ _ _ _ _ y).trans ?_
  show _ = G V c (((cfg1.win 6).blk t).view.emb y)
  unfold G
  refine congr (congr (congr (congr (congr (congrArg (Sage.one_rel (k := 128) (d := 64)) (funext fun q => ?_)) ?_) (funext fun q => ?_))
    (funext fun q => ?_)) (funext fun q => ?_)) ?_
  · show (V c main_v42 : S100000x128.Idx → EReal) _ = (V c main_v42 : S100000x128.Idx → EReal) _
    refine congrArg _ (funext fun a => Fin.ext ?_)
    match a with
    | ⟨0, _⟩ => show win1_0.index t (0 : Fin 2) * 4000 + 1 * (y 0).val = win1_6.index t (0 : Fin 2) * 4000 + 1 * (y 0).val; omega
    | ⟨1, _⟩ => show win1_0.index t (1 : Fin 2) * 128 + 1 * q.val = q.val; omega
  · show (V c main_v58 : S100000x1.Idx → EReal) _ = (V c main_v58 : S100000x1.Idx → EReal) _
    refine congrArg _ (funext fun a => Fin.ext ?_)
    match a with
    | ⟨0, _⟩ => show win1_1.index t (0 : Fin 2) * 4000 + 1 * (y 0).val = win1_6.index t (0 : Fin 2) * 4000 + 1 * (y 0).val; omega
    | ⟨1, _⟩ => show win1_1.index t (1 : Fin 2) * 1 + 1 * 0 = 0; omega
  · show (V c main_arg1 : S100000x64.Idx → EReal) _ = (V c main_arg1 : S100000x64.Idx → EReal) _
    refine congrArg _ (funext fun a => Fin.ext ?_)
    match a with
    | ⟨0, _⟩ => show win1_2.index t (0 : Fin 2) * 4000 + 1 * (y 0).val = win1_6.index t (0 : Fin 2) * 4000 + 1 * (y 0).val; omega
    | ⟨1, _⟩ => show win1_2.index t (1 : Fin 2) * 64 + 1 * q.val = q.val; omega
  · show (V c main_arg13 : S128x128.Idx → EReal) _ = (V c main_arg13 : S128x128.Idx → EReal) _
    refine congrArg _ (funext fun a => Fin.ext ?_)
    match a with
    | ⟨0, _⟩ => show win1_3.index t (0 : Fin 2) * 128 + 1 * q.val = q.val; omega
    | ⟨1, _⟩ => show win1_3.index t (1 : Fin 2) * 128 + 1 * (y 1).val = win1_6.index t (1 : Fin 2) * 128 + 1 * (y 1).val; omega
  · show (V c main_arg14 : S64x128.Idx → EReal) _ = (V c main_arg14 : S64x128.Idx → EReal) _
    refine congrArg _ (funext fun a => Fin.ext ?_)
    match a with
    | ⟨0, _⟩ => show win1_4.index t (0 : Fin 2) * 64 + 1 * q.val = q.val; omega
    | ⟨1, _⟩ => show win1_4.index t (1 : Fin 2) * 128 + 1 * (y 1).val = win1_6.index t (1 : Fin 2) * 128 + 1 * (y 1).val; omega
  · show (V c main_v59 : S1x128.Idx → EReal) _ = (V c main_v59 : S1x128.Idx → EReal) _
    refine congrArg _ (funext fun a => Fin.ext ?_)
    match a with
    | ⟨0, _⟩ => show win1_5.index t (0 : Fin 2) * 1 + 1 * 0 = 0; omega
    | ⟨1, _⟩ => show win1_5.index t (1 : Fin 2) * 128 + 1 * (y 1).val = win1_6.index t (1 : Fin 2) * 128 + 1 * (y 1).val; omega

/-- An index of the array is in point t's block iff each coordinate is in the block's range on its axis. -/
theorem mem_blk (t : Fin cfg1.N) (i : S100000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v60).slice (win1_6.rect t)).set ↔ _
  rw [View.set_slice_whole, Rect.mem_set_unit]
  exact Iff.rfl

/-- Every row r of the array is in the block of point r / 4000. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : (i 0).val / 4000 < cfg1.N := Nat.lt_of_lt_of_eq (by omega : (i 0).val / 4000 < 25) N_1.symm
  refine ⟨⟨(i 0).val / 4000, hN⟩, flush1_6 _, ?_⟩
  rw [mem_blk]
  obtain ⟨-, -, -, -, -, -, -, -, -, -, -, -, e61, e60⟩ := idx_facts ⟨(i 0).val / 4000, hN⟩
  intro a
  match a with
  | ⟨0, _⟩ =>
    show win1_6.index ⟨(i 0).val / 4000, hN⟩ (0 : Fin 2) * 4000 ≤ (i 0).val
      ∧ (i 0).val < win1_6.index ⟨(i 0).val / 4000, hN⟩ (0 : Fin 2) * 4000 + 4000
    rw [e60]
    show (i 0).val / 4000 * 4000 ≤ (i 0).val ∧ (i 0).val < (i 0).val / 4000 * 4000 + 4000
    omega
  | ⟨1, _⟩ =>
    show win1_6.index ⟨(i 0).val / 4000, hN⟩ (1 : Fin 2) * 128 ≤ (i 1).val
      ∧ (i 1).val < win1_6.index ⟨(i 0).val / 4000, hN⟩ (1 : Fin 2) * 128 + 128
    omega

/-- The region's output array after the region: `G` of the arrays it found. -/
theorem arr (c : Dev nD) : (dat1 V c).arrAt 6 cfg1.N = G V c :=
  (dat1 V c).arrAt_eq_of_cover 6 (G V c) (fun t _ => flushed_eq V c t) cover

end Cert.KernelIdeal.Crew

end
-- ==== Proof.Cast.lean ====
/-
  Region 2 of the kernel's program: the cast nodes' first-layer update, one relation (movies to cast), rectified.

  The region's output array is tiled by blocks of 4000 rows; point t of the grid computes block t from rows
  4000·t … 4000·t + 3999 of the summed messages, of the in-degree column and of the nodes' own features, and
  from the whole weight matrices and bias row. An entry (r, c) of a block depends on row r of the block's inputs
  only, so block t is the restriction to its rows of one function of the whole arrays: `G`. The blocks cover
  the array, so the array ends holding `G`.
-/
import proofs.«129889_j55602646614065_1_alg».proof.Proof.Gen.KernelIdeal.Frame
import proofs.«129889_j55602646614065_1_alg».proof.Proof.Layer

set_option maxRecDepth 16384

noncomputable section

namespace Cert.KernelIdeal.Cast

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block the body stores, at an index: the relation of the block's row, rectified. -/
theorem pay_apply (v0 : Vec Ideal S4000x1 .f32) (v4 : Vec Ideal S4000x128 .f32) (v9 : Vec Ideal S4000x64 .f32)
    (v11 : Vec Ideal S128x128 .f32) (v13 : Vec Ideal S64x128 .f32) (v16 : Vec Ideal S1x128 .f32) (y : S4000x128.Idx) :
    k2_pay1 v0 v4 v9 v11 v13 v16 y
      = Sage.one_rel (fun q : Fin 128 => v4 (ix2 (n0 := 4000) (n1 := 128) (y 0) q)) (v0 (ix2 (n0 := 4000) (n1 := 1) (y 0) (0 : Fin 1)))
          (fun q : Fin 64 => v9 (ix2 (n0 := 4000) (n1 := 64) (y 0) q))
          (fun q : Fin 128 => v11 (ix2 (n0 := 128) (n1 := 128) q (y 1))) (fun q : Fin 64 => v13 (ix2 (n0 := 64) (n1 := 128) q (y 1)))
          (v16 (ix2 (n0 := 1) (n1 := 128) (0 : Fin 1) (y 1))) := by
  obtain ⟨p, c, rfl⟩ : ∃ (p : Fin 4000) (c : Fin 128), y = ix2 p c := ⟨y 0, y 1, eq_ix2 y⟩
  unfold k2_pay1 Sage.one_rel Sage.rel
  exact congrArg (fun z => max z Sage.zero)
    (Sage.add3 (Sage.vecAgg_apply v4 v0 v11 _ _ _ _ _ _ p c) (Sage.vecBias_apply v16 _ _ p c) (Sage.vecDot_apply v9 v13 _ _ _ p c))

/-- What the region leaves in its output array, from the arrays it finds. -/
def G (c : Dev nD) : S100000x128.Idx → EReal := fun i =>
  Sage.one_rel (fun q : Fin 128 => (V c main_v52 : S100000x128.Idx → EReal) (ix2 (n0 := 100000) (n1 := 128) (i 0) q))
    ((V c main_v61 : S100000x1.Idx → EReal) (ix2 (n0 := 100000) (n1 := 1) (i 0) (0 : Fin 1)))
    (fun q : Fin 64 => (V c main_arg2 : S100000x64.Idx → EReal) (ix2 (n0 := 100000) (n1 := 64) (i 0) q))
    (fun q : Fin 128 => (V c main_arg16 : S128x128.Idx → EReal) (ix2 (n0 := 128) (n1 := 128) q (i 1)))
    (fun q : Fin 64 => (V c main_arg17 : S64x128.Idx → EReal) (ix2 (n0 := 64) (n1 := 128) q (i 1)))
    ((V c main_v62 : S1x128.Idx → EReal) (ix2 (n0 := 1) (n1 := 128) (0 : Fin 1) (i 1)))

/-- The index maps over the grid: the three row-tiled inputs move with the output's block, the weights and the bias
    stay, and the output's block at point t is block t. -/
theorem idx_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (1 : Fin 2) = 0 ∧ win2_6.index t (0 : Fin 2) = t.val :=
  (by decide +kernel : ∀ t : Fin grid2.N, _)

/-- What point t writes back is block t of `G`. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S4000x1) hz, View.ld_unit_zero (S := S4000x128) hz, View.ld_unit_zero (S := S4000x64) hz,
    View.ld_unit_zero (S := S128x128) hz, View.ld_unit_zero (S := S64x128) hz, View.ld_unit_zero (S := S1x128) hz]
  obtain ⟨e00, e01, e10, e11, e20, e21, e30, e31, e40, e41, e50, e51, e61, e60⟩ := idx_facts t
  funext y
  refine (pay_apply _ _ _ _ _ _ y).trans ?_
  show _ = G V c (((cfg2.win 6).blk t).view.emb y)
  unfold G
  refine congr (congr (congr (congr (congr (congrArg (Sage.one_rel (k := 128) (d := 64)) (funext fun q => ?_)) ?_) (funext fun q => ?_))
    (funext fun q => ?_)) (funext fun q => ?_)) ?_
  · show (V c main_v52 : S100000x128.Idx → EReal) _ = (V c main_v52 : S100000x128.Idx → EReal) _
    refine congrArg _ (funext fun a => Fin.ext ?_)
    match a with
    | ⟨0, _⟩ => show win2_0.index t (0 : Fin 2) * 4000 + 1 * (y 0).val = win2_6.index t (0 : Fin 2) * 4000 + 1 * (y 0).val; omega
    | ⟨1, _⟩ => show win2_0.index t (1 : Fin 2) * 128 + 1 * q.val = q.val; omega
  · show (V c main_v61 : S100000x1.Idx → EReal) _ = (V c main_v61 : S100000x1.Idx → EReal) _
    refine congrArg _ (funext fun a => Fin.ext ?_)
    match a with
    | ⟨0, _⟩ => show win2_1.index t (0 : Fin 2) * 4000 + 1 * (y 0).val = win2_6.index t (0 : Fin 2) * 4000 + 1 * (y 0).val; omega
    | ⟨1, _⟩ => show win2_1.index t (1 : Fin 2) * 1 + 1 * 0 = 0; omega
  · show (V c main_arg2 : S100000x64.Idx → EReal) _ = (V c main_arg2 : S100000x64.Idx → EReal) _
    refine congrArg _ (funext fun a => Fin.ext ?_)
    match a with
    | ⟨0, _⟩ => show win2_2.index t (0 : Fin 2) * 4000 + 1 * (y 0).val = win2_6.index t (0 : Fin 2) * 4000 + 1 * (y 0).val; omega
    | ⟨1, _⟩ => show win2_2.index t (1 : Fin 2) * 64 + 1 * q.val = q.val; omega
  · show (V c main_arg16 : S128x128.Idx → EReal) _ = (V c main_arg16 : S128x128.Idx → EReal) _
    refine congrArg _ (funext fun a => Fin.ext ?_)
    match a with
    | ⟨0, _⟩ => show win2_3.index t (0 : Fin 2) * 128 + 1 * q.val = q.val; omega
    | ⟨1, _⟩ => show win2_3.index t (1 : Fin 2) * 128 + 1 * (y 1).val = win2_6.index t (1 : Fin 2) * 128 + 1 * (y 1).val; omega
  · show (V c main_arg17 : S64x128.Idx → EReal) _ = (V c main_arg17 : S64x128.Idx → EReal) _
    refine congrArg _ (funext fun a => Fin.ext ?_)
    match a with
    | ⟨0, _⟩ => show win2_4.index t (0 : Fin 2) * 64 + 1 * q.val = q.val; omega
    | ⟨1, _⟩ => show win2_4.index t (1 : Fin 2) * 128 + 1 * (y 1).val = win2_6.index t (1 : Fin 2) * 128 + 1 * (y 1).val; omega
  · show (V c main_v62 : S1x128.Idx → EReal) _ = (V c main_v62 : S1x128.Idx → EReal) _
    refine congrArg _ (funext fun a => Fin.ext ?_)
    match a with
    | ⟨0, _⟩ => show win2_5.index t (0 : Fin 2) * 1 + 1 * 0 = 0; omega
    | ⟨1, _⟩ => show win2_5.index t (1 : Fin 2) * 128 + 1 * (y 1).val = win2_6.index t (1 : Fin 2) * 128 + 1 * (y 1).val; omega

/-- An index of the array is in point t's block iff each coordinate is in the block's range on its axis. -/
theorem mem_blk (t : Fin cfg2.N) (i : S100000x128.Idx) :
    i ∈ ((cfg2.win 6).blk t).view.set ↔ ∀ a : Fin 2, win2_6.index t a * S4000x128.size a ≤ (i a).val
      ∧ (i a).val < win2_6.index t a * S4000x128.size a + S4000x128.size a := by
  show i ∈ ((View.whole main_v63).slice (win2_6.rect t)).set ↔ _
  rw [View.set_slice_whole, Rect.mem_set_unit]
  exact Iff.rfl

/-- Every row r of the array is in the block of point r / 4000. -/
theorem cover (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : (i 0).val / 4000 < cfg2.N := Nat.lt_of_lt_of_eq (by omega : (i 0).val / 4000 < 25) N_2.symm
  refine ⟨⟨(i 0).val / 4000, hN⟩, flush2_6 _, ?_⟩
  rw [mem_blk]
  obtain ⟨-, -, -, -, -, -, -, -, -, -, -, -, e61, e60⟩ := idx_facts ⟨(i 0).val / 4000, hN⟩
  intro a
  match a with
  | ⟨0, _⟩ =>
    show win2_6.index ⟨(i 0).val / 4000, hN⟩ (0 : Fin 2) * 4000 ≤ (i 0).val
      ∧ (i 0).val < win2_6.index ⟨(i 0).val / 4000, hN⟩ (0 : Fin 2) * 4000 + 4000
    rw [e60]
    show (i 0).val / 4000 * 4000 ≤ (i 0).val ∧ (i 0).val < (i 0).val / 4000 * 4000 + 4000
    omega
  | ⟨1, _⟩ =>
    show win2_6.index ⟨(i 0).val / 4000, hN⟩ (1 : Fin 2) * 128 ≤ (i 1).val
      ∧ (i 1).val < win2_6.index ⟨(i 0).val / 4000, hN⟩ (1 : Fin 2) * 128 + 128
    omega

/-- The region's output array after the region: `G` of the arrays it found. -/
theorem arr (c : Dev nD) : (dat2 V c).arrAt 6 cfg2.N = G V c :=
  (dat2 V c).arrAt_eq_of_cover 6 (G V c) (fun t _ => flushed_eq V c t) cover

end Cert.KernelIdeal.Cast

end
-- ==== Proof.MoviesFirst.lean ====
/-
  Region 0 of the kernel's program: the movie nodes' first-layer update — the mean of two relations
  (crew to movies, cast to movies), rectified.

  The output array is tiled by 50 blocks of 4000 rows; point t computes block t from rows 4000·t … 4000·t + 3999
  of the two message arrays, of the two in-degree columns and of the movies' own features, and from the whole
  weight matrices and bias rows. An entry (r, c) of a block depends on row r of the block's inputs only, so block t
  is the restriction to its rows of one function `G` of the whole arrays, and the blocks cover the array.
-/
import proofs.«129889_j55602646614065_1_alg».proof.Proof.Gen.KernelIdeal.Frame
import proofs.«129889_j55602646614065_1_alg».proof.Proof.Layer

set_option maxRecDepth 16384

noncomputable section

namespace Cert.KernelIdeal.MoviesFirst

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block the body stores, at an index: the mean of the two relations of the block's row, rectified. -/
theorem pay_apply (x0 : Vec Ideal S4000x64 .f32) (x1 : Vec Ideal S4000x1 .f32) (x2 : Vec Ideal S4000x64 .f32) (x3 : Vec Ideal S4000x1 .f32)
    (x4 : Vec Ideal S4000x128 .f32) (x5 : Vec Ideal S64x128 .f32) (x6 : Vec Ideal S128x128 .f32) (x7 : Vec Ideal S1x128 .f32)
    (x8 : Vec Ideal S64x128 .f32) (x9 : Vec Ideal S128x128 .f32) (x10 : Vec Ideal S1x128 .f32) (y : S4000x128.Idx) :
    k0_pay1 (k0_pay2 x4) (k0_pay3 x1 x0 x4 x5 x7 x6) (k0_pay4 x3 x2 x8) x10 x9 y
      = Sage.two_rel (fun q : Fin 64 => x0 (ix2 (n0 := 4000) (n1 := 64) (y 0) q)) (x1 (ix2 (n0 := 4000) (n1 := 1) (y 0) (0 : Fin 1)))
          (fun q : Fin 64 => x2 (ix2 (n0 := 4000) (n1 := 64) (y 0) q)) (x3 (ix2 (n0 := 4000) (n1 := 1) (y 0) (0 : Fin 1)))
          (fun q : Fin 128 => x4 (ix2 (n0 := 4000) (n1 := 128) (y 0) q))
          (fun q : Fin 64 => x5 (ix2 (n0 := 64) (n1 := 128) q (y 1))) (fun q : Fin 128 => x6 (ix2 (n0 := 128) (n1 := 128) q (y 1)))
          (x7 (ix2 (n0 := 1) (n1 := 128) (0 : Fin 1) (y 1)))
          (fun q : Fin 64 => x8 (ix2 (n0 := 64) (n1 := 128) q (y 1))) (fun q : Fin 128 => x9 (ix2 (n0 := 128) (n1 := 128) q (y 1)))
          (x10 (ix2 (n0 := 1) (n1 := 128) (0 : Fin 1) (y 1))) := by
  obtain ⟨p, c, rfl⟩ : ∃ (p : Fin 4000) (c : Fin 128), y = ix2 p c := ⟨y 0, y 1, eq_ix2 y⟩
  unfold k0_pay1 k0_pay2 k0_pay3 k0_pay4 Sage.two_rel Sage.rel
  exact congrArg (fun z => max (Sage.half * z) Sage.zero)
    (congrArg₂ (fun a b : EReal => a + b)
      (Sage.add3 (Sage.vecAgg_apply x0 x1 x5 _ _ _ _ _ _ p c) (Sage.vecBias_apply x7 _ _ p c) (Sage.vecDot_apply x4 x6 _ _ _ p c))
      (Sage.add3 (Sage.vecAgg_apply x2 x3 x8 _ _ _ _ _ _ p c) (Sage.vecBias_apply x10 _ _ p c) (Sage.vecDot_apply x4 x9 _ _ _ p c)))

/-- What the region leaves in its output array, from the arrays it finds. -/
def G (c : Dev nD) : S200000x128.Idx → EReal := fun i =>
  Sage.two_rel (fun q : Fin 64 => (V c main_v22 : S200000x64.Idx → EReal) (ix2 (n0 := 200000) (n1 := 64) (i 0) q))
    ((V c main_v53 : S200000x1.Idx → EReal) (ix2 (n0 := 200000) (n1 := 1) (i 0) (0 : Fin 1)))
    (fun q : Fin 64 => (V c main_v32 : S200000x64.Idx → EReal) (ix2 (n0 := 200000) (n1 := 64) (i 0) q))
    ((V c main_v54 : S200000x1.Idx → EReal) (ix2 (n0 := 200000) (n1 := 1) (i 0) (0 : Fin 1)))
    (fun q : Fin 128 => (V c main_arg0 : S200000x128.Idx → EReal) (ix2 (n0 := 200000) (n1 := 128) (i 0) q))
    (fun q : Fin 64 => (V c main_arg7 : S64x128.Idx → EReal) (ix2 (n0 := 64) (n1 := 128) q (i 1)))
    (fun q : Fin 128 => (V c main_arg8 : S128x128.Idx → EReal) (ix2 (n0 := 128) (n1 := 128) q (i 1)))
    ((V c main_v55 : S1x128.Idx → EReal) (ix2 (n0 := 1) (n1 := 128) (0 : Fin 1) (i 1)))
    (fun q : Fin 64 => (V c main_arg10 : S64x128.Idx → EReal) (ix2 (n0 := 64) (n1 := 128) q (i 1)))
    (fun q : Fin 128 => (V c main_arg11 : S128x128.Idx → EReal) (ix2 (n0 := 128) (n1 := 128) q (i 1)))
    ((V c main_v56 : S1x128.Idx → EReal) (ix2 (n0 := 1) (n1 := 128) (0 : Fin 1) (i 1)))

/-- The index maps over the grid: the five row-tiled inputs move with the output's block, the weights and the bias
    rows stay, and the output's block at point t is block t. -/
theorem idx_facts : ∀ t : Fin cfg0.N,
    win0_0.index t (0 : Fin 2) = win0_11.index t (0 : Fin 2) ∧ win0_0.index t (1 : Fin 2) = 0
    ∧ win0_1.index t (0 : Fin 2) = win0_11.index t (0 : Fin 2) ∧ win0_1.index t (1 : Fin 2) = 0
    ∧ win0_2.index t (0 : Fin 2) = win0_11.index t (0 : Fin 2) ∧ win0_2.index t (1 : Fin 2) = 0
    ∧ win0_3.index t (0 : Fin 2) = win0_11.index t (0 : Fin 2) ∧ win0_3.index t (1 : Fin 2) = 0
    ∧ win0_4.index t (0 : Fin 2) = win0_11.index t (0 : Fin 2) ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (1 : Fin 2) = 0 ∧ win0_11.index t (0 : Fin 2) = t.val :=
  (by decide +kernel : ∀ t : Fin grid0.N, _)

/-- What point t writes back is block t of `G`. -/
theorem flushed_eq (c : Dev nD) (t : Fin cfg0.N) :
    (dat0 V c).flushed 11 t = ((cfg0.win 11).blk t).view.read (Elt Ideal) (G V c) := by
  show (cfg0.win 11).cut (grid0.coords t) ((dat0 V c).after 11 t) = _
  rw [after0_11]
  unfold out0_11
  rw [View.canon_unit_zero hz]
  simp only [View.ld_unit_zero (S := S4000x1) hz, View.ld_unit_zero (S := S4000x128) hz, View.ld_unit_zero (S := S4000x64) hz,
    View.ld_unit_zero (S := S128x128) hz, View.ld_unit_zero (S := S64x128) hz, View.ld_unit_zero (S := S1x128) hz]
  obtain ⟨e00, e01, e10, e11, e20, e21, e30, e31, e40, e41, e50, e51, e60, e61, e70, e71, e80, e81, e90, e91, ea0, ea1, eo1, eo0⟩ := idx_facts t
  funext y
  refine (pay_apply _ _ _ _ _ _ _ _ _ _ _ y).trans ?_
  show _ = G V c (((cfg0.win 11).blk t).view.emb y)
  unfold G
  refine (congr (congr (congr (congr (congr (congr (congr (congr (congr (congr (congrArg (Sage.two_rel (k1 := 64) (k2 := 64) (d := 128)) (funext fun q => ?_)) ?_) (funext fun q => ?_)) ?_) (funext fun q => ?_))
    (funext fun q => ?_)) (funext fun q => ?_)) ?_) (funext fun q => ?_)) (funext fun q => ?_)) ?_)
  · show (V c main_v22 : S200000x64.Idx → EReal) _ = (V c main_v22 : S200000x64.Idx → EReal) _
    refine congrArg _ (funext fun a => Fin.ext ?_)
    match a with
    | ⟨0, _⟩ => show win0_0.index t (0 : Fin 2) * 4000 + 1 * (y 0).val = win0_11.index t (0 : Fin 2) * 4000 + 1 * (y 0).val; omega
    | ⟨1, _⟩ => show win0_0.index t (1 : Fin 2) * 64 + 1 * q.val = q.val; omega
  · show (V c main_v53 : S200000x1.Idx → EReal) _ = (V c main_v53 : S200000x1.Idx → EReal) _
    refine congrArg _ (funext fun a => Fin.ext ?_)
    match a with
    | ⟨0, _⟩ => show win0_1.index t (0 : Fin 2) * 4000 + 1 * (y 0).val = win0_11.index t (0 : Fin 2) * 4000 + 1 * (y 0).val; omega
    | ⟨1, _⟩ => show win0_1.index t (1 : Fin 2) * 1 + 1 * 0 = 0; omega
  · show (V c main_v32 : S200000x64.Idx → EReal) _ = (V c main_v32 : S200000x64.Idx → EReal) _
    refine congrArg _ (funext fun a => Fin.ext ?_)
    match a with
    | ⟨0, _⟩ => show win0_2.index t (0 : Fin 2) * 4000 + 1 * (y 0).val = win0_11.index t (0 : Fin 2) * 4000 + 1 * (y 0).val; omega
    | ⟨1, _⟩ => show win0_2.index t (1 : Fin 2) * 64 + 1 * q.val = q.val; omega
  · show (V c main_v54 : S200000x1.Idx → EReal) _ = (V c main_v54 : S200000x1.Idx → EReal) _
    refine congrArg _ (funext fun a => Fin.ext ?_)
    match a with
    | ⟨0, _⟩ => show win0_3.index t (0 : Fin 2) * 4000 + 1 * (y 0).val = win0_11.index t (0 : Fin 2) * 4000 + 1 * (y 0).val; omega
    | ⟨1, _⟩ => show win0_3.index t (1 : Fin 2) * 1 + 1 * 0 = 0; omega
  · show (V c main_arg0 : S200000x128.Idx → EReal) _ = (V c main_arg0 : S200000x128.Idx → EReal) _
    refine congrArg _ (funext fun a => Fin.ext ?_)
    match a with
    | ⟨0, _⟩ => show win0_4.index t (0 : Fin 2) * 4000 + 1 * (y 0).val = win0_11.index t (0 : Fin 2) * 4000 + 1 * (y 0).val; omega
    | ⟨1, _⟩ => show win0_4.index t (1 : Fin 2) * 128 + 1 * q.val = q.val; omega
  · show (V c main_arg7 : S64x128.Idx → EReal) _ = (V c main_arg7 : S64x128.Idx → EReal) _
    refine congrArg _ (funext fun a => Fin.ext ?_)
    match a with
    | ⟨0, _⟩ => show win0_5.index t (0 : Fin 2) * 64 + 1 * q.val = q.val; omega
    | ⟨1, _⟩ => show win0_5.index t (1 : Fin 2) * 128 + 1 * (y 1).val = win0_11.index t (1 : Fin 2) * 128 + 1 * (y 1).val; omega
  · show (V c main_arg8 : S128x128.Idx → EReal) _ = (V c main_arg8 : S128x128.Idx → EReal) _
    refine congrArg _ (funext fun a => Fin.ext ?_)
    match a with
    | ⟨0, _⟩ => show win0_6.index t (0 : Fin 2) * 128 + 1 * q.val = q.val; omega
    | ⟨1, _⟩ => show win0_6.index t (1 : Fin 2) * 128 + 1 * (y 1).val = win0_11.index t (1 : Fin 2) * 128 + 1 * (y 1).val; omega
  · show (V c main_v55 : S1x128.Idx → EReal) _ = (V c main_v55 : S1x128.Idx → EReal) _
    refine congrArg _ (funext fun a => Fin.ext ?_)
    match a with
    | ⟨0, _⟩ => show win0_7.index t (0 : Fin 2) * 1 + 1 * 0 = 0; omega
    | ⟨1, _⟩ => show win0_7.index t (1 : Fin 2) * 128 + 1 * (y 1).val = win0_11.index t (1 : Fin 2) * 128 + 1 * (y 1).val; omega
  · show (V c main_arg10 : S64x128.Idx → EReal) _ = (V c main_arg10 : S64x128.Idx → EReal) _
    refine congrArg _ (funext fun a => Fin.ext ?_)
    match a with
    | ⟨0, _⟩ => show win0_8.index t (0 : Fin 2) * 64 + 1 * q.val = q.val; omega
    | ⟨1, _⟩ => show win0_8.index t (1 : Fin 2) * 128 + 1 * (y 1).val = win0_11.index t (1 : Fin 2) * 128 + 1 * (y 1).val; omega
  · show (V c main_arg11 : S128x128.Idx → EReal) _ = (V c main_arg11 : S128x128.Idx → EReal) _
    refine congrArg _ (funext fun a => Fin.ext ?_)
    match a with
    | ⟨0, _⟩ => show win0_9.index t (0 : Fin 2) * 128 + 1 * q.val = q.val; omega
    | ⟨1, _⟩ => show win0_9.index t (1 : Fin 2) * 128 + 1 * (y 1).val = win0_11.index t (1 : Fin 2) * 128 + 1 * (y 1).val; omega
  · show (V c main_v56 : S1x128.Idx → EReal) _ = (V c main_v56 : S1x128.Idx → EReal) _
    refine congrArg _ (funext fun a => Fin.ext ?_)
    match a with
    | ⟨0, _⟩ => show win0_10.index t (0 : Fin 2) * 1 + 1 * 0 = 0; omega
    | ⟨1, _⟩ => show win0_10.index t (1 : Fin 2) * 128 + 1 * (y 1).val = win0_11.index t (1 : Fin 2) * 128 + 1 * (y 1).val; omega

/-- An index of the array is in point t's block iff each coordinate is in the block's range on its axis. -/
theorem mem_blk (t : Fin cfg0.N) (i : S200000x128.Idx) :
    i ∈ ((cfg0.win 11).blk t).view.set ↔ ∀ a : Fin 2, win0_11.index t a * S4000x128.size a ≤ (i a).val
      ∧ (i a).val < win0_11.index t a * S4000x128.size a + S4000x128.size a := by
  show i ∈ ((View.whole main_v57).slice (win0_11.rect t)).set ↔ _
  rw [View.set_slice_whole, Rect.mem_set_unit]
  exact Iff.rfl

/-- Every row r of the array is in the block of point r / 4000. -/
theorem cover (i : S200000x128.Idx) : ∃ t : Fin cfg0.N, (cfg0.win 11).flush t = true ∧ i ∈ ((cfg0.win 11).blk t).view.set := by
  have hi0 : (i 0).val < 200000 := (i 0).isLt
  have hi1 : (i 1).val < 128 := (i 1).isLt
  have hN : (i 0).val / 4000 < cfg0.N := Nat.lt_of_lt_of_eq (by omega : (i 0).val / 4000 < 50) N_0.symm
  refine ⟨⟨(i 0).val / 4000, hN⟩, flush0_11 _, ?_⟩
  rw [mem_blk]
  have hf := idx_facts ⟨(i 0).val / 4000, hN⟩
  have e61 : win0_11.index ⟨(i 0).val / 4000, hN⟩ (1 : Fin 2) = 0 := hf.2.2.2.2.2.2.2.2.2.2.2.2.2.2.2.2.2.2.2.2.2.2.1
  have e60 : win0_11.index ⟨(i 0).val / 4000, hN⟩ (0 : Fin 2) = (i 0).val / 4000 := hf.2.2.2.2.2.2.2.2.2.2.2.2.2.2.2.2.2.2.2.2.2.2.2
  intro a
  match a with
  | ⟨0, _⟩ =>
    show win0_11.index ⟨(i 0).val / 4000, hN⟩ (0 : Fin 2) * 4000 ≤ (i 0).val
      ∧ (i 0).val < win0_11.index ⟨(i 0).val / 4000, hN⟩ (0 : Fin 2) * 4000 + 4000
    rw [e60]
    omega
  | ⟨1, _⟩ =>
    show win0_11.index ⟨(i 0).val / 4000, hN⟩ (1 : Fin 2) * 128 ≤ (i 1).val
      ∧ (i 1).val < win0_11.index ⟨(i 0).val / 4000, hN⟩ (1 : Fin 2) * 128 + 128
    omega

/-- The region's output array after the region: `G` of the arrays it found. -/
theorem arr (c : Dev nD) : (dat0 V c).arrAt 11 cfg0.N = G V c :=
  (dat0 V c).arrAt_eq_of_cover 11 (G V c) (fun t _ => flushed_eq V c t) cover

end Cert.KernelIdeal.MoviesFirst

end
-- ==== Proof.MoviesSecond.lean ====
/-
  Region 3 of the kernel's program: the movie nodes' second-layer update — the mean of two relations over the
  first layer's crew and cast features, rectified — followed by the output projection.

  The output array (200000 × 16) is tiled by 50 blocks of 4000 rows; point t computes block t from rows
  4000·t … 4000·t + 3999 of the two second-layer message arrays, of the two in-degree columns and of the movies'
  first-layer features, and from the whole weight matrices, bias rows, projection matrix and projection bias. An
  entry (r, c) of a block is the projection, through column c, of the rectified mean of row r — a function of row r
  of the block's inputs only. So block t is the restriction to its rows of one function `G` of the whole arrays,
  and the blocks cover the array.
-/
import proofs.«129889_j55602646614065_1_alg».proof.Proof.Gen.KernelIdeal.Frame
import proofs.«129889_j55602646614065_1_alg».proof.Proof.Layer

set_option maxRecDepth 16384

noncomputable section

namespace Cert.KernelIdeal.MoviesSecond

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block the body stores, at an index: the projection of the row's rectified mean of the two relations. -/
theorem pay_apply (x0 : Vec Ideal S4000x128 .f32) (x1 : Vec Ideal S4000x1 .f32) (x2 : Vec Ideal S4000x128 .f32) (x3 : Vec Ideal S4000x1 .f32)
    (x4 : Vec Ideal S4000x128 .f32) (x5 : Vec Ideal S128x128 .f32) (x6 : Vec Ideal S128x128 .f32) (x7 : Vec Ideal S1x128 .f32)
    (x8 : Vec Ideal S128x128 .f32) (x9 : Vec Ideal S128x128 .f32) (x10 : Vec Ideal S1x128 .f32) (x11 : Vec Ideal S128x16 .f32)
    (x12 : Vec Ideal S1x16 .f32) (y : S4000x16.Idx) :
    k3_pay1 (k3_pay2 x4) (k3_pay3 x1 x0 x4 x5 x7 x6) (k3_pay4 x3 x2 x8) x10 x9 x11 x12 y
      = Sage.proj (fun j : Fin 128 =>
          Sage.two_rel (fun q : Fin 128 => x0 (ix2 (n0 := 4000) (n1 := 128) (y 0) q)) (x1 (ix2 (n0 := 4000) (n1 := 1) (y 0) (0 : Fin 1)))
            (fun q : Fin 128 => x2 (ix2 (n0 := 4000) (n1 := 128) (y 0) q)) (x3 (ix2 (n0 := 4000) (n1 := 1) (y 0) (0 : Fin 1)))
            (fun q : Fin 128 => x4 (ix2 (n0 := 4000) (n1 := 128) (y 0) q))
            (fun q : Fin 128 => x5 (ix2 (n0 := 128) (n1 := 128) q j)) (fun q : Fin 128 => x6 (ix2 (n0 := 128) (n1 := 128) q j))
            (x7 (ix2 (n0 := 1) (n1 := 128) (0 : Fin 1) j))
            (fun q : Fin 128 => x8 (ix2 (n0 := 128) (n1 := 128) q j)) (fun q : Fin 128 => x9 (ix2 (n0 := 128) (n1 := 128) q j))
            (x10 (ix2 (n0 := 1) (n1 := 128) (0 : Fin 1) j)))
          (fun j : Fin 128 => x11 (ix2 (n0 := 128) (n1 := 16) j (y 1))) (x12 (ix2 (n0 := 1) (n1 := 16) (0 : Fin 1) (y 1))) := by
  obtain ⟨p, c, rfl⟩ : ∃ (p : Fin 4000) (c : Fin 16), y = ix2 p c := ⟨y 0, y 1, eq_ix2 y⟩
  unfold k3_pay1 k3_pay2 k3_pay3 k3_pay4 Sage.proj
  refine congrArg₂ (fun a b : EReal => a + b)
    ((Sage.vecDot_apply _ x11 _ _ _ p c).trans (Finset.sum_congr rfl fun j _ => congrArg (fun z : EReal => z * x11 (ix2 j c)) ?_))
    (Sage.vecBias_apply x12 _ _ p c)
  unfold Sage.two_rel Sage.rel
  exact congrArg (fun z => max (Sage.half * z) Sage.zero)
    (congrArg₂ (fun a b : EReal => a + b)
      (Sage.add3 (Sage.vecAgg_apply x0 x1 x5 _ _ _ _ _ _ p j) (Sage.vecBias_apply x7 _ _ p j) (Sage.vecDotCast_apply x4 x6 _ _ _ _ p j))
      (Sage.add3 (Sage.vecAgg_apply x2 x3 x8 _ _ _ _ _ _ p j) (Sage.vecBias_apply x10 _ _ p j) (Sage.vecDotCast_apply x4 x9 _ _ _ _ p j)))

/-- What the region leaves in its output array, from the arrays it finds. -/
def G (c : Dev nD) : S200000x16.Idx → EReal := fun i =>
  Sage.proj (fun j : Fin 128 =>
      Sage.two_rel (fun q : Fin 128 => (V c main_v73 : S200000x128.Idx → EReal) (ix2 (n0 := 200000) (n1 := 128) (i 0) q))
        ((V c main_v84 : S200000x1.Idx → EReal) (ix2 (n0 := 200000) (n1 := 1) (i 0) (0 : Fin 1)))
        (fun q : Fin 128 => (V c main_v83 : S200000x128.Idx → EReal) (ix2 (n0 := 200000) (n1 := 128) (i 0) q))
        ((V c main_v85 : S200000x1.Idx → EReal) (ix2 (n0 := 200000) (n1 := 1) (i 0) (0 : Fin 1)))
        (fun q : Fin 128 => (V c main_v57 : S200000x128.Idx → EReal) (ix2 (n0 := 200000) (n1 := 128) (i 0) q))
        (fun q : Fin 128 => (V c main_arg19 : S128x128.Idx → EReal) (ix2 (n0 := 128) (n1 := 128) q j))
        (fun q : Fin 128 => (V c main_arg20 : S128x128.Idx → EReal) (ix2 (n0 := 128) (n1 := 128) q j))
        ((V c main_v86 : S1x128.Idx → EReal) (ix2 (n0 := 1) (n1 := 128) (0 : Fin 1) j))
        (fun q : Fin 128 => (V c main_arg22 : S128x128.Idx → EReal) (ix2 (n0 := 128) (n1 := 128) q j))
        (fun q : Fin 128 => (V c main_arg23 : S128x128.Idx → EReal) (ix2 (n0 := 128) (n1 := 128) q j))
        ((V c main_v87 : S1x128.Idx → EReal) (ix2 (n0 := 1) (n1 := 128) (0 : Fin 1) j)))
    (fun j : Fin 128 => (V c main_arg31 : S128x16.Idx → EReal) (ix2 (n0 := 128) (n1 := 16) j (i 1)))
    ((V c main_v88 : S1x16.Idx → EReal) (ix2 (n0 := 1) (n1 := 16) (0 : Fin 1) (i 1)))

/-- The index maps over the grid: the five row-tiled inputs move with the output's block, the weights, bias rows,
    projection matrix and projection bias stay, and the output's block at point t is block t. -/
theorem idx_facts : ∀ t : Fin cfg3.N,
    win3_0.index t (0 : Fin 2) = win3_13.index t (0 : Fin 2) ∧ win3_0.index t (1 : Fin 2) = 0
    ∧ win3_1.index t (0 : Fin 2) = win3_13.index t (0 : Fin 2) ∧ win3_1.index t (1 : Fin 2) = 0
    ∧ win3_2.index t (0 : Fin 2) = win3_13.index t (0 : Fin 2) ∧ win3_2.index t (1 : Fin 2) = 0
    ∧ win3_3.index t (0 : Fin 2) = win3_13.index t (0 : Fin 2) ∧ win3_3.index t (1 : Fin 2) = 0
    ∧ win3_4.index t (0 : Fin 2) = win3_13.index t (0 : Fin 2) ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = 0 ∧ win3_10.index t (1 : Fin 2) = 0
    ∧ win3_11.index t (0 : Fin 2) = 0 ∧ win3_11.index t (1 : Fin 2) = 0
    ∧ win3_12.index t (0 : Fin 2) = 0 ∧ win3_12.index t (1 : Fin 2) = 0
    ∧ win3_13.index t (1 : Fin 2) = 0 ∧ win3_13.index t (0 : Fin 2) = t.val :=
  (by decide +kernel : ∀ t : Fin grid3.N, _)

/-- What point t writes back is block t of `G`. -/
theorem flushed_eq (c : Dev nD) (t : Fin cfg3.N) :
    (dat3 V c).flushed 13 t = ((cfg3.win 13).blk t).view.read (Elt Ideal) (G V c) := by
  show (cfg3.win 13).cut (grid3.coords t) ((dat3 V c).after 13 t) = _
  rw [after3_13]
  unfold out3_13
  rw [View.canon_unit_zero hz]
  simp only [View.ld_unit_zero (S := S4000x1) hz, View.ld_unit_zero (S := S4000x128) hz, View.ld_unit_zero (S := S128x128) hz,
    View.ld_unit_zero (S := S1x128) hz, View.ld_unit_zero (S := S128x16) hz, View.ld_unit_zero (S := S1x16) hz]
  obtain ⟨e00, e01, e10, e11, e20, e21, e30, e31, e40, e41, e50, e51, e60, e61, e70, e71, e80, e81, e90, e91, ea0, ea1, eb0, eb1, ec0, ec1, eo1, eo0⟩ := idx_facts t
  funext y
  refine (pay_apply _ _ _ _ _ _ _ _ _ _ _ _ _ y).trans ?_
  show _ = G V c (((cfg3.win 13).blk t).view.emb y)
  unfold G
  refine congr (congr (congrArg (Sage.proj (h := 128)) (funext fun j => ?_)) (funext fun j => ?_)) ?_
  · refine (congr (congr (congr (congr (congr (congr (congr (congr (congr (congr (congrArg (Sage.two_rel (k1 := 128) (k2 := 128) (d := 128)) (funext fun q => ?_)) ?_) (funext fun q => ?_)) ?_) (funext fun q => ?_))
    (funext fun q => ?_)) (funext fun q => ?_)) ?_) (funext fun q => ?_)) (funext fun q => ?_)) ?_)
    · show (V c main_v73 : S200000x128.Idx → EReal) _ = (V c main_v73 : S200000x128.Idx → EReal) _
      refine congrArg _ (funext fun a => Fin.ext ?_)
      match a with
      | ⟨0, _⟩ => show win3_0.index t (0 : Fin 2) * 4000 + 1 * (y 0).val = win3_13.index t (0 : Fin 2) * 4000 + 1 * (y 0).val; omega
      | ⟨1, _⟩ => show win3_0.index t (1 : Fin 2) * 128 + 1 * q.val = q.val; omega
    · show (V c main_v84 : S200000x1.Idx → EReal) _ = (V c main_v84 : S200000x1.Idx → EReal) _
      refine congrArg _ (funext fun a => Fin.ext ?_)
      match a with
      | ⟨0, _⟩ => show win3_1.index t (0 : Fin 2) * 4000 + 1 * (y 0).val = win3_13.index t (0 : Fin 2) * 4000 + 1 * (y 0).val; omega
      | ⟨1, _⟩ => show win3_1.index t (1 : Fin 2) * 1 + 1 * 0 = 0; omega
    · show (V c main_v83 : S200000x128.Idx → EReal) _ = (V c main_v83 : S200000x128.Idx → EReal) _
      refine congrArg _ (funext fun a => Fin.ext ?_)
      match a with
      | ⟨0, _⟩ => show win3_2.index t (0 : Fin 2) * 4000 + 1 * (y 0).val = win3_13.index t (0 : Fin 2) * 4000 + 1 * (y 0).val; omega
      | ⟨1, _⟩ => show win3_2.index t (1 : Fin 2) * 128 + 1 * q.val = q.val; omega
    · show (V c main_v85 : S200000x1.Idx → EReal) _ = (V c main_v85 : S200000x1.Idx → EReal) _
      refine congrArg _ (funext fun a => Fin.ext ?_)
      match a with
      | ⟨0, _⟩ => show win3_3.index t (0 : Fin 2) * 4000 + 1 * (y 0).val = win3_13.index t (0 : Fin 2) * 4000 + 1 * (y 0).val; omega
      | ⟨1, _⟩ => show win3_3.index t (1 : Fin 2) * 1 + 1 * 0 = 0; omega
    · show (V c main_v57 : S200000x128.Idx → EReal) _ = (V c main_v57 : S200000x128.Idx → EReal) _
      refine congrArg _ (funext fun a => Fin.ext ?_)
      match a with
      | ⟨0, _⟩ => show win3_4.index t (0 : Fin 2) * 4000 + 1 * (y 0).val = win3_13.index t (0 : Fin 2) * 4000 + 1 * (y 0).val; omega
      | ⟨1, _⟩ => show win3_4.index t (1 : Fin 2) * 128 + 1 * q.val = q.val; omega
    · show (V c main_arg19 : S128x128.Idx → EReal) _ = (V c main_arg19 : S128x128.Idx → EReal) _
      refine congrArg _ (funext fun a => Fin.ext ?_)
      match a with
      | ⟨0, _⟩ => show win3_5.index t (0 : Fin 2) * 128 + 1 * q.val = q.val; omega
      | ⟨1, _⟩ => show win3_5.index t (1 : Fin 2) * 128 + 1 * j.val = j.val; omega
    · show (V c main_arg20 : S128x128.Idx → EReal) _ = (V c main_arg20 : S128x128.Idx → EReal) _
      refine congrArg _ (funext fun a => Fin.ext ?_)
      match a with
      | ⟨0, _⟩ => show win3_6.index t (0 : Fin 2) * 128 + 1 * q.val = q.val; omega
      | ⟨1, _⟩ => show win3_6.index t (1 : Fin 2) * 128 + 1 * j.val = j.val; omega
    · show (V c main_v86 : S1x128.Idx → EReal) _ = (V c main_v86 : S1x128.Idx → EReal) _
      refine congrArg _ (funext fun a => Fin.ext ?_)
      match a with
      | ⟨0, _⟩ => show win3_7.index t (0 : Fin 2) * 1 + 1 * 0 = 0; omega
      | ⟨1, _⟩ => show win3_7.index t (1 : Fin 2) * 128 + 1 * j.val = j.val; omega
    · show (V c main_arg22 : S128x128.Idx → EReal) _ = (V c main_arg22 : S128x128.Idx → EReal) _
      refine congrArg _ (funext fun a => Fin.ext ?_)
      match a with
      | ⟨0, _⟩ => show win3_8.index t (0 : Fin 2) * 128 + 1 * q.val = q.val; omega
      | ⟨1, _⟩ => show win3_8.index t (1 : Fin 2) * 128 + 1 * j.val = j.val; omega
    · show (V c main_arg23 : S128x128.Idx → EReal) _ = (V c main_arg23 : S128x128.Idx → EReal) _
      refine congrArg _ (funext fun a => Fin.ext ?_)
      match a with
      | ⟨0, _⟩ => show win3_9.index t (0 : Fin 2) * 128 + 1 * q.val = q.val; omega
      | ⟨1, _⟩ => show win3_9.index t (1 : Fin 2) * 128 + 1 * j.val = j.val; omega
    · show (V c main_v87 : S1x128.Idx → EReal) _ = (V c main_v87 : S1x128.Idx → EReal) _
      refine congrArg _ (funext fun a => Fin.ext ?_)
      match a with
      | ⟨0, _⟩ => show win3_10.index t (0 : Fin 2) * 1 + 1 * 0 = 0; omega
      | ⟨1, _⟩ => show win3_10.index t (1 : Fin 2) * 128 + 1 * j.val = j.val; omega
  · show (V c main_arg31 : S128x16.Idx → EReal) _ = (V c main_arg31 : S128x16.Idx → EReal) _
    refine congrArg _ (funext fun a => Fin.ext ?_)
    match a with
    | ⟨0, _⟩ => show win3_11.index t (0 : Fin 2) * 128 + 1 * j.val = j.val; omega
    | ⟨1, _⟩ => show win3_11.index t (1 : Fin 2) * 16 + 1 * (y 1).val = win3_13.index t (1 : Fin 2) * 16 + 1 * (y 1).val; omega
  · show (V c main_v88 : S1x16.Idx → EReal) _ = (V c main_v88 : S1x16.Idx → EReal) _
    refine congrArg _ (funext fun a => Fin.ext ?_)
    match a with
    | ⟨0, _⟩ => show win3_12.index t (0 : Fin 2) * 1 + 1 * 0 = 0; omega
    | ⟨1, _⟩ => show win3_12.index t (1 : Fin 2) * 16 + 1 * (y 1).val = win3_13.index t (1 : Fin 2) * 16 + 1 * (y 1).val; omega

/-- An index of the array is in point t's block iff each coordinate is in the block's range on its axis. -/
theorem mem_blk (t : Fin cfg3.N) (i : S200000x16.Idx) :
    i ∈ ((cfg3.win 13).blk t).view.set ↔ ∀ a : Fin 2, win3_13.index t a * S4000x16.size a ≤ (i a).val
      ∧ (i a).val < win3_13.index t a * S4000x16.size a + S4000x16.size a := by
  show i ∈ ((View.whole main_v89).slice (win3_13.rect t)).set ↔ _
  rw [View.set_slice_whole, Rect.mem_set_unit]
  exact Iff.rfl

/-- Every row r of the array is in the block of point r / 4000. -/
theorem cover (i : S200000x16.Idx) : ∃ t : Fin cfg3.N, (cfg3.win 13).flush t = true ∧ i ∈ ((cfg3.win 13).blk t).view.set := by
  have hi0 : (i 0).val < 200000 := (i 0).isLt
  have hi1 : (i 1).val < 16 := (i 1).isLt
  have hN : (i 0).val / 4000 < cfg3.N := Nat.lt_of_lt_of_eq (by omega : (i 0).val / 4000 < 50) N_3.symm
  refine ⟨⟨(i 0).val / 4000, hN⟩, flush3_13 _, ?_⟩
  rw [mem_blk]
  have hf := idx_facts ⟨(i 0).val / 4000, hN⟩
  have e61 : win3_13.index ⟨(i 0).val / 4000, hN⟩ (1 : Fin 2) = 0 := hf.2.2.2.2.2.2.2.2.2.2.2.2.2.2.2.2.2.2.2.2.2.2.2.2.2.2.1
  have e60 : win3_13.index ⟨(i 0).val / 4000, hN⟩ (0 : Fin 2) = (i 0).val / 4000 := hf.2.2.2.2.2.2.2.2.2.2.2.2.2.2.2.2.2.2.2.2.2.2.2.2.2.2.2
  intro a
  match a with
  | ⟨0, _⟩ =>
    show win3_13.index ⟨(i 0).val / 4000, hN⟩ (0 : Fin 2) * 4000 ≤ (i 0).val
      ∧ (i 0).val < win3_13.index ⟨(i 0).val / 4000, hN⟩ (0 : Fin 2) * 4000 + 4000
    rw [e60]
    omega
  | ⟨1, _⟩ =>
    show win3_13.index ⟨(i 0).val / 4000, hN⟩ (1 : Fin 2) * 16 ≤ (i 1).val
      ∧ (i 1).val < win3_13.index ⟨(i 0).val / 4000, hN⟩ (1 : Fin 2) * 16 + 16
    omega

/-- The region's output array after the region: `G` of the arrays it found. -/
theorem arr (c : Dev nD) : (dat3 V c).arrAt 13 cfg3.N = G V c :=
  (dat3 V c).arrAt_eq_of_cover 13 (G V c) (fun t _ => flushed_eq V c t) cover

end Cert.KernelIdeal.MoviesSecond

end
-- ==== Proof.RefValue.lean ====
/-
  The reference's stages read at one node and one channel.

  The reference runs two layers of a heterogeneous SAGE network on three node types (movies, crew, cast) joined by
  four relations (crew → movies, cast → movies and their two reversals), then projects the movies' features. Each
  relation's stage, read at (r, c), is `Sage.rel` of row r of the summed messages and of the destination's features,
  of the in-degree of r, of column c of the two weight matrices and of entry c of the bias. The movies take the mean of
  their two relations, rectified (`Sage.two_rel`); crew and cast take their one relation, rectified (`Sage.one_rel`);
  the result is the projection of the movies' second-layer row (`Sage.proj`). The summed messages and the in-degrees
  (scatter-adds) stay as the stages they are: nothing here reads inside them.
-/
import proofs.«129889_j55602646614065_1_alg».proof.Proof.Gen.ReferenceIdeal.Read
import proofs.«129889_j55602646614065_1_alg».proof.Proof.Layer

noncomputable section

open scoped BigOperators

namespace Cert.RefValue

open Idealize.ShloMosaic Idealize.ShloMosaic.ValueIdx Cert.ReferenceIdeal Cert.ReferenceIdeal.Read

/- The arguments: the three feature matrices, the four edge-endpoint lists, then per relation and layer W_l, W_r and
   the bias, then the projection's matrix and bias. -/
variable (x0 : (⟨S200000x128, .f32⟩ : BufTy).Contents (Elt Ideal)) (x1 x2 : (⟨S100000x64, .f32⟩ : BufTy).Contents (Elt Ideal))
  (x3 x4 x5 x6 : (⟨S600000, .i32⟩ : BufTy).Contents (Elt Ideal))
  (x7 : (⟨S64x128, .f32⟩ : BufTy).Contents (Elt Ideal)) (x8 : (⟨S128x128, .f32⟩ : BufTy).Contents (Elt Ideal)) (x9 : (⟨S128, .f32⟩ : BufTy).Contents (Elt Ideal))
  (x10 : (⟨S64x128, .f32⟩ : BufTy).Contents (Elt Ideal)) (x11 : (⟨S128x128, .f32⟩ : BufTy).Contents (Elt Ideal)) (x12 : (⟨S128, .f32⟩ : BufTy).Contents (Elt Ideal))
  (x13 : (⟨S128x128, .f32⟩ : BufTy).Contents (Elt Ideal)) (x14 : (⟨S64x128, .f32⟩ : BufTy).Contents (Elt Ideal)) (x15 : (⟨S128, .f32⟩ : BufTy).Contents (Elt Ideal))
  (x16 : (⟨S128x128, .f32⟩ : BufTy).Contents (Elt Ideal)) (x17 : (⟨S64x128, .f32⟩ : BufTy).Contents (Elt Ideal)) (x18 : (⟨S128, .f32⟩ : BufTy).Contents (Elt Ideal))
  (x19 x20 : (⟨S128x128, .f32⟩ : BufTy).Contents (Elt Ideal)) (x21 : (⟨S128, .f32⟩ : BufTy).Contents (Elt Ideal))
  (x22 x23 : (⟨S128x128, .f32⟩ : BufTy).Contents (Elt Ideal)) (x24 : (⟨S128, .f32⟩ : BufTy).Contents (Elt Ideal))
  (x31 : (⟨S128x16, .f32⟩ : BufTy).Contents (Elt Ideal)) (x32 : (⟨S16, .f32⟩ : BufTy).Contents (Elt Ideal))

/-! ## The six relations -/

/-- First layer, crew → movies: at (r, c) the relation of movie r (summed crew messages, in-degree, own features) and channel c. -/
theorem crew_to_movies_first_apply (r : Fin 200000) (c : Fin 128) :
    val_main_v24 (F := Ideal) x0 x1 x3 x4 x7 x8 x9 (ix2 (n0 := 200000) (n1 := 128) r c)
      = Sage.rel (fun q => val_main_v9 (F := Ideal) x1 x3 x4 (ix2 (n0 := 200000) (n1 := 64) r q))
          (val_main_v13 (F := Ideal) x4 (ix1 (n := 200000) r))
          (fun q => x0 (ix2 (n0 := 200000) (n1 := 128) r q))
          (fun q => x7 (ix2 (n0 := 64) (n1 := 128) q c))
          (fun q => x8 (ix2 (n0 := 128) (n1 := 128) q c))
          (x9 (ix1 (n := 128) c)) := by
  unfold val_main_v24 val_main_v22 val_main_v23 val_main_v19 val_main_v18 val_main_v17 val_main_v16 val_main_v15 val_main_v14 val_main_cst_3 val_main_v21 val_main_v20
  exact Sage.hostRel_apply (val_main_v9 (F := Ideal) x1 x3 x4) (val_main_v13 (F := Ideal) x4) x0 x7 x8 x9 _ _ _ _ _ none none r c

/-- First layer, cast → movies: at (r, c) the relation of movie r (summed cast messages, in-degree, own features) and channel c. -/
theorem cast_to_movies_first_apply (r : Fin 200000) (c : Fin 128) :
    val_main_v49 (F := Ideal) x0 x2 x5 x6 x10 x11 x12 (ix2 (n0 := 200000) (n1 := 128) r c)
      = Sage.rel (fun q => val_main_v34 (F := Ideal) x2 x5 x6 (ix2 (n0 := 200000) (n1 := 64) r q))
          (val_main_v38 (F := Ideal) x6 (ix1 (n := 200000) r))
          (fun q => x0 (ix2 (n0 := 200000) (n1 := 128) r q))
          (fun q => x10 (ix2 (n0 := 64) (n1 := 128) q c))
          (fun q => x11 (ix2 (n0 := 128) (n1 := 128) q c))
          (x12 (ix1 (n := 128) c)) := by
  unfold val_main_v49 val_main_v47 val_main_v48 val_main_v44 val_main_v43 val_main_v42 val_main_v41 val_main_v40 val_main_v39 val_main_cst_9 val_main_v46 val_main_v45
  exact Sage.hostRel_apply (val_main_v34 (F := Ideal) x2 x5 x6) (val_main_v38 (F := Ideal) x6) x0 x10 x11 x12 _ _ _ _ _ none none r c

/-- First layer, movies → crew: at (r, c) the relation of crew member r (summed movie messages, in-degree, own features) and channel c. -/
theorem movies_to_crew_first_apply (r : Fin 100000) (c : Fin 128) :
    val_main_v77 (F := Ideal) x0 x1 x3 x4 x13 x14 x15 (ix2 (n0 := 100000) (n1 := 128) r c)
      = Sage.rel (fun q => val_main_v62 (F := Ideal) x0 x3 x4 (ix2 (n0 := 100000) (n1 := 128) r q))
          (val_main_v66 (F := Ideal) x3 (ix1 (n := 100000) r))
          (fun q => x1 (ix2 (n0 := 100000) (n1 := 64) r q))
          (fun q => x13 (ix2 (n0 := 128) (n1 := 128) q c))
          (fun q => x14 (ix2 (n0 := 64) (n1 := 128) q c))
          (x15 (ix1 (n := 128) c)) := by
  unfold val_main_v77 val_main_v75 val_main_v76 val_main_v72 val_main_v71 val_main_v70 val_main_v69 val_main_v68 val_main_v67 val_main_cst_16 val_main_v74 val_main_v73
  exact Sage.hostRel_apply (val_main_v62 (F := Ideal) x0 x3 x4) (val_main_v66 (F := Ideal) x3) x1 x13 x14 x15 _ _ _ _ _ none none r c

/-- First layer, movies → cast: at (r, c) the relation of cast member r (summed movie messages, in-degree, own features) and channel c. -/
theorem movies_to_cast_first_apply (r : Fin 100000) (c : Fin 128) :
    val_main_v102 (F := Ideal) x0 x2 x5 x6 x16 x17 x18 (ix2 (n0 := 100000) (n1 := 128) r c)
      = Sage.rel (fun q => val_main_v87 (F := Ideal) x0 x5 x6 (ix2 (n0 := 100000) (n1 := 128) r q))
          (val_main_v91 (F := Ideal) x5 (ix1 (n := 100000) r))
          (fun q => x2 (ix2 (n0 := 100000) (n1 := 64) r q))
          (fun q => x16 (ix2 (n0 := 128) (n1 := 128) q c))
          (fun q => x17 (ix2 (n0 := 64) (n1 := 128) q c))
          (x18 (ix1 (n := 128) c)) := by
  unfold val_main_v102 val_main_v100 val_main_v101 val_main_v97 val_main_v96 val_main_v95 val_main_v94 val_main_v93 val_main_v92 val_main_cst_22 val_main_v99 val_main_v98
  exact Sage.hostRel_apply (val_main_v87 (F := Ideal) x0 x5 x6) (val_main_v91 (F := Ideal) x5) x2 x16 x17 x18 _ _ _ _ _ none none r c

/-- Second layer, crew → movies: at (r, c) the relation of movie r (summed first-layer crew messages, in-degree, its first-layer features) and channel c. -/
theorem crew_to_movies_second_apply (r : Fin 200000) (c : Fin 128) :
    val_main_v130 (F := Ideal) x0 x1 x2 x3 x4 x5 x6 x7 x8 x9 x10 x11 x12 x13 x14 x15 x19 x20 x21 (ix2 (n0 := 200000) (n1 := 128) r c)
      = Sage.rel (fun q => val_main_v115 (F := Ideal) x0 x1 x3 x4 x13 x14 x15 (ix2 (n0 := 200000) (n1 := 128) r q))
          (val_main_v119 (F := Ideal) x4 (ix1 (n := 200000) r))
          (fun q => val_main_v103 (F := Ideal) x0 x1 x2 x3 x4 x5 x6 x7 x8 x9 x10 x11 x12 (ix2 (n0 := 200000) (n1 := 128) r q))
          (fun q => x19 (ix2 (n0 := 128) (n1 := 128) q c))
          (fun q => x20 (ix2 (n0 := 128) (n1 := 128) q c))
          (x21 (ix1 (n := 128) c)) := by
  unfold val_main_v130 val_main_v128 val_main_v129 val_main_v125 val_main_v124 val_main_v123 val_main_v122 val_main_v121 val_main_v120 val_main_cst_28 val_main_v127 val_main_v126
  exact Sage.hostRel_apply (val_main_v115 (F := Ideal) x0 x1 x3 x4 x13 x14 x15) (val_main_v119 (F := Ideal) x4) (val_main_v103 (F := Ideal) x0 x1 x2 x3 x4 x5 x6 x7 x8 x9 x10 x11 x12) x19 x20 x21 _ _ _ _ _ none none r c

/-- Second layer, cast → movies: at (r, c) the relation of movie r (summed first-layer cast messages, in-degree, its first-layer features) and channel c. -/
theorem cast_to_movies_second_apply (r : Fin 200000) (c : Fin 128) :
    val_main_v155 (F := Ideal) x0 x1 x2 x3 x4 x5 x6 x7 x8 x9 x10 x11 x12 x16 x17 x18 x22 x23 x24 (ix2 (n0 := 200000) (n1 := 128) r c)
      = Sage.rel (fun q => val_main_v140 (F := Ideal) x0 x2 x5 x6 x16 x17 x18 (ix2 (n0 := 200000) (n1 := 128) r q))
          (val_main_v144 (F := Ideal) x6 (ix1 (n := 200000) r))
          (fun q => val_main_v103 (F := Ideal) x0 x1 x2 x3 x4 x5 x6 x7 x8 x9 x10 x11 x12 (ix2 (n0 := 200000) (n1 := 128) r q))
          (fun q => x22 (ix2 (n0 := 128) (n1 := 128) q c))
          (fun q => x23 (ix2 (n0 := 128) (n1 := 128) q c))
          (x24 (ix1 (n := 128) c)) := by
  unfold val_main_v155 val_main_v153 val_main_v154 val_main_v150 val_main_v149 val_main_v148 val_main_v147 val_main_v146 val_main_v145 val_main_cst_34 val_main_v152 val_main_v151
  exact Sage.hostRel_apply (val_main_v140 (F := Ideal) x0 x2 x5 x6 x16 x17 x18) (val_main_v144 (F := Ideal) x6) (val_main_v103 (F := Ideal) x0 x1 x2 x3 x4 x5 x6 x7 x8 x9 x10 x11 x12) x22 x23 x24 _ _ _ _ _ none none r c

/-! ## The first layer's updates -/

/-- First layer, movies: at (r, c) half the sum of movie r's two relations (from crew, from cast), rectified. -/
theorem movies_first_layer_apply (r : Fin 200000) (c : Fin 128) :
    val_main_v103 (F := Ideal) x0 x1 x2 x3 x4 x5 x6 x7 x8 x9 x10 x11 x12 (ix2 (n0 := 200000) (n1 := 128) r c)
      = Sage.two_rel (fun q => val_main_v9 (F := Ideal) x1 x3 x4 (ix2 (n0 := 200000) (n1 := 64) r q))
          (val_main_v13 (F := Ideal) x4 (ix1 (n := 200000) r))
          (fun q => val_main_v34 (F := Ideal) x2 x5 x6 (ix2 (n0 := 200000) (n1 := 64) r q))
          (val_main_v38 (F := Ideal) x6 (ix1 (n := 200000) r))
          (fun q => x0 (ix2 (n0 := 200000) (n1 := 128) r q))
          (fun q => x7 (ix2 (n0 := 64) (n1 := 128) q c))
          (fun q => x8 (ix2 (n0 := 128) (n1 := 128) q c))
          (x9 (ix1 (n := 128) c))
          (fun q => x10 (ix2 (n0 := 64) (n1 := 128) q c))
          (fun q => x11 (ix2 (n0 := 128) (n1 := 128) q c))
          (x12 (ix1 (n := 128) c)) := by
  have h1 := crew_to_movies_first_apply x0 x1 x3 x4 x7 x8 x9 r c
  have h2 := cast_to_movies_first_apply x0 x2 x5 x6 x10 x11 x12 r c
  unfold Sage.two_rel
  rw [← h1, ← h2]
  rfl

/-- First layer, crew: at (r, c) crew member r's one relation (from movies), rectified. -/
theorem crew_first_layer_apply (r : Fin 100000) (c : Fin 128) :
    val_main_v104 (F := Ideal) x0 x1 x3 x4 x13 x14 x15 (ix2 (n0 := 100000) (n1 := 128) r c)
      = Sage.one_rel (fun q => val_main_v62 (F := Ideal) x0 x3 x4 (ix2 (n0 := 100000) (n1 := 128) r q))
          (val_main_v66 (F := Ideal) x3 (ix1 (n := 100000) r))
          (fun q => x1 (ix2 (n0 := 100000) (n1 := 64) r q))
          (fun q => x13 (ix2 (n0 := 128) (n1 := 128) q c))
          (fun q => x14 (ix2 (n0 := 64) (n1 := 128) q c))
          (x15 (ix1 (n := 128) c)) := by
  have h := movies_to_crew_first_apply x0 x1 x3 x4 x13 x14 x15 r c
  unfold Sage.one_rel
  rw [← h]
  rfl

/-- First layer, cast: at (r, c) cast member r's one relation (from movies), rectified. -/
theorem cast_first_layer_apply (r : Fin 100000) (c : Fin 128) :
    val_main_v105 (F := Ideal) x0 x2 x5 x6 x16 x17 x18 (ix2 (n0 := 100000) (n1 := 128) r c)
      = Sage.one_rel (fun q => val_main_v87 (F := Ideal) x0 x5 x6 (ix2 (n0 := 100000) (n1 := 128) r q))
          (val_main_v91 (F := Ideal) x5 (ix1 (n := 100000) r))
          (fun q => x2 (ix2 (n0 := 100000) (n1 := 64) r q))
          (fun q => x16 (ix2 (n0 := 128) (n1 := 128) q c))
          (fun q => x17 (ix2 (n0 := 64) (n1 := 128) q c))
          (x18 (ix1 (n := 128) c)) := by
  have h := movies_to_cast_first_apply x0 x2 x5 x6 x16 x17 x18 r c
  unfold Sage.one_rel
  rw [← h]
  rfl

/-! ## The second layer's movies and the result -/

/-- Second layer, movies: at (r, c) half the sum of movie r's two second-layer relations, rectified; the movie's own features are its first-layer ones. -/
theorem movies_second_layer_apply (r : Fin 200000) (c : Fin 128) :
    val_main_v209 (F := Ideal) x0 x1 x2 x3 x4 x5 x6 x7 x8 x9 x10 x11 x12 x13 x14 x15 x16 x17 x18 x19 x20 x21 x22 x23 x24 (ix2 (n0 := 200000) (n1 := 128) r c)
      = Sage.two_rel (fun q => val_main_v115 (F := Ideal) x0 x1 x3 x4 x13 x14 x15 (ix2 (n0 := 200000) (n1 := 128) r q))
          (val_main_v119 (F := Ideal) x4 (ix1 (n := 200000) r))
          (fun q => val_main_v140 (F := Ideal) x0 x2 x5 x6 x16 x17 x18 (ix2 (n0 := 200000) (n1 := 128) r q))
          (val_main_v144 (F := Ideal) x6 (ix1 (n := 200000) r))
          (fun q => val_main_v103 (F := Ideal) x0 x1 x2 x3 x4 x5 x6 x7 x8 x9 x10 x11 x12 (ix2 (n0 := 200000) (n1 := 128) r q))
          (fun q => x19 (ix2 (n0 := 128) (n1 := 128) q c))
          (fun q => x20 (ix2 (n0 := 128) (n1 := 128) q c))
          (x21 (ix1 (n := 128) c))
          (fun q => x22 (ix2 (n0 := 128) (n1 := 128) q c))
          (fun q => x23 (ix2 (n0 := 128) (n1 := 128) q c))
          (x24 (ix1 (n := 128) c)) := by
  have h1 := crew_to_movies_second_apply x0 x1 x2 x3 x4 x5 x6 x7 x8 x9 x10 x11 x12 x13 x14 x15 x19 x20 x21 r c
  have h2 := cast_to_movies_second_apply x0 x1 x2 x3 x4 x5 x6 x7 x8 x9 x10 x11 x12 x16 x17 x18 x22 x23 x24 r c
  unfold Sage.two_rel
  rw [← h1, ← h2]
  rfl

/-- The result: at (r, c) the projection of movie r's second-layer features through column c of the output matrix, plus
    entry c of the output bias. -/
theorem result_apply (r : Fin 200000) (c : Fin 16) :
    val_main_v215 (F := Ideal) x0 x1 x2 x3 x4 x5 x6 x7 x8 x9 x10 x11 x12 x13 x14 x15 x16 x17 x18 x19 x20 x21 x22 x23 x24 x31 x32 (ix2 (n0 := 200000) (n1 := 16) r c)
      = Sage.proj (fun q => val_main_v209 (F := Ideal) x0 x1 x2 x3 x4 x5 x6 x7 x8 x9 x10 x11 x12 x13 x14 x15 x16 x17 x18 x19 x20 x21 x22 x23 x24 (ix2 (n0 := 200000) (n1 := 128) r q))
          (fun q => x31 (ix2 (n0 := 128) (n1 := 16) q c))
          (x32 (ix1 (n := 16) c)) := by
  unfold val_main_v215 val_main_v212 val_main_v214 val_main_v213 Sage.proj
  exact congrArg₂ (· + ·) (Sage.hostDot_apply none _ x31 r c) (Cert.Lib.HostRow.row_down_rows_apply _ _ x32 r c)

end Cert.RefValue

end
-- ==== Proof.KernelValue.lean ====
/-
  The kernel's result as a function of the arguments.

  Each region's output array is a function `G` of the arrays the region finds (one module per region); the arrays a
  region finds are host operations of the arguments and of earlier regions' outputs (the boundary contents). Put
  together, from the first region to the last:
    region 0 leaves the movies' first-layer features, region 1 the crew's, region 2 the cast's;
    the last host stretch gathers the crew's and the cast's features along the edges and sums them into the movies;
    region 3 leaves the projected second-layer movie features, the program's result.
  Each of these is the stage of the same name of the reference's program — the same function of the same arguments —
  because at an index both are the same formula of the same rows: the reference's stages read at an index, and a
  region's `G` with its inputs named. The in-degree column (a vector cast to a column) read at (r, 0) is the vector
  at r; a bias row (a vector cast to a row) read at (0, c) is the vector at c.
-/
import proofs.«129889_j55602646614065_1_alg».proof.Proof.Boundary
import proofs.«129889_j55602646614065_1_alg».proof.Proof.KernelRun
import proofs.«129889_j55602646614065_1_alg».proof.Proof.Crew
import proofs.«129889_j55602646614065_1_alg».proof.Proof.Cast
import proofs.«129889_j55602646614065_1_alg».proof.Proof.MoviesFirst
import proofs.«129889_j55602646614065_1_alg».proof.Proof.MoviesSecond
import proofs.«129889_j55602646614065_1_alg».proof.Proof.RefValue

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen Cert.Lib.Unwritten

variable (m : (ℓ : Loc nD τ sig) → Buf (Elt Ideal) ℓ) (ρ : Dev nD → PrngReg) (c : Dev nD)

/-! ## The first layer -/

/-- What region 0 computes of what it finds is the reference's first-layer movie features. -/
theorem movies_first_eq : MoviesFirst.G (V1 m ρ) c = Cert.ReferenceIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  obtain ⟨r, j, rfl⟩ : ∃ (r : Fin 200000) (j : Fin 128), i = ix2 r j := ⟨i 0, i 1, eq_ix2 i⟩
  refine Eq.trans ?_ (Cert.RefValue.movies_first_layer_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) r j).symm
  unfold MoviesFirst.G
  refine (congr (congr (congr (congr (congr (congr (congr (congr (congr (congr (congrArg (Sage.two_rel (k1 := 64) (k2 := 64) (d := 128)) (funext fun q => ?_)) ?_) (funext fun q => ?_)) ?_) (funext fun q => ?_))
    (funext fun q => ?_)) (funext fun q => ?_)) ?_) (funext fun q => ?_)) (funext fun q => ?_)) ?_)
  · exact congrFun (w1_v22 m ρ c) _
  · exact (congrFun (w1_v53 m ρ c) _).trans (Keepdims.shapeCast_a_a1_apply _ _ r 0)
  · exact congrFun (w1_v32 m ρ c) _
  · exact (congrFun (w1_v54 m ρ c) _).trans (Keepdims.shapeCast_a_a1_apply _ _ r 0)
  · exact congrFun (w1_arg0 m ρ c) _
  · exact congrFun (w1_arg7 m ρ c) _
  · exact congrFun (w1_arg8 m ρ c) _
  · exact (congrFun (w1_v55 m ρ c) _).trans (shapeCast_a_1a_apply _ _ 0 j)
  · exact congrFun (w1_arg10 m ρ c) _
  · exact congrFun (w1_arg11 m ρ c) _
  · exact (congrFun (w1_v56 m ρ c) _).trans (shapeCast_a_1a_apply _ _ 0 j)

/-- Region 0's output array. -/
theorem movies_first : (dat0 (V1 m ρ) c).arrAt 11 cfg0.N = Cert.ReferenceIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (MoviesFirst.arr (V1 m ρ) c).trans (movies_first_eq m ρ c)

/-- What region 1 computes of what it finds is the reference's first-layer crew features. -/
theorem crew_first_eq : Crew.G (V3 m ρ) c = Cert.ReferenceIdeal.Read.val_main_v104 (F := Ideal) (m ((c : Thread nD τ).loc main_arg0)) (m ((c : Thread nD τ).loc main_arg1)) (m ((c : Thread nD τ).loc main_arg3)) (m ((c : Thread nD τ).loc main_arg4)) (m ((c : Thread nD τ).loc main_arg13)) (m ((c : Thread nD τ).loc main_arg14)) (m ((c : Thread nD τ).loc main_arg15)) := by
  funext i
  obtain ⟨r, j, rfl⟩ : ∃ (r : Fin 100000) (j : Fin 128), i = ix2 r j := ⟨i 0, i 1, eq_ix2 i⟩
  refine Eq.trans ?_ (Cert.RefValue.crew_first_layer_apply (m ((c : Thread nD τ).loc main_arg0)) (m ((c : Thread nD τ).loc main_arg1)) (m ((c : Thread nD τ).loc main_arg3)) (m ((c : Thread nD τ).loc main_arg4)) (m ((c : Thread nD τ).loc main_arg13)) (m ((c : Thread nD τ).loc main_arg14)) (m ((c : Thread nD τ).loc main_arg15)) r j).symm
  unfold Crew.G
  refine congr (congr (congr (congr (congr (congrArg (Sage.one_rel (k := 128) (d := 64)) (funext fun q => ?_)) ?_) (funext fun q => ?_))
    (funext fun q => ?_)) (funext fun q => ?_)) ?_
  · exact congrFun (v3_v42 m ρ c) _
  · exact (congrFun (v3_v58 m ρ c) _).trans (Keepdims.shapeCast_a_a1_apply _ _ r 0)
  · exact congrFun (v3_arg1 m ρ c) _
  · exact congrFun (v3_arg13 m ρ c) _
  · exact congrFun (v3_arg14 m ρ c) _
  · exact (congrFun (v3_v59 m ρ c) _).trans (shapeCast_a_1a_apply _ _ 0 j)

/-- What region 2 computes of what it finds is the reference's first-layer cast features. -/
theorem cast_first_eq : Cast.G (V5 m ρ) c = Cert.ReferenceIdeal.Read.val_main_v105 (F := Ideal) (m ((c : Thread nD τ).loc main_arg0)) (m ((c : Thread nD τ).loc main_arg2)) (m ((c : Thread nD τ).loc main_arg5)) (m ((c : Thread nD τ).loc main_arg6)) (m ((c : Thread nD τ).loc main_arg16)) (m ((c : Thread nD τ).loc main_arg17)) (m ((c : Thread nD τ).loc main_arg18)) := by
  funext i
  obtain ⟨r, j, rfl⟩ : ∃ (r : Fin 100000) (j : Fin 128), i = ix2 r j := ⟨i 0, i 1, eq_ix2 i⟩
  refine Eq.trans ?_ (Cert.RefValue.cast_first_layer_apply (m ((c : Thread nD τ).loc main_arg0)) (m ((c : Thread nD τ).loc main_arg2)) (m ((c : Thread nD τ).loc main_arg5)) (m ((c : Thread nD τ).loc main_arg6)) (m ((c : Thread nD τ).loc main_arg16)) (m ((c : Thread nD τ).loc main_arg17)) (m ((c : Thread nD τ).loc main_arg18)) r j).symm
  unfold Cast.G
  refine congr (congr (congr (congr (congr (congrArg (Sage.one_rel (k := 128) (d := 64)) (funext fun q => ?_)) ?_) (funext fun q => ?_))
    (funext fun q => ?_)) (funext fun q => ?_)) ?_
  · exact congrFun (v5_v52 m ρ c) _
  · exact (congrFun (v5_v61 m ρ c) _).trans (Keepdims.shapeCast_a_a1_apply _ _ r 0)
  · exact congrFun (v5_arg2 m ρ c) _
  · exact congrFun (v5_arg16 m ρ c) _
  · exact congrFun (v5_arg17 m ρ c) _
  · exact (congrFun (v5_v62 m ρ c) _).trans (shapeCast_a_1a_apply _ _ 0 j)

/-! ## The last host stretch: the first layer's crew and cast features gathered along the edges and summed into the movies -/

theorem w6_crew : W6 m ρ c (Proc.devRef .tc main_v60) = Cert.ReferenceIdeal.Read.val_main_v104 (F := Ideal) (m ((c : Thread nD τ).loc main_arg0)) (m ((c : Thread nD τ).loc main_arg1)) (m ((c : Thread nD τ).loc main_arg3)) (m ((c : Thread nD τ).loc main_arg4)) (m ((c : Thread nD τ).loc main_arg13)) (m ((c : Thread nD τ).loc main_arg14)) (m ((c : Thread nD τ).loc main_arg15)) :=
  (w6_v60 m ρ c).trans ((Crew.arr (V3 m ρ) c).trans (crew_first_eq m ρ c))
theorem w6_cast : W6 m ρ c (Proc.devRef .tc main_v63) = Cert.ReferenceIdeal.Read.val_main_v105 (F := Ideal) (m ((c : Thread nD τ).loc main_arg0)) (m ((c : Thread nD τ).loc main_arg2)) (m ((c : Thread nD τ).loc main_arg5)) (m ((c : Thread nD τ).loc main_arg6)) (m ((c : Thread nD τ).loc main_arg16)) (m ((c : Thread nD τ).loc main_arg17)) (m ((c : Thread nD τ).loc main_arg18)) :=
  (w6_v63 m ρ c).trans ((Cast.arr (V5 m ρ) c).trans (cast_first_eq m ρ c))
theorem v7_movies : V7 m ρ c main_v57 = Cert.ReferenceIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (v7_v57 m ρ c).trans (movies_first m ρ c)

set_option maxHeartbeats 4000000 in
theorem v7_v73 : V7 m ρ c main_v73 = Cert.ReferenceIdeal.Read.val_main_v115 (F := Ideal) (m ((c : Thread nD τ).loc main_arg0)) (m ((c : Thread nD τ).loc main_arg1)) (m ((c : Thread nD τ).loc main_arg3)) (m ((c : Thread nD τ).loc main_arg4)) (m ((c : Thread nD τ).loc main_arg13)) (m ((c : Thread nD τ).loc main_arg14)) (m ((c : Thread nD τ).loc main_arg15)) := by
  show StableHlo.after hostOps3 (W6 m ρ c) (Proc.devRef .tc main_v73) = _
  after_results_simp
  rw [w6_crew, w6_arg3, w6_arg4]
  rfl
set_option maxHeartbeats 4000000 in
theorem v7_v83 : V7 m ρ c main_v83 = Cert.ReferenceIdeal.Read.val_main_v140 (F := Ideal) (m ((c : Thread nD τ).loc main_arg0)) (m ((c : Thread nD τ).loc main_arg2)) (m ((c : Thread nD τ).loc main_arg5)) (m ((c : Thread nD τ).loc main_arg6)) (m ((c : Thread nD τ).loc main_arg16)) (m ((c : Thread nD τ).loc main_arg17)) (m ((c : Thread nD τ).loc main_arg18)) := by
  show StableHlo.after hostOps3 (W6 m ρ c) (Proc.devRef .tc main_v83) = _
  after_results_simp
  rw [w6_cast, w6_arg5, w6_arg6]
  rfl
set_option maxHeartbeats 4000000 in
theorem v7_v84 : V7 m ρ c main_v84 = shapeCast S200000x1 (Cert.ReferenceIdeal.Read.val_main_v119 (F := Ideal) (m ((c : Thread nD τ).loc main_arg4))) shapeCasts_S200000_S200000x1 := by
  show StableHlo.after hostOps3 (W6 m ρ c) (Proc.devRef .tc main_v84) = _
  after_results_simp
  rw [w6_v3]
  rfl
set_option maxHeartbeats 4000000 in
theorem v7_v85 : V7 m ρ c main_v85 = shapeCast S200000x1 (Cert.ReferenceIdeal.Read.val_main_v144 (F := Ideal) (m ((c : Thread nD τ).loc main_arg6))) shapeCasts_S200000_S200000x1 := by
  show StableHlo.after hostOps3 (W6 m ρ c) (Proc.devRef .tc main_v85) = _
  after_results_simp
  rw [w6_v6]
  rfl
set_option maxHeartbeats 4000000 in
theorem v7_v86 : V7 m ρ c main_v86 = shapeCast S1x128 (m ((c : Thread nD τ).loc main_arg21)) shapeCasts_S128_S1x128 := by
  show StableHlo.after hostOps3 (W6 m ρ c) (Proc.devRef .tc main_v86) = _
  after_results_simp
  rw [w6_arg21]
  rfl
set_option maxHeartbeats 4000000 in
theorem v7_v87 : V7 m ρ c main_v87 = shapeCast S1x128 (m ((c : Thread nD τ).loc main_arg24)) shapeCasts_S128_S1x128 := by
  show StableHlo.after hostOps3 (W6 m ρ c) (Proc.devRef .tc main_v87) = _
  after_results_simp
  rw [w6_arg24]
  rfl
set_option maxHeartbeats 4000000 in
theorem v7_v88 : V7 m ρ c main_v88 = shapeCast S1x16 (m ((c : Thread nD τ).loc main_arg32)) shapeCasts_S16_S1x16 := by
  show StableHlo.after hostOps3 (W6 m ρ c) (Proc.devRef .tc main_v88) = _
  after_results_simp
  rw [w6_arg32]
  rfl

/-! ## The second layer and the projection -/

/-- What region 3 computes of what it finds is the reference's result. -/
theorem result_eq : MoviesSecond.G (V7 m ρ) c = Cert.ReferenceIdeal.Read.val_main_v215 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg31)) (m ((c : Thread nD τ).loc main_arg32)) := by
  funext i
  obtain ⟨r, j, rfl⟩ : ∃ (r : Fin 200000) (j : Fin 16), i = ix2 r j := ⟨i 0, i 1, eq_ix2 i⟩
  refine Eq.trans ?_ (Cert.RefValue.result_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg31)) (m ((c : Thread nD τ).loc main_arg32)) r j).symm
  unfold MoviesSecond.G
  refine congr (congr (congrArg (Sage.proj (h := 128)) (funext fun p => ?_)) (funext fun p => ?_)) ?_
  · refine Eq.trans ?_ (Cert.RefValue.movies_second_layer_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) r p).symm
    refine (congr (congr (congr (congr (congr (congr (congr (congr (congr (congr (congrArg (Sage.two_rel (k1 := 128) (k2 := 128) (d := 128)) (funext fun q => ?_)) ?_) (funext fun q => ?_)) ?_) (funext fun q => ?_))
    (funext fun q => ?_)) (funext fun q => ?_)) ?_) (funext fun q => ?_)) (funext fun q => ?_)) ?_)
    · exact congrFun (v7_v73 m ρ c) _
    · exact (congrFun (v7_v84 m ρ c) _).trans (Keepdims.shapeCast_a_a1_apply _ _ r 0)
    · exact congrFun (v7_v83 m ρ c) _
    · exact (congrFun (v7_v85 m ρ c) _).trans (Keepdims.shapeCast_a_a1_apply _ _ r 0)
    · exact congrFun (v7_movies m ρ c) _
    · exact congrFun (v7_arg19 m ρ c) _
    · exact congrFun (v7_arg20 m ρ c) _
    · exact (congrFun (v7_v86 m ρ c) _).trans (shapeCast_a_1a_apply _ _ 0 p)
    · exact congrFun (v7_arg22 m ρ c) _
    · exact congrFun (v7_arg23 m ρ c) _
    · exact (congrFun (v7_v87 m ρ c) _).trans (shapeCast_a_1a_apply _ _ 0 p)
  · exact congrFun (v7_arg31 m ρ c) _
  · exact (congrFun (v7_v88 m ρ c) _).trans (shapeCast_a_1a_apply _ _ 0 j)

/-- The program's result buffer at the last boundary. -/
theorem result : W8 m ρ c (Proc.devRef .tc main_v89) = Cert.ReferenceIdeal.Read.val_main_v215 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg31)) (m ((c : Thread nD τ).loc main_arg32)) :=
  (W8_arr m ρ c 13).trans ((MoviesSecond.arr (V7 m ρ) c).trans (result_eq m ρ c))

/-- The kernel's program: every weakly fair execution terminates, nothing faulting, with the result at the reference's
    result stage of the arguments and the arguments unchanged. -/
theorem run : θ_run (defs (F := Ideal)) (onTc (τ := τ) (main (F := Ideal))) ⟨m, fun _ => 0, ρ⟩ (fun r => ∀ c : Dev nD,
      r.2.mem ((c.tc : Thread nD τ).loc main_v89) = Cert.ReferenceIdeal.Read.val_main_v215 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg31)) (m ((c.tc : Thread nD τ).loc main_arg32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)) :=
  run_post m ρ (fun s h c =>
    ⟨(h c _ (mem_uc main_v89 (by decide))).trans (result m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c),
     (h c _ (mem_uc main_arg15 (by decide))).trans (W8_main_arg15 m ρ c),
     (h c _ (mem_uc main_arg16 (by decide))).trans (W8_main_arg16 m ρ c),
     (h c _ (mem_uc main_arg17 (by decide))).trans (W8_main_arg17 m ρ c),
     (h c _ (mem_uc main_arg18 (by decide))).trans (W8_main_arg18 m ρ c),
     (h c _ (mem_uc main_arg19 (by decide))).trans (W8_main_arg19 m ρ c),
     (h c _ (mem_uc main_arg20 (by decide))).trans (W8_main_arg20 m ρ c),
     (h c _ (mem_uc main_arg21 (by decide))).trans (W8_main_arg21 m ρ c),
     (h c _ (mem_uc main_arg22 (by decide))).trans (W8_main_arg22 m ρ c),
     (h c _ (mem_uc main_arg23 (by decide))).trans (W8_main_arg23 m ρ c),
     (h c _ (mem_uc main_arg24 (by decide))).trans (W8_main_arg24 m ρ c),
     (h c _ (mem_uc main_arg25 (by decide))).trans (W8_main_arg25 m ρ c),
     (h c _ (mem_uc main_arg26 (by decide))).trans (W8_main_arg26 m ρ c),
     (h c _ (mem_uc main_arg27 (by decide))).trans (W8_main_arg27 m ρ c),
     (h c _ (mem_uc main_arg28 (by decide))).trans (W8_main_arg28 m ρ c),
     (h c _ (mem_uc main_arg29 (by decide))).trans (W8_main_arg29 m ρ c),
     (h c _ (mem_uc main_arg30 (by decide))).trans (W8_main_arg30 m ρ c),
     (h c _ (mem_uc main_arg31 (by decide))).trans (W8_main_arg31 m ρ c),
     (h c _ (mem_uc main_arg32 (by decide))).trans (W8_main_arg32 m ρ c)⟩)

end Cert.KernelIdeal.Whole

end
-- ==== Proof.lean ====
/-
  A two-layer heterogeneous GraphSAGE network (movies, crew, cast; relations crew→movies, cast→movies and their
  reverses) followed by a linear projection of the movies' features: the kernel's program against the reference.

  Both programs compute, for every relation, the messages summed into their destination nodes (a gather along the
  edges and a segment sum: host operations in both programs, the same ones), the in-degrees (a segment sum of ones),
  and then per destination node r and channel c
      ( Σ_q (msg r q / max(cnt r, 1)) · W_l q c + b c ) + Σ_q x r q · W_r q c,
  one relation rectified for crew and cast, the mean of two relations rectified for movies; the second layer does
  the same for the movies over the first layer's features, and the result is its projection plus a bias.
  The reference computes each layer with whole-array host operations; the kernel's program computes it in four
  kernel regions, each tiling its output by blocks of 4000 rows, with the operands of every product narrowed to
  bf16. At the ideal values narrowing is the identity, a product into a zero accumulator and the host's product
  are the same finite sum, and an entry of a block depends on its own row of the block's inputs only — so every
  region's output array is the reference's stage of the same layer, as a function of the arguments. The kernel's
  program skips the reference's second-layer crew and cast updates, which the result does not depend on.
  No law beyond reindexing finite sums is used, so the finiteness precondition is never opened.

  The frames of the two kernel programs are the generated ones; the reference's frame is its generated run with the
  result dropped; no operation was rewritten by the idealization, so there is nothing to preserve.
-/
import proofs.«129889_j55602646614065_1_alg».proof.Defs
import proofs.«129889_j55602646614065_1_alg».proof.Proof.Gen.Kernel
import proofs.«129889_j55602646614065_1_alg».proof.Proof.Gen.Kernel.Skeleton
import proofs.«129889_j55602646614065_1_alg».proof.Proof.Gen.Kernel.Launch
import proofs.«129889_j55602646614065_1_alg».proof.Proof.Gen.Kernel.Points
import proofs.«129889_j55602646614065_1_alg».proof.Proof.Gen.Kernel.Frame
import proofs.«129889_j55602646614065_1_alg».proof.Proof.Gen.KernelIdeal
import proofs.«129889_j55602646614065_1_alg».proof.Proof.Gen.KernelIdeal.Skeleton
import proofs.«129889_j55602646614065_1_alg».proof.Proof.Gen.KernelIdeal.Launch
import proofs.«129889_j55602646614065_1_alg».proof.Proof.Gen.KernelIdeal.Points
import proofs.«129889_j55602646614065_1_alg».proof.Proof.Gen.KernelIdeal.Frame
import proofs.«129889_j55602646614065_1_alg».proof.Proof.Gen.ReferenceIdeal
import proofs.«129889_j55602646614065_1_alg».proof.Proof.Gen.ReferenceIdeal.Run
import proofs.«129889_j55602646614065_1_alg».proof.Proof.Gen.ReferenceIdeal.Read
import proofs.«129889_j55602646614065_1_alg».proof.Proof.Gen.Pre_finite_inputs
import proofs.«129889_j55602646614065_1_alg».proof.Proof.KernelValue
import Idealize.ShloMosaic.Adequacy
import Idealize.ShloMosaic.Init

noncomputable section

namespace Cert.Proof

open Idealize.ShloMosaic Idealize.SL.Sem

/-- From memories agreeing on the arguments both programs end with the reference's result stage of the kernel
    program's arguments: the kernel's by its run read through the four regions, the reference's by its generated
    run, the arguments' agreement rewritten. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24, h25, h26, h27, h28, h29, h30, h31, h32⟩ := hagree c
  rw [Cert.ReferenceIdeal.Read.val_main_v215_eq, h0, h1, h2, h3, h4, h5, h6, h7, h8, h9, h10, h11, h12, h13, h14, h15, h16, h17, h18, h19, h20, h21, h22, h23, h24, h31, h32]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.Value.run (F := Ideal) m ρ),
    trivial,
    algebraic⟩

end Cert.Proof

end
